-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000x10 : Shape := ⟨2, ![320000, 10]⟩
abbrev S256x512 : Shape := ⟨2, ![256, 512]⟩
abbrev S10x512 : Shape := ⟨2, ![10, 512]⟩
abbrev S512 : Shape := ⟨1, ![512]⟩
abbrev S496x496 : Shape := ⟨2, ![496, 496]⟩
abbrev S10x496 : Shape := ⟨2, ![10, 496]⟩
abbrev S496 : Shape := ⟨1, ![496]⟩
abbrev S256x256 : Shape := ⟨2, ![256, 256]⟩
abbrev S10x256 : Shape := ⟨2, ![10, 256]⟩
abbrev S256 : Shape := ⟨1, ![256]⟩
abbrev S16x32 : Shape := ⟨2, ![16, 32]⟩
abbrev S10x32 : Shape := ⟨2, ![10, 32]⟩
abbrev S32 : Shape := ⟨1, ![32]⟩
abbrev S32x64 : Shape := ⟨2, ![32, 64]⟩
abbrev S10x64 : Shape := ⟨2, ![10, 64]⟩
abbrev S64 : Shape := ⟨1, ![64]⟩
abbrev S64x128 : Shape := ⟨2, ![64, 128]⟩
abbrev S10x128 : Shape := ⟨2, ![10, 128]⟩
abbrev S128 : Shape := ⟨1, ![128]⟩
abbrev S128x256 : Shape := ⟨2, ![128, 256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000x10 : S_.BroadcastsInDim S320000x10 (![] : Fin 0 → Fin S320000x10.rank)
  reducesTo_S320000x10_S_d0_1 : S320000x10.ReducesTo [0, 1] S_
  bcast_S_S256x512 : S_.BroadcastsInDim S256x512 (![] : Fin 0 → Fin S256x512.rank)
  reducesTo_S256x512_S_d0_1 : S256x512.ReducesTo [0, 1] S_
  bcast_S_S10x512 : S_.BroadcastsInDim S10x512 (![] : Fin 0 → Fin S10x512.rank)
  reducesTo_S10x512_S_d0_1 : S10x512.ReducesTo [0, 1] S_
  bcast_S_S512 : S_.BroadcastsInDim S512 (![] : Fin 0 → Fin S512.rank)
  reducesTo_S512_S_d0 : S512.ReducesTo [0] S_
  bcast_S_S496x496 : S_.BroadcastsInDim S496x496 (![] : Fin 0 → Fin S496x496.rank)
  reducesTo_S496x496_S_d0_1 : S496x496.ReducesTo [0, 1] S_
  bcast_S_S10x496 : S_.BroadcastsInDim S10x496 (![] : Fin 0 → Fin S10x496.rank)
  reducesTo_S10x496_S_d0_1 : S10x496.ReducesTo [0, 1] S_
  bcast_S_S496 : S_.BroadcastsInDim S496 (![] : Fin 0 → Fin S496.rank)
  reducesTo_S496_S_d0 : S496.ReducesTo [0] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S256 : S_.BroadcastsInDim S256 (![] : Fin 0 → Fin S256.rank)
  reducesTo_S256_S_d0 : S256.ReducesTo [0] S_
  bcast_S_S16x32 : S_.BroadcastsInDim S16x32 (![] : Fin 0 → Fin S16x32.rank)
  reducesTo_S16x32_S_d0_1 : S16x32.ReducesTo [0, 1] S_
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part6 {F : FTy → Type} [FloatOps F] (main_arg22 : FVec F S10x256 .f32) (main_arg23 : FVec F S256 .f32) (main_v98 : IVec S_ 1) (main_v101 : IVec S128x256 1) (main_c_39 : IVec S_ 1) : IVec S_ 1 :=
  let main_v102 : IVec S_ 1 := (fun x v => Host.reduce IntOp.andi x v reducesTo_S128x256_S_d0_1 h_S_) main_v101 main_c_39
  let main_v103 : IVec S_ 1 := andi main_v98 main_v102
  let main_v104 : FVec F S10x256 .f32 := Host.absf main_arg22
  let main_cst_40 : FVec F S_ .f32 := constant S_ .f32 0x7F800000#32
  let main_v105 : FVec F S10x256 .f32 := broadcastInDim S10x256 ![] bcast_S_S10x256 main_cst_40
  let main_v106 : IVec S10x256 1 := cmpf .olt main_v104 main_v105
  let main_c_41 : IVec S_ 1 := constantI S_ 1 1#1
  let main_v107 : IVec S_ 1 := (fun x v => Host.reduce IntOp.andi x v reducesTo_S10x256_S_d0_1 h_S_) main_v106 main_c_41
  let main_v108 : IVec S_ 1 := andi main_v103 main_v107
  let main_v109 : FVec F S256 .f32 := Host.absf main_arg23
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  main_v113

def fn_part5 {F : FTy → Type} [FloatOps F] (main_arg19 : FVec F S10x128 .f32) (main_arg20 : FVec F S128 .f32) (main_arg21 : FVec F S128x256 .f32) (main_arg22 : FVec F S10x256 .f32) (main_arg23 : FVec F S256 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S10x128 .f32 := Host.absf main_arg19
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x256 .f32 := Host.absf main_arg21
  let main_cst_38 : FVec F S_ .f32 := constant S_ .f32 0x7F800000#32
  let main_v100 : FVec F S128x256 .f32 := broadcastInDim S128x256 ![] bcast_S_S128x256 main_cst_38
  let main_v101 : IVec S128x256 1 := cmpf .olt main_v99 main_v100
  let main_c_39 : IVec S_ 1 := constantI S_ 1 1#1
  fn_part6 (F := F) main_arg22 main_arg23 main_v98 main_v101 main_c_39

def fn_part4 {F : FTy → Type} [FloatOps F] (main_arg15 : FVec F S32x64 .f32) (main_arg16 : FVec F S10x64 .f32) (main_arg17 : FVec F S64 .f32) (main_arg18 : FVec F S64x128 .f32) (main_arg19 : FVec F S10x128 .f32) (main_arg20 : FVec F S128 .f32) (main_arg21 : FVec F S128x256 .f32) (main_arg22 : FVec F S10x256 .f32) (main_arg23 : FVec F S256 .f32) (main_v63 : IVec S_ 1) (main_v67 : IVec S_ 1) : IVec S_ 1 :=
  let main_v68 : IVec S_ 1 := andi main_v63 main_v67
  let main_v69 : FVec F S32x64 .f32 := Host.absf main_arg15
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S10x64 .f32 := Host.absf main_arg16
  let main_cst_28 : FVec F S_ .f32 := constant S_ .f32 0x7F800000#32
  let main_v75 : FVec F S10x64 .f32 := broadcastInDim S10x64 ![] bcast_S_S10x64 main_cst_28
  let main_v76 : IVec S10x64 1 := cmpf .olt main_v74 main_v75
  let main_c_29 : IVec S_ 1 := constantI S_ 1 1#1
  let main_v77 : IVec S_ 1 := (fun x v => Host.reduce IntOp.andi x v reducesTo_S10x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x128 .f32 := Host.absf main_arg18
  let main_cst_32 : FVec F S_ .f32 := constant S_ .f32 0x7F800000#32
  fn_part5 (F := F) main_arg19 main_arg20 main_arg21 main_arg22 main_arg23 main_v83 main_v84 main_cst_32

def fn_part3 {F : FTy → Type} [FloatOps F] (main_arg12 : FVec F S16x32 .f32) (main_arg13 : FVec F S10x32 .f32) (main_arg14 : FVec F S32 .f32) (main_arg15 : FVec F S32x64 .f32) (main_arg16 : FVec F S10x64 .f32) (main_arg17 : FVec F S64 .f32) (main_arg18 : FVec F S64x128 .f32) (main_arg19 : FVec F S10x128 .f32) (main_arg20 : FVec F S128 .f32) (main_arg21 : FVec F S128x256 .f32) (main_arg22 : FVec F S10x256 .f32) (main_arg23 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S16x32 .f32 := Host.absf main_arg12
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S10x32 .f32 := Host.absf main_arg13
  let main_cst_22 : FVec F S_ .f32 := constant S_ .f32 0x7F800000#32
  let main_v60 : FVec F S10x32 .f32 := broadcastInDim S10x32 ![] bcast_S_S10x32 main_cst_22
  let main_v61 : IVec S10x32 1 := cmpf .olt main_v59 main_v60
  let main_c_23 : IVec S_ 1 := constantI S_ 1 1#1
  let main_v62 : IVec S_ 1 := (fun x v => Host.reduce IntOp.andi x v reducesTo_S10x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_arg21 main_arg22 main_arg23 main_v63 main_v67

def fn_part2 {F : FTy → Type} [FloatOps F] (main_arg8 : FVec F S496 .f32) (main_arg9 : FVec F S256x256 .f32) (main_arg10 : FVec F S10x256 .f32) (main_arg11 : FVec F S256 .f32) (main_arg12 : FVec F S16x32 .f32) (main_arg13 : FVec F S10x32 .f32) (main_arg14 : FVec F S32 .f32) (main_arg15 : FVec F S32x64 .f32) (main_arg16 : FVec F S10x64 .f32) (main_arg17 : FVec F S64 .f32) (main_arg18 : FVec F S64x128 .f32) (main_arg19 : FVec F S10x128 .f32) (main_arg20 : FVec F S128 .f32) (main_arg21 : FVec F S128x256 .f32) (main_arg22 : FVec F S10x256 .f32) (main_arg23 : FVec F S256 .f32) (main_v33 : IVec S_ 1) : IVec S_ 1 :=
  let main_v34 : FVec F S496 .f32 := Host.absf main_arg8
  let main_cst_12 : FVec F S_ .f32 := constant S_ .f32 0x7F800000#32
  let main_v35 : FVec F S496 .f32 := broadcastInDim S496 ![] bcast_S_S496 main_cst_12
  let main_v36 : IVec S496 1 := cmpf .olt main_v34 main_v35
  let main_c_13 : IVec S_ 1 := constantI S_ 1 1#1
  let main_v37 : IVec S_ 1 := (fun x v => Host.reduce IntOp.andi x v reducesTo_S496_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S10x256 .f32 := Host.absf main_arg10
  let main_cst_16 : FVec F S_ .f32 := constant S_ .f32 0x7F800000#32
  let main_v45 : FVec F S10x256 .f32 := broadcastInDim S10x256 ![] bcast_S_S10x256 main_cst_16
  let main_v46 : IVec S10x256 1 := cmpf .olt main_v44 main_v45
  let main_c_17 : IVec S_ 1 := constantI S_ 1 1#1
  let main_v47 : IVec S_ 1 := (fun x v => Host.reduce IntOp.andi x v reducesTo_S10x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_arg21 main_arg22 main_arg23 main_v48 main_v49 main_v50

def fn_part1 {F : FTy → Type} [FloatOps F] (main_arg5 : FVec F S512 .f32) (main_arg6 : FVec F S496x496 .f32) (main_arg7 : FVec F S10x496 .f32) (main_arg8 : FVec F S496 .f32) (main_arg9 : FVec F S256x256 .f32) (main_arg10 : FVec F S10x256 .f32) (main_arg11 : FVec F S256 .f32) (main_arg12 : FVec F S16x32 .f32) (main_arg13 : FVec F S10x32 .f32) (main_arg14 : FVec F S32 .f32) (main_arg15 : FVec F S32x64 .f32) (main_arg16 : FVec F S10x64 .f32) (main_arg17 : FVec F S64 .f32) (main_arg18 : FVec F S64x128 .f32) (main_arg19 : FVec F S10x128 .f32) (main_arg20 : FVec F S128 .f32) (main_arg21 : FVec F S128x256 .f32) (main_arg22 : FVec F S10x256 .f32) (main_arg23 : FVec F S256 .f32) (main_v13 : IVec S_ 1) (main_v16 : IVec S10x512 1) : IVec S_ 1 :=
  let main_c_5 : IVec S_ 1 := constantI S_ 1 1#1
  let main_v17 : IVec S_ 1 := (fun x v => Host.reduce IntOp.andi x v reducesTo_S10x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S496x496 .f32 := Host.absf main_arg6
  let main_cst_8 : FVec F S_ .f32 := constant S_ .f32 0x7F800000#32
  let main_v25 : FVec F S496x496 .f32 := broadcastInDim S496x496 ![] bcast_S_S496x496 main_cst_8
  let main_v26 : IVec S496x496 1 := cmpf .olt main_v24 main_v25
  let main_c_9 : IVec S_ 1 := constantI S_ 1 1#1
  let main_v27 : IVec S_ 1 := (fun x v => Host.reduce IntOp.andi x v reducesTo_S496x496_S_d0_1 h_S_) main_v26 main_c_9
  let main_v28 : IVec S_ 1 := andi main_v23 main_v27
  let main_v29 : FVec F S10x496 .f32 := Host.absf main_arg7
  let main_cst_10 : FVec F S_ .f32 := constant S_ .f32 0x7F800000#32
  let main_v30 : FVec F S10x496 .f32 := broadcastInDim S10x496 ![] bcast_S_S10x496 main_cst_10
  let main_v31 : IVec S10x496 1 := cmpf .olt main_v29 main_v30
  let main_c_11 : IVec S_ 1 := constantI S_ 1 1#1
  let main_v32 : IVec S_ 1 := (fun x v => Host.reduce IntOp.andi x v reducesTo_S10x496_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S20000x256 .f32) (main_arg1 : IVec S2x320000 32) (main_arg2 : FVec F S320000x10 .f32) (main_arg3 : FVec F S256x512 .f32) (main_arg4 : FVec F S10x512 .f32) (main_arg5 : FVec F S512 .f32) (main_arg6 : FVec F S496x496 .f32) (main_arg7 : FVec F S10x496 .f32) (main_arg8 : FVec F S496 .f32) (main_arg9 : FVec F S256x256 .f32) (main_arg10 : FVec F S10x256 .f32) (main_arg11 : FVec F S256 .f32) (main_arg12 : FVec F S16x32 .f32) (main_arg13 : FVec F S10x32 .f32) (main_arg14 : FVec F S32 .f32) (main_arg15 : FVec F S32x64 .f32) (main_arg16 : FVec F S10x64 .f32) (main_arg17 : FVec F S64 .f32) (main_arg18 : FVec F S64x128 .f32) (main_arg19 : FVec F S10x128 .f32) (main_arg20 : FVec F S128 .f32) (main_arg21 : FVec F S128x256 .f32) (main_arg22 : FVec F S10x256 .f32) (main_arg23 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000x10 .f32 := Host.absf main_arg2
  let main_cst_0 : FVec F S_ .f32 := constant S_ .f32 0x7F800000#32
  let main_v5 : FVec F S320000x10 .f32 := broadcastInDim S320000x10 ![] bcast_S_S320000x10 main_cst_0
  let main_v6 : IVec S320000x10 1 := cmpf .olt main_v4 main_v5
  let main_c_1 : IVec S_ 1 := constantI S_ 1 1#1
  let main_v7 : IVec S_ 1 := (fun x v => Host.reduce IntOp.andi x v reducesTo_S320000x10_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S10x512 .f32 := Host.absf main_arg4
  let main_cst_4 : FVec F S_ .f32 := constant S_ .f32 0x7F800000#32
  let main_v15 : FVec F S10x512 .f32 := broadcastInDim S10x512 ![] bcast_S_S10x512 main_cst_4
  let main_v16 : IVec S10x512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S20000x256 : Shape := ⟨2, ![20000, 256]⟩
abbrev S2x320000 : Shape := ⟨2, ![2, 320000]⟩
abbrev S320000x10 : Shape := ⟨2, ![320000, 10]⟩
abbrev S256x512 : Shape := ⟨2, ![256, 512]⟩
abbrev S10x512 : Shape := ⟨2, ![10, 512]⟩
abbrev S512 : Shape := ⟨1, ![512]⟩
abbrev S496x496 : Shape := ⟨2, ![496, 496]⟩
abbrev S10x496 : Shape := ⟨2, ![10, 496]⟩
abbrev S496 : Shape := ⟨1, ![496]⟩
abbrev S256x256 : Shape := ⟨2, ![256, 256]⟩
abbrev S10x256 : Shape := ⟨2, ![10, 256]⟩
abbrev S256 : Shape := ⟨1, ![256]⟩
abbrev S16x32 : Shape := ⟨2, ![16, 32]⟩
abbrev S10x32 : Shape := ⟨2, ![10, 32]⟩
abbrev S32 : Shape := ⟨1, ![32]⟩
abbrev S32x64 : Shape := ⟨2, ![32, 64]⟩
abbrev S10x64 : Shape := ⟨2, ![10, 64]⟩
abbrev S64 : Shape := ⟨1, ![64]⟩
abbrev S64x128 : Shape := ⟨2, ![64, 128]⟩
abbrev S10x128 : Shape := ⟨2, ![10, 128]⟩
abbrev S128 : Shape := ⟨1, ![128]⟩
abbrev S128x256 : Shape := ⟨2, ![128, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S2000x256 : Shape := ⟨2, ![2000, 256]⟩
abbrev S2000x10 : Shape := ⟨2, ![2000, 10]⟩
abbrev S2000x512 : Shape := ⟨2, ![2000, 512]⟩
abbrev S20000x512 : Shape := ⟨2, ![20000, 512]⟩
abbrev S1x512 : Shape := ⟨2, ![1, 512]⟩
abbrev S20000x16 : Shape := ⟨2, ![20000, 16]⟩
abbrev S20000x496 : Shape := ⟨2, ![20000, 496]⟩
abbrev S320000x496 : Shape := ⟨2, ![320000, 496]⟩
abbrev S2000x496 : Shape := ⟨2, ![2000, 496]⟩
abbrev S1x496 : Shape := ⟨2, ![1, 496]⟩
abbrev S20000x32 : Shape := ⟨2, ![20000, 32]⟩
abbrev S20000x64 : Shape := ⟨2, ![20000, 64]⟩
abbrev S20000x128 : Shape := ⟨2, ![20000, 128]⟩
abbrev S320000x16 : Shape := ⟨2, ![320000, 16]⟩
abbrev S320000x32 : Shape := ⟨2, ![320000, 32]⟩
abbrev S2000x16 : Shape := ⟨2, ![2000, 16]⟩
abbrev S2000x32 : Shape := ⟨2, ![2000, 32]⟩
abbrev S1x32 : Shape := ⟨2, ![1, 32]⟩
abbrev S320000x64 : Shape := ⟨2, ![320000, 64]⟩
abbrev S2000x64 : Shape := ⟨2, ![2000, 64]⟩
abbrev S1x64 : Shape := ⟨2, ![1, 64]⟩
abbrev S320000x128 : Shape := ⟨2, ![320000, 128]⟩
abbrev S2000x128 : Shape := ⟨2, ![2000, 128]⟩
abbrev S1x128 : Shape := ⟨2, ![1, 128]⟩
abbrev S1x256 : Shape := ⟨2, ![1, 256]⟩

abbrev nBuf : Space → Nat
  | .hbm => 162
  | .vmem => 56
  | .smem => 0
  | _ => 0

abbrev hbmTy0_0 (i : Nat) : BufTy := match i % 128 with
  | 0 => ⟨S20000x256, .f32⟩
  | 1 => ⟨S2x320000, .i32⟩
  | 2 => ⟨S320000x10, .f32⟩
  | 3 => ⟨S256x512, .f32⟩
  | 4 => ⟨S10x512, .f32⟩
  | 5 => ⟨S512, .f32⟩
  | 6 => ⟨S496x496, .f32⟩
  | 7 => ⟨S10x496, .f32⟩
  | 8 => ⟨S496, .f32⟩
  | 9 => ⟨S256x256, .f32⟩
  | 10 => ⟨S10x256, .f32⟩
  | 11 => ⟨S256, .f32⟩
  | 12 => ⟨S16x32, .f32⟩
  | 13 => ⟨S10x32, .f32⟩
  | 14 => ⟨S32, .f32⟩
  | 15 => ⟨S32x64, .f32⟩
  | 16 => ⟨S10x64, .f32⟩
  | 17 => ⟨S64, .f32⟩
  | 18 => ⟨S64x128, .f32⟩
  | 19 => ⟨S10x128, .f32⟩
  | 20 => ⟨S128, .f32⟩
  | 21 => ⟨S128x256, .f32⟩
  | 22 => ⟨S10x256, .f32⟩
  | 23 => ⟨S256, .f32⟩
  | 24 => ⟨S1x320000, .i32⟩
  | 25 => ⟨S320000, .i32⟩
  | 26 => ⟨S1x320000, .i32⟩
  | 27 => ⟨S320000, .i32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S320000x512, .f32⟩
  | 38 => ⟨S_, .f32⟩
  | 39 => ⟨S20000x512, .f32⟩
  | 40 => ⟨S320000x1, .i32⟩
  | 41 => ⟨S20000x512, .f32⟩
  | 42 => ⟨S1x512, .f32⟩
  | 43 => ⟨S20000x512, .f32⟩
  | 44 => ⟨S20000x512, .f32⟩
  | 45 => ⟨S20000x16, .f32⟩
  | 46 => ⟨S20000x496, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x496, .f32⟩
  | 56 => ⟨S320000x496, .f32⟩
  | 57 => ⟨S_, .f32⟩
  | 58 => ⟨S20000x496, .f32⟩
  | 59 => ⟨S320000x1, .i32⟩
  | 60 => ⟨S20000x496, .f32⟩
  | 61 => ⟨S1x496, .f32⟩
  | 62 => ⟨S20000x496, .f32⟩
  | 63 => ⟨S20000x496, .f32⟩
  | 64 => ⟨S_, .f32⟩
  | 65 => ⟨S20000x496, .f32⟩
  | 66 => ⟨S20000x496, .f32⟩
  | 67 => ⟨S20000x16, .f32⟩
  | 68 => ⟨S20000x32, .f32⟩
  | 69 => ⟨S20000x64, .f32⟩
  | 70 => ⟨S20000x128, .f32⟩
  | 71 => ⟨S20000x256, .f32⟩
  | 72 => ⟨S20000x16, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x16, .f32⟩
  | 82 => ⟨S320000x32, .f32⟩
  | 83 => ⟨S_, .f32⟩
  | 84 => ⟨S20000x32, .f32⟩
  | 85 => ⟨S320000x1, .i32⟩
  | 86 => ⟨S20000x32, .f32⟩
  | 87 => ⟨S1x32, .f32⟩
  | 88 => ⟨S20000x32, .f32⟩
  | 89 => ⟨S20000x32, .f32⟩
  | 90 => ⟨S20000x32, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x32, .f32⟩
  | 100 => ⟨S320000x64, .f32⟩
  | 101 => ⟨S_, .f32⟩
  | 102 => ⟨S20000x64, .f32⟩
  | 103 => ⟨S320000x1, .i32⟩
  | 104 => ⟨S20000x64, .f32⟩
  | 105 => ⟨S1x64, .f32⟩
  | 106 => ⟨S20000x64, .f32⟩
  | 107 => ⟨S20000x64, .f32⟩
  | 108 => ⟨S20000x64, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x64, .f32⟩
  | 118 => ⟨S320000x128, .f32⟩
  | 119 => ⟨S_, .f32⟩
  | 120 => ⟨S20000x128, .f32⟩
  | 121 => ⟨S320000x1, .i32⟩
  | 122 => ⟨S20000x128, .f32⟩
  | 123 => ⟨S1x128, .f32⟩
  | 124 => ⟨S20000x128, .f32⟩
  | 125 => ⟨S20000x128, .f32⟩
  | 126 => ⟨S20000x128, .f32⟩
  | 127 => ⟨S_, .i32⟩
  | _ => ⟨S20000x256, .f32⟩

abbrev hbmTy0_1 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x128, .f32⟩
  | 8 => ⟨S320000x256, .f32⟩
  | 9 => ⟨S_, .f32⟩
  | 10 => ⟨S20000x256, .f32⟩
  | 11 => ⟨S320000x1, .i32⟩
  | 12 => ⟨S20000x256, .f32⟩
  | 13 => ⟨S1x256, .f32⟩
  | 14 => ⟨S20000x256, .f32⟩
  | 15 => ⟨S20000x256, .f32⟩
  | 16 => ⟨S20000x256, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000x256, .f32⟩
  | 26 => ⟨S320000x256, .f32⟩
  | 27 => ⟨S_, .f32⟩
  | 28 => ⟨S20000x256, .f32⟩
  | 29 => ⟨S320000x1, .i32⟩
  | 30 => ⟨S20000x256, .f32⟩
  | 31 => ⟨S1x256, .f32⟩
  | 32 => ⟨S20000x256, .f32⟩
  | 33 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x10, .f32⟩
  | .local _ .vmem, ⟨3, _⟩ => ⟨S2000x10, .f32⟩
  | .local _ .vmem, ⟨4, _⟩ => ⟨S256x512, .f32⟩
  | .local _ .vmem, ⟨5, _⟩ => ⟨S10x512, .f32⟩
  | .local _ .vmem, ⟨6, _⟩ => ⟨S2000x512, .f32⟩
  | .local _ .vmem, ⟨7, _⟩ => ⟨S2000x512, .f32⟩
  | .local _ .vmem, ⟨8, _⟩ => ⟨S2000x496, .f32⟩
  | .local _ .vmem, ⟨9, _⟩ => ⟨S2000x496, .f32⟩
  | .local _ .vmem, ⟨10, _⟩ => ⟨S2000x10, .f32⟩
  | .local _ .vmem, ⟨11, _⟩ => ⟨S2000x10, .f32⟩
  | .local _ .vmem, ⟨12, _⟩ => ⟨S496x496, .f32⟩
  | .local _ .vmem, ⟨13, _⟩ => ⟨S10x496, .f32⟩
  | .local _ .vmem, ⟨14, _⟩ => ⟨S2000x496, .f32⟩
  | .local _ .vmem, ⟨15, _⟩ => ⟨S2000x496, .f32⟩
  | .local _ .vmem, ⟨16, _⟩ => ⟨S2000x16, .f32⟩
  | .local _ .vmem, ⟨17, _⟩ => ⟨S2000x16, .f32⟩
  | .local _ .vmem, ⟨18, _⟩ => ⟨S2000x10, .f32⟩
  | .local _ .vmem, ⟨19, _⟩ => ⟨S2000x10, .f32⟩
  | .local _ .vmem, ⟨20, _⟩ => ⟨S16x32, .f32⟩
  | .local _ .vmem, ⟨21, _⟩ => ⟨S10x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x10, .f32⟩
  | .local _ .vmem, ⟨27, _⟩ => ⟨S2000x10, .f32⟩
  | .local _ .vmem, ⟨28, _⟩ => ⟨S32x64, .f32⟩
  | .local _ .vmem, ⟨29, _⟩ => ⟨S10x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x10, .f32⟩
  | .local _ .vmem, ⟨35, _⟩ => ⟨S2000x10, .f32⟩
  | .local _ .vmem, ⟨36, _⟩ => ⟨S64x128, .f32⟩
  | .local _ .vmem, ⟨37, _⟩ => ⟨S10x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x10, .f32⟩
  | .local _ .vmem, ⟨43, _⟩ => ⟨S2000x10, .f32⟩
  | .local _ .vmem, ⟨44, _⟩ => ⟨S128x256, .f32⟩
  | .local _ .vmem, ⟨45, _⟩ => ⟨S10x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x10, .f32⟩
  | .local _ .vmem, ⟨51, _⟩ => ⟨S2000x10, .f32⟩
  | .local _ .vmem, ⟨52, _⟩ => ⟨S256x256, .f32⟩
  | .local _ .vmem, ⟨53, _⟩ => ⟨S10x256, .f32⟩
  | .local _ .vmem, ⟨54, _⟩ => ⟨S2000x256, .f32⟩
  | .local _ .vmem, ⟨55, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_1 : Ref sig .tc := ⟨.hbm, 47, rfl⟩
abbrev main_v20 : Ref sig .tc := ⟨.hbm, 48, rfl⟩
abbrev main_v21 : Ref sig .tc := ⟨.hbm, 49, rfl⟩
abbrev main_c_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_4 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_5 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_7 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_8 : Ref sig .tc := ⟨.hbm, 91, rfl⟩
abbrev main_v57 : Ref sig .tc := ⟨.hbm, 92, rfl⟩
abbrev main_v58 : Ref sig .tc := ⟨.hbm, 93, rfl⟩
abbrev main_c_9 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_11 : Ref sig .tc := ⟨.hbm, 109, rfl⟩
abbrev main_v72 : Ref sig .tc := ⟨.hbm, 110, rfl⟩
abbrev main_v73 : Ref sig .tc := ⟨.hbm, 111, rfl⟩
abbrev main_c_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_13 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_14 : Ref sig .tc := ⟨.hbm, 127, rfl⟩
abbrev main_v87 : Ref sig .tc := ⟨.hbm, 128, rfl⟩
abbrev main_v88 : Ref sig .tc := ⟨.hbm, 129, rfl⟩
abbrev main_c_15 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_17 : Ref sig .tc := ⟨.hbm, 145, rfl⟩
abbrev main_v102 : Ref sig .tc := ⟨.hbm, 146, rfl⟩
abbrev main_v103 : Ref sig .tc := ⟨.hbm, 147, rfl⟩
abbrev main_c_18 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_19 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x496 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S496x496 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x496 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x496 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![160], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S10x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![160], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x10 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S10x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![160], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x10 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S10x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S2000x10_S2000x10_0_0 : ∀ a, (![0, 0] : Fin 2 → Nat) a + S2000x10.size a ≤ S2000x10.size a
  h_S2000x10 : 0 < S2000x10.numel
  inb_S10x512_S10x512_0_0 : ∀ a, (![0, 0] : Fin 2 → Nat) a + S10x512.size a ≤ S10x512.size a
  h_S10x512 : 0 < S10x512.numel
  inb_S2000x512_S2000x512_0_0 : ∀ a, (![0, 0] : Fin 2 → Nat) a + S2000x512.size a ≤ S2000x512.size a
  h_S2000x512 : 0 < S2000x512.numel
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S20000x512_S20000x16_0_0 : S20000x512.Slices ![0, 0] S20000x16
  slices_S20000x512_S20000x496_0_16 : S20000x512.Slices ![0, 16] S20000x496
  inb_S2000x496_S2000x496_0_0 : ∀ a, (![0, 0] : Fin 2 → Nat) a + S2000x496.size a ≤ S2000x496.size a
  h_S2000x496 : 0 < S2000x496.numel
  shapeCasts_S2000x496_S2000x496 : S2000x496.ShapeCasts S2000x496
  inb_S496x496_S496x496_0_0 : ∀ a, (![0, 0] : Fin 2 → Nat) a + S496x496.size a ≤ S496x496.size a
  h_S496x496 : 0 < S496x496.numel
  inb_S10x496_S10x496_0_0 : ∀ a, (![0, 0] : Fin 2 → Nat) a + S10x496.size a ≤ S10x496.size a
  h_S10x496 : 0 < S10x496.numel
  bcast_S_S20000x496 : S_.BroadcastsInDim S20000x496 (![] : Fin 0 → Fin S20000x496.rank)
  bcast_S496_S1x496_1 : S496.BroadcastsInDim S1x496 (![1] : Fin 1 → Fin S1x496.rank)
  bcast_S1x496_S20000x496_0_1 : S1x496.BroadcastsInDim S20000x496 (![0, 1] : Fin 2 → Fin S20000x496.rank)
  slices_S20000x496_S20000x16_0_0 : S20000x496.Slices ![0, 0] S20000x16
  slices_S20000x496_S20000x32_0_16 : S20000x496.Slices ![0, 16] S20000x32
  slices_S20000x496_S20000x64_0_48 : S20000x496.Slices ![0, 48] S20000x64
  slices_S20000x496_S20000x128_0_112 : S20000x496.Slices ![0, 112] S20000x128
  slices_S20000x496_S20000x256_0_240 : S20000x496.Slices ![0, 240] S20000x256
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x32_S16x32_0_0 : ∀ a, (![0, 0] : Fin 2 → Nat) a + S16x32.size a ≤ S16x32.size a
  h_S16x32 : 0 < S16x32.numel
  inb_S10x32_S10x32_0_0 : ∀ a, (![0, 0] : Fin 2 → Nat) a + S10x32.size a ≤ S10x32.size a
  h_S10x32 : 0 < S10x32.numel
  inb_S2000x32_S2000x32_0_0 : ∀ a, (![0, 0] : Fin 2 → Nat) a + S2000x32.size a ≤ S2000x32.size a
  h_S2000x32 : 0 < S2000x32.numel
  bcast_S_S20000x32 : S_.BroadcastsInDim S20000x32 (![] : Fin 0 → Fin S20000x32.rank)
  bcast_S32_S1x32_1 : S32.BroadcastsInDim S1x32 (![1] : Fin 1 → Fin S1x32.rank)
  bcast_S1x32_S20000x32_0_1 : S1x32.BroadcastsInDim S20000x32 (![0, 1] : Fin 2 → Fin S20000x32.rank)
  shapeCasts_S2000x32_S2000x32 : S2000x32.ShapeCasts S2000x32
  inb_S32x64_S32x64_0_0 : ∀ a, (![0, 0] : Fin 2 → Nat) a + S32x64.size a ≤ S32x64.size a
  h_S32x64 : 0 < S32x64.numel
  inb_S10x64_S10x64_0_0 : ∀ a, (![0, 0] : Fin 2 → Nat) a + S10x64.size a ≤ S10x64.size a
  h_S10x64 : 0 < S10x64.numel
  inb_S2000x64_S2000x64_0_0 : ∀ a, (![0, 0] : Fin 2 → Nat) a + S2000x64.size a ≤ S2000x64.size a
  h_S2000x64 : 0 < S2000x64.numel
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S10x128_S10x128_0_0 : ∀ a, (![0, 0] : Fin 2 → Nat) a + S10x128.size a ≤ S10x128.size a
  h_S10x128 : 0 < S10x128.numel
  inb_S2000x128_S2000x128_0_0 : ∀ a, (![0, 0] : Fin 2 → Nat) a + S2000x128.size a ≤ S2000x128.size a
  h_S2000x128 : 0 < S2000x128.numel
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S10x256_S10x256_0_0 : ∀ a, (![0, 0] : Fin 2 → Nat) a + S10x256.size a ≤ S10x256.size a
  h_S10x256 : 0 < S10x256.numel
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  inb_S256x256_S256x256_0_0 : ∀ a, (![0, 0] : Fin 2 → Nat) a + S256x256.size a ≤ S256x256.size a
  h_S256x256 : 0 < S256x256.numel
  gather_S20000x256_S320000x1_S320000x256_1_0_n_n_0_1_1256_wf : GatherDims.WF S20000x256 S320000x1 S320000x256 [1] [0] [] [0] [] 1 ![1, 256]
  dot_S2000x256_S256x512_S2000x512_1_0_0_1_n_n_wf : DotDims.WF S2000x256 S256x512 S2000x512 [1] [0] [0] [1] [] []
  dot_S2000x10_S10x512_S2000x512_1_0_0_1_n_n_wf : DotDims.WF S2000x10 S10x512 S2000x512 [1] [0] [0] [1] [] []
  scatter_S20000x512_S320000x1_S320000x512_1_0_0_1_wf : ScatterDims.WF S20000x512 S320000x1 S320000x512 [1] [0] [0] 1
  gather_S20000x496_S320000x1_S320000x496_1_0_n_n_0_1_1496_wf : GatherDims.WF S20000x496 S320000x1 S320000x496 [1] [0] [] [0] [] 1 ![1, 496]
  dot_S2000x496_S496x496_S2000x496_1_0_0_1_n_n_wf : DotDims.WF S2000x496 S496x496 S2000x496 [1] [0] [0] [1] [] []
  dot_S2000x10_S10x496_S2000x496_1_0_0_1_n_n_wf : DotDims.WF S2000x10 S10x496 S2000x496 [1] [0] [0] [1] [] []
  scatter_S20000x496_S320000x1_S320000x496_1_0_0_1_wf : ScatterDims.WF S20000x496 S320000x1 S320000x496 [1] [0] [0] 1
  gather_S20000x16_S320000x1_S320000x16_1_0_n_n_0_1_116_wf : GatherDims.WF S20000x16 S320000x1 S320000x16 [1] [0] [] [0] [] 1 ![1, 16]
  dot_S2000x16_S16x32_S2000x32_1_0_0_1_n_n_wf : DotDims.WF S2000x16 S16x32 S2000x32 [1] [0] [0] [1] [] []
  dot_S2000x10_S10x32_S2000x32_1_0_0_1_n_n_wf : DotDims.WF S2000x10 S10x32 S2000x32 [1] [0] [0] [1] [] []
  scatter_S20000x32_S320000x1_S320000x32_1_0_0_1_wf : ScatterDims.WF S20000x32 S320000x1 S320000x32 [1] [0] [0] 1
  gather_S20000x32_S320000x1_S320000x32_1_0_n_n_0_1_132_wf : GatherDims.WF S20000x32 S320000x1 S320000x32 [1] [0] [] [0] [] 1 ![1, 32]
  dot_S2000x32_S32x64_S2000x64_1_0_0_1_n_n_wf : DotDims.WF S2000x32 S32x64 S2000x64 [1] [0] [0] [1] [] []
  dot_S2000x10_S10x64_S2000x64_1_0_0_1_n_n_wf : DotDims.WF S2000x10 S10x64 S2000x64 [1] [0] [0] [1] [] []
  scatter_S20000x64_S320000x1_S320000x64_1_0_0_1_wf : ScatterDims.WF S20000x64 S320000x1 S320000x64 [1] [0] [0] 1
  gather_S20000x64_S320000x1_S320000x64_1_0_n_n_0_1_164_wf : GatherDims.WF S20000x64 S320000x1 S320000x64 [1] [0] [] [0] [] 1 ![1, 64]
  dot_S2000x64_S64x128_S2000x128_1_0_0_1_n_n_wf : DotDims.WF S2000x64 S64x128 S2000x128 [1] [0] [0] [1] [] []
  dot_S2000x10_S10x128_S2000x128_1_0_0_1_n_n_wf : DotDims.WF S2000x10 S10x128 S2000x128 [1] [0] [0] [1] [] []
  scatter_S20000x128_S320000x1_S320000x128_1_0_0_1_wf : ScatterDims.WF S20000x128 S320000x1 S320000x128 [1] [0] [0] 1
  gather_S20000x128_S320000x1_S320000x128_1_0_n_n_0_1_1128_wf : GatherDims.WF S20000x128 S320000x1 S320000x128 [1] [0] [] [0] [] 1 ![1, 128]
  dot_S2000x128_S128x256_S2000x256_1_0_0_1_n_n_wf : DotDims.WF S2000x128 S128x256 S2000x256 [1] [0] [0] [1] [] []
  dot_S2000x10_S10x256_S2000x256_1_0_0_1_n_n_wf : DotDims.WF S2000x10 S10x256 S2000x256 [1] [0] [0] [1] [] []
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S320000x256.size a
  hwx0_0 : ∀ i : grid0.Coords, EltTy.bits .f32 = 32 ∨ (Rect.block (s := S320000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x10.size a ≤ S320000x10.size a
  hwx0_1 : ∀ i : grid0.Coords, EltTy.bits .f32 = 32 ∨ (Rect.block (s := S320000x10) S2000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x512.size a ≤ S10x512.size a
  hwx0_3 : ∀ i : grid0.Coords, EltTy.bits .f32 = 32 ∨ (Rect.block (s := S10x512) S10x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S320000x512.size a
  hwx0_4 : ∀ i : grid0.Coords, EltTy.bits .f32 = 32 ∨ (Rect.block (s := S320000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x496.size a ≤ S320000x496.size a
  hwx1_0 : ∀ i : grid1.Coords, EltTy.bits .f32 = 32 ∨ (Rect.block (s := S320000x496) S2000x496.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x10.size a ≤ S320000x10.size a
  hwx1_1 : ∀ i : grid1.Coords, EltTy.bits .f32 = 32 ∨ (Rect.block (s := S320000x10) S2000x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S496x496.size a ≤ S496x496.size a
  hwx1_2 : ∀ i : grid1.Coords, EltTy.bits .f32 = 32 ∨ (Rect.block (s := S496x496) S496x496.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x496.size a ≤ S10x496.size a
  hwx1_3 : ∀ i : grid1.Coords, EltTy.bits .f32 = 32 ∨ (Rect.block (s := S10x496) S10x496.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x496.size a ≤ S320000x496.size a
  hwx1_4 : ∀ i : grid1.Coords, EltTy.bits .f32 = 32 ∨ (Rect.block (s := S320000x496) S2000x496.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S320000x16.size a
  hwx2_0 : ∀ i : grid2.Coords, EltTy.bits .f32 = 32 ∨ (Rect.block (s := S320000x16) S2000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x10.size a ≤ S320000x10.size a
  hwx2_1 : ∀ i : grid2.Coords, EltTy.bits .f32 = 32 ∨ (Rect.block (s := S320000x10) S2000x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x32.size a ≤ S16x32.size a
  hwx2_2 : ∀ i : grid2.Coords, EltTy.bits .f32 = 32 ∨ (Rect.block (s := S16x32) S16x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10x32.size a ≤ S10x32.size a
  hwx2_3 : ∀ i : grid2.Coords, EltTy.bits .f32 = 32 ∨ (Rect.block (s := S10x32) S10x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S320000x32.size a
  hwx2_4 : ∀ i : grid2.Coords, EltTy.bits .f32 = 32 ∨ (Rect.block (s := S320000x32) S2000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S320000x32.size a
  hwx3_0 : ∀ i : grid3.Coords, EltTy.bits .f32 = 32 ∨ (Rect.block (s := S320000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x10.size a ≤ S320000x10.size a
  hwx3_1 : ∀ i : grid3.Coords, EltTy.bits .f32 = 32 ∨ (Rect.block (s := S320000x10) S2000x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10x64.size a ≤ S10x64.size a
  hwx3_3 : ∀ i : grid3.Coords, EltTy.bits .f32 = 32 ∨ (Rect.block (s := S10x64) S10x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S320000x64.size a
  hwx3_4 : ∀ i : grid3.Coords, EltTy.bits .f32 = 32 ∨ (Rect.block (s := S320000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S320000x64.size a
  hwx4_0 : ∀ i : grid4.Coords, EltTy.bits .f32 = 32 ∨ (Rect.block (s := S320000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x10.size a ≤ S320000x10.size a
  hwx4_1 : ∀ i : grid4.Coords, EltTy.bits .f32 = 32 ∨ (Rect.block (s := S320000x10) S2000x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x128.size a ≤ S10x128.size a
  hwx4_3 : ∀ i : grid4.Coords, EltTy.bits .f32 = 32 ∨ (Rect.block (s := S10x128) S10x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S320000x128.size a
  hwx4_4 : ∀ i : grid4.Coords, EltTy.bits .f32 = 32 ∨ (Rect.block (s := S320000x128) S2000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S320000x128.size a
  hwx5_0 : ∀ i : grid5.Coords, EltTy.bits .f32 = 32 ∨ (Rect.block (s := S320000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x10.size a ≤ S320000x10.size a
  hwx5_1 : ∀ i : grid5.Coords, EltTy.bits .f32 = 32 ∨ (Rect.block (s := S320000x10) S2000x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S10x256.size a ≤ S10x256.size a
  hwx5_3 : ∀ i : grid5.Coords, EltTy.bits .f32 = 32 ∨ (Rect.block (s := S10x256) S10x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x256.size a ≤ S320000x256.size a
  hwx5_4 : ∀ i : grid5.Coords, EltTy.bits .f32 = 32 ∨ (Rect.block (s := S320000x256) S2000x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S320000x256.size a
  hwx6_0 : ∀ i : grid6.Coords, EltTy.bits .f32 = 32 ∨ (Rect.block (s := S320000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x10.size a ≤ S320000x10.size a
  hwx6_1 : ∀ i : grid6.Coords, EltTy.bits .f32 = 32 ∨ (Rect.block (s := S320000x10) S2000x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S10x256.size a ≤ S10x256.size a
  hwx6_3 : ∀ i : grid6.Coords, EltTy.bits .f32 = 32 ∨ (Rect.block (s := S10x256) S10x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S320000x256.size a
  hwx6_4 : ∀ i : grid6.Coords, EltTy.bits .f32 = 32 ∨ (Rect.block (s := S320000x256) S2000x256.size (cc6_transform_4 i) (hinb6_4 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x10_S10x512_S2000x512_1_0_0_1_n_n : DotDims S2000x10 S10x512 S2000x512 where
  lhsContracting := [1]
  rhsContracting := [0]
  lhsNonContracting := [0]
  rhsNonContracting := [1]
  lhsBatch := []
  rhsBatch := []
  wf := dot_S2000x10_S10x512_S2000x512_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def gather_S20000x496_S320000x1_S320000x496_1_0_n_n_0_1_1496 : GatherDims S20000x496 S320000x1 S320000x496 where
  offsetDims := [1]
  collapsedSliceDims := [0]
  operandBatchingDims := []
  startIndicesBatchingDims := []
  startIndexMap := [0]
  indexVectorDim := 1
  sliceSizes := ![1, 496]
  wf := gather_S20000x496_S320000x1_S320000x496_1_0_n_n_0_1_1496_wf
def dot_S2000x496_S496x496_S2000x496_1_0_0_1_n_n : DotDims S2000x496 S496x496 S2000x496 where
  lhsContracting := [1]
  rhsContracting := [0]
  lhsNonContracting := [0]
  rhsNonContracting := [1]
  lhsBatch := []
  rhsBatch := []
  wf := dot_S2000x496_S496x496_S2000x496_1_0_0_1_n_n_wf
def dot_S2000x10_S10x496_S2000x496_1_0_0_1_n_n : DotDims S2000x10 S10x496 S2000x496 where
  lhsContracting := [1]
  rhsContracting := [0]
  lhsNonContracting := [0]
  rhsNonContracting := [1]
  lhsBatch := []
  rhsBatch := []
  wf := dot_S2000x10_S10x496_S2000x496_1_0_0_1_n_n_wf
def scatter_S20000x496_S320000x1_S320000x496_1_0_0_1 : ScatterDims S20000x496 S320000x1 S320000x496 where
  updateWindowDims := [1]
  insertedWindowDims := [0]
  scatterDimsToOperandDims := [0]
  indexVectorDim := 1
  wf := scatter_S20000x496_S320000x1_S320000x496_1_0_0_1_wf
def gather_S20000x16_S320000x1_S320000x16_1_0_n_n_0_1_116 : GatherDims S20000x16 S320000x1 S320000x16 where
  offsetDims := [1]
  collapsedSliceDims := [0]
  operandBatchingDims := []
  startIndicesBatchingDims := []
  startIndexMap := [0]
  indexVectorDim := 1
  sliceSizes := ![1, 16]
  wf := gather_S20000x16_S320000x1_S320000x16_1_0_n_n_0_1_116_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def dot_S2000x10_S10x32_S2000x32_1_0_0_1_n_n : DotDims S2000x10 S10x32 S2000x32 where
  lhsContracting := [1]
  rhsContracting := [0]
  lhsNonContracting := [0]
  rhsNonContracting := [1]
  lhsBatch := []
  rhsBatch := []
  wf := dot_S2000x10_S10x32_S2000x32_1_0_0_1_n_n_wf
def scatter_S20000x32_S320000x1_S320000x32_1_0_0_1 : ScatterDims S20000x32 S320000x1 S320000x32 where
  updateWindowDims := [1]
  insertedWindowDims := [0]
  scatterDimsToOperandDims := [0]
  indexVectorDim := 1
  wf := scatter_S20000x32_S320000x1_S320000x32_1_0_0_1_wf
def gather_S20000x32_S320000x1_S320000x32_1_0_n_n_0_1_132 : GatherDims S20000x32 S320000x1 S320000x32 where
  offsetDims := [1]
  collapsedSliceDims := [0]
  operandBatchingDims := []
  startIndicesBatchingDims := []
  startIndexMap := [0]
  indexVectorDim := 1
  sliceSizes := ![1, 32]
  wf := gather_S20000x32_S320000x1_S320000x32_1_0_n_n_0_1_132_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x10_S10x64_S2000x64_1_0_0_1_n_n : DotDims S2000x10 S10x64 S2000x64 where
  lhsContracting := [1]
  rhsContracting := [0]
  lhsNonContracting := [0]
  rhsNonContracting := [1]
  lhsBatch := []
  rhsBatch := []
  wf := dot_S2000x10_S10x64_S2000x64_1_0_0_1_n_n_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x10_S10x128_S2000x128_1_0_0_1_n_n : DotDims S2000x10 S10x128 S2000x128 where
  lhsContracting := [1]
  rhsContracting := [0]
  lhsNonContracting := [0]
  rhsNonContracting := [1]
  lhsBatch := []
  rhsBatch := []
  wf := dot_S2000x10_S10x128_S2000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x10_S10x256_S2000x256_1_0_0_1_n_n : DotDims S2000x10 S10x256 S2000x256 where
  lhsContracting := [1]
  rhsContracting := [0]
  lhsNonContracting := [0]
  rhsNonContracting := [1]
  lhsBatch := []
  rhsBatch := []
  wf := dot_S2000x10_S10x256_S2000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v10) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S2000x496.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S496x496.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S10x496.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x496.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S2000x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S16x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S10x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S2000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v63) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S2000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S10x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S2000x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg18) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S10x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S2000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v93) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S2000x10.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg21) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg22) S10x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S2000x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v108) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S2000x10.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S10x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S2000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000x10 : Shape := ⟨2, ![320000, 10]⟩
abbrev S256x512 : Shape := ⟨2, ![256, 512]⟩
abbrev S10x512 : Shape := ⟨2, ![10, 512]⟩
abbrev S512 : Shape := ⟨1, ![512]⟩
abbrev S496x496 : Shape := ⟨2, ![496, 496]⟩
abbrev S10x496 : Shape := ⟨2, ![10, 496]⟩
abbrev S496 : Shape := ⟨1, ![496]⟩
abbrev S256x256 : Shape := ⟨2, ![256, 256]⟩
abbrev S10x256 : Shape := ⟨2, ![10, 256]⟩
abbrev S256 : Shape := ⟨1, ![256]⟩
abbrev S16x32 : Shape := ⟨2, ![16, 32]⟩
abbrev S10x32 : Shape := ⟨2, ![10, 32]⟩
abbrev S32 : Shape := ⟨1, ![32]⟩
abbrev S32x64 : Shape := ⟨2, ![32, 64]⟩
abbrev S10x64 : Shape := ⟨2, ![10, 64]⟩
abbrev S64 : Shape := ⟨1, ![64]⟩
abbrev S64x128 : Shape := ⟨2, ![64, 128]⟩
abbrev S10x128 : Shape := ⟨2, ![10, 128]⟩
abbrev S128 : Shape := ⟨1, ![128]⟩
abbrev S128x256 : Shape := ⟨2, ![128, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S20000x512 : Shape := ⟨2, ![20000, 512]⟩
abbrev S1x512 : Shape := ⟨2, ![1, 512]⟩
abbrev S20000x16 : Shape := ⟨2, ![20000, 16]⟩
abbrev S20000x496 : Shape := ⟨2, ![20000, 496]⟩
abbrev S320000x496 : Shape := ⟨2, ![320000, 496]⟩
abbrev S1x496 : Shape := ⟨2, ![1, 496]⟩
abbrev S20000x32 : Shape := ⟨2, ![20000, 32]⟩
abbrev S20000x64 : Shape := ⟨2, ![20000, 64]⟩
abbrev S20000x128 : Shape := ⟨2, ![20000, 128]⟩
abbrev S320000x16 : Shape := ⟨2, ![320000, 16]⟩
abbrev S320000x32 : Shape := ⟨2, ![320000, 32]⟩
abbrev S1x32 : Shape := ⟨2, ![1, 32]⟩
abbrev S320000x64 : Shape := ⟨2, ![320000, 64]⟩
abbrev S1x64 : Shape := ⟨2, ![1, 64]⟩
abbrev S320000x128 : Shape := ⟨2, ![320000, 128]⟩
abbrev S1x128 : Shape := ⟨2, ![1, 128]⟩
abbrev S1x256 : Shape := ⟨2, ![1, 256]⟩

abbrev nBuf : Space → Nat
  | .hbm => 197
  | .vmem => 0
  | .smem => 0
  | _ => 0

abbrev hbmTy0_0 (i : Nat) : BufTy := match i % 128 with
  | 0 => ⟨S20000x256, .f32⟩
  | 1 => ⟨S2x320000, .i32⟩
  | 2 => ⟨S320000x10, .f32⟩
  | 3 => ⟨S256x512, .f32⟩
  | 4 => ⟨S10x512, .f32⟩
  | 5 => ⟨S512, .f32⟩
  | 6 => ⟨S496x496, .f32⟩
  | 7 => ⟨S10x496, .f32⟩
  | 8 => ⟨S496, .f32⟩
  | 9 => ⟨S256x256, .f32⟩
  | 10 => ⟨S10x256, .f32⟩
  | 11 => ⟨S256, .f32⟩
  | 12 => ⟨S16x32, .f32⟩
  | 13 => ⟨S10x32, .f32⟩
  | 14 => ⟨S32, .f32⟩
  | 15 => ⟨S32x64, .f32⟩
  | 16 => ⟨S10x64, .f32⟩
  | 17 => ⟨S64, .f32⟩
  | 18 => ⟨S64x128, .f32⟩
  | 19 => ⟨S10x128, .f32⟩
  | 20 => ⟨S128, .f32⟩
  | 21 => ⟨S128x256, .f32⟩
  | 22 => ⟨S10x256, .f32⟩
  | 23 => ⟨S256, .f32⟩
  | 24 => ⟨S1x320000, .i32⟩
  | 25 => ⟨S320000, .i32⟩
  | 26 => ⟨S1x320000, .i32⟩
  | 27 => ⟨S320000, .i32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S320000x512, .f32⟩
  | 38 => ⟨S320000x512, .f32⟩
  | 39 => ⟨S320000x512, .f32⟩
  | 40 => ⟨S_, .f32⟩
  | 41 => ⟨S320000x512, .f32⟩
  | 42 => ⟨S320000x512, .f32⟩
  | 43 => ⟨S_, .f32⟩
  | 44 => ⟨S20000x512, .f32⟩
  | 45 => ⟨S320000x1, .i32⟩
  | 46 => ⟨S20000x512, .f32⟩
  | 47 => ⟨S1x512, .f32⟩
  | 48 => ⟨S20000x512, .f32⟩
  | 49 => ⟨S20000x512, .f32⟩
  | 50 => ⟨S20000x16, .f32⟩
  | 51 => ⟨S20000x496, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x496, .f32⟩
  | 61 => ⟨S320000x496, .f32⟩
  | 62 => ⟨S320000x496, .f32⟩
  | 63 => ⟨S320000x496, .f32⟩
  | 64 => ⟨S_, .f32⟩
  | 65 => ⟨S320000x496, .f32⟩
  | 66 => ⟨S320000x496, .f32⟩
  | 67 => ⟨S_, .f32⟩
  | 68 => ⟨S20000x496, .f32⟩
  | 69 => ⟨S320000x1, .i32⟩
  | 70 => ⟨S20000x496, .f32⟩
  | 71 => ⟨S1x496, .f32⟩
  | 72 => ⟨S20000x496, .f32⟩
  | 73 => ⟨S20000x496, .f32⟩
  | 74 => ⟨S_, .f32⟩
  | 75 => ⟨S20000x496, .f32⟩
  | 76 => ⟨S20000x496, .f32⟩
  | 77 => ⟨S20000x16, .f32⟩
  | 78 => ⟨S20000x32, .f32⟩
  | 79 => ⟨S20000x64, .f32⟩
  | 80 => ⟨S20000x128, .f32⟩
  | 81 => ⟨S20000x256, .f32⟩
  | 82 => ⟨S20000x16, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x16, .f32⟩
  | 92 => ⟨S320000x32, .f32⟩
  | 93 => ⟨S320000x32, .f32⟩
  | 94 => ⟨S320000x32, .f32⟩
  | 95 => ⟨S_, .f32⟩
  | 96 => ⟨S320000x32, .f32⟩
  | 97 => ⟨S320000x32, .f32⟩
  | 98 => ⟨S_, .f32⟩
  | 99 => ⟨S20000x32, .f32⟩
  | 100 => ⟨S320000x1, .i32⟩
  | 101 => ⟨S20000x32, .f32⟩
  | 102 => ⟨S1x32, .f32⟩
  | 103 => ⟨S20000x32, .f32⟩
  | 104 => ⟨S20000x32, .f32⟩
  | 105 => ⟨S20000x32, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x32, .f32⟩
  | 115 => ⟨S320000x64, .f32⟩
  | 116 => ⟨S320000x64, .f32⟩
  | 117 => ⟨S320000x64, .f32⟩
  | 118 => ⟨S_, .f32⟩
  | 119 => ⟨S320000x64, .f32⟩
  | 120 => ⟨S320000x64, .f32⟩
  | 121 => ⟨S_, .f32⟩
  | 122 => ⟨S20000x64, .f32⟩
  | 123 => ⟨S320000x1, .i32⟩
  | 124 => ⟨S20000x64, .f32⟩
  | 125 => ⟨S1x64, .f32⟩
  | 126 => ⟨S20000x64, .f32⟩
  | 127 => ⟨S20000x64, .f32⟩
  | _ => ⟨S20000x256, .f32⟩

abbrev hbmTy0_1 (i : Nat) : BufTy := match i % 128 with
  | 0 => ⟨S20000x64, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x64, .f32⟩
  | 10 => ⟨S320000x128, .f32⟩
  | 11 => ⟨S320000x128, .f32⟩
  | 12 => ⟨S320000x128, .f32⟩
  | 13 => ⟨S_, .f32⟩
  | 14 => ⟨S320000x128, .f32⟩
  | 15 => ⟨S320000x128, .f32⟩
  | 16 => ⟨S_, .f32⟩
  | 17 => ⟨S20000x128, .f32⟩
  | 18 => ⟨S320000x1, .i32⟩
  | 19 => ⟨S20000x128, .f32⟩
  | 20 => ⟨S1x128, .f32⟩
  | 21 => ⟨S20000x128, .f32⟩
  | 22 => ⟨S20000x128, .f32⟩
  | 23 => ⟨S20000x128, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000x128, .f32⟩
  | 33 => ⟨S320000x256, .f32⟩
  | 34 => ⟨S320000x256, .f32⟩
  | 35 => ⟨S320000x256, .f32⟩
  | 36 => ⟨S_, .f32⟩
  | 37 => ⟨S320000x256, .f32⟩
  | 38 => ⟨S320000x256, .f32⟩
  | 39 => ⟨S_, .f32⟩
  | 40 => ⟨S20000x256, .f32⟩
  | 41 => ⟨S320000x1, .i32⟩
  | 42 => ⟨S20000x256, .f32⟩
  | 43 => ⟨S1x256, .f32⟩
  | 44 => ⟨S20000x256, .f32⟩
  | 45 => ⟨S20000x256, .f32⟩
  | 46 => ⟨S20000x256, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x256, .f32⟩
  | 56 => ⟨S320000x256, .f32⟩
  | 57 => ⟨S320000x256, .f32⟩
  | 58 => ⟨S320000x256, .f32⟩
  | 59 => ⟨S_, .f32⟩
  | 60 => ⟨S320000x256, .f32⟩
  | 61 => ⟨S320000x256, .f32⟩
  | 62 => ⟨S_, .f32⟩
  | 63 => ⟨S20000x256, .f32⟩
  | 64 => ⟨S320000x1, .i32⟩
  | 65 => ⟨S20000x256, .f32⟩
  | 66 => ⟨S1x256, .f32⟩
  | 67 => ⟨S20000x256, .f32⟩
  | 68 => ⟨S20000x256, .f32⟩
  | _ => ⟨S20000x256, .f32⟩

abbrev hbmTy (i : Nat) : BufTy := match i / 128 with
  | 0 => hbmTy0_0 i
  | 1 => hbmTy0_1 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call0_cst : Ref sig .tc := ⟨.hbm, 40, rfl⟩
abbrev main_call0_v0 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_1 : Ref sig .tc := ⟨.hbm, 52, rfl⟩
abbrev main_v23 : Ref sig .tc := ⟨.hbm, 53, rfl⟩
abbrev main_v24 : Ref sig .tc := ⟨.hbm, 54, rfl⟩
abbrev main_c_2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call1_cst : Ref sig .tc := ⟨.hbm, 64, rfl⟩
abbrev main_call1_v0 : Ref sig .tc := ⟨.hbm, 65, rfl⟩
abbrev main_v33 : Ref sig .tc := ⟨.hbm, 66, rfl⟩
abbrev main_cst_3 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_4 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_5 : Ref sig .tc := ⟨.hbm, 83, rfl⟩
abbrev main_v48 : Ref sig .tc := ⟨.hbm, 84, rfl⟩
abbrev main_v49 : Ref sig .tc := ⟨.hbm, 85, rfl⟩
abbrev main_c_6 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call2_cst : Ref sig .tc := ⟨.hbm, 95, rfl⟩
abbrev main_call2_v0 : Ref sig .tc := ⟨.hbm, 96, rfl⟩
abbrev main_v58 : Ref sig .tc := ⟨.hbm, 97, rfl⟩
abbrev main_cst_7 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_8 : Ref sig .tc := ⟨.hbm, 106, rfl⟩
abbrev main_v66 : Ref sig .tc := ⟨.hbm, 107, rfl⟩
abbrev main_v67 : Ref sig .tc := ⟨.hbm, 108, rfl⟩
abbrev main_c_9 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_call3_cst : Ref sig .tc := ⟨.hbm, 118, rfl⟩
abbrev main_call3_v0 : Ref sig .tc := ⟨.hbm, 119, rfl⟩
abbrev main_v76 : Ref sig .tc := ⟨.hbm, 120, rfl⟩
abbrev main_cst_10 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_11 : Ref sig .tc := ⟨.hbm, 129, rfl⟩
abbrev main_v84 : Ref sig .tc := ⟨.hbm, 130, rfl⟩
abbrev main_v85 : Ref sig .tc := ⟨.hbm, 131, rfl⟩
abbrev main_c_12 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call4_cst : Ref sig .tc := ⟨.hbm, 141, rfl⟩
abbrev main_call4_v0 : Ref sig .tc := ⟨.hbm, 142, rfl⟩
abbrev main_v94 : Ref sig .tc := ⟨.hbm, 143, rfl⟩
abbrev main_cst_13 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_c_14 : Ref sig .tc := ⟨.hbm, 152, rfl⟩
abbrev main_v102 : Ref sig .tc := ⟨.hbm, 153, rfl⟩
abbrev main_v103 : Ref sig .tc := ⟨.hbm, 154, rfl⟩
abbrev main_c_15 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_call5_cst : Ref sig .tc := ⟨.hbm, 164, rfl⟩
abbrev main_call5_v0 : Ref sig .tc := ⟨.hbm, 165, rfl⟩
abbrev main_v112 : Ref sig .tc := ⟨.hbm, 166, rfl⟩
abbrev main_cst_16 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_c_17 : Ref sig .tc := ⟨.hbm, 175, rfl⟩
abbrev main_v120 : Ref sig .tc := ⟨.hbm, 176, rfl⟩
abbrev main_v121 : Ref sig .tc := ⟨.hbm, 177, rfl⟩
abbrev main_c_18 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_call6_cst : Ref sig .tc := ⟨.hbm, 187, rfl⟩
abbrev main_call6_v0 : Ref sig .tc := ⟨.hbm, 188, rfl⟩
abbrev main_v130 : Ref sig .tc := ⟨.hbm, 189, rfl⟩
abbrev main_cst_19 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x512 : S_.BroadcastsInDim S320000x512 (![] : Fin 0 → Fin S320000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S20000x512_S20000x16_0_0 : S20000x512.Slices ![0, 0] S20000x16
  slices_S20000x512_S20000x496_0_16 : S20000x512.Slices ![0, 16] S20000x496
  bcast_S_S320000x496 : S_.BroadcastsInDim S320000x496 (![] : Fin 0 → Fin S320000x496.rank)
  bcast_S_S20000x496 : S_.BroadcastsInDim S20000x496 (![] : Fin 0 → Fin S20000x496.rank)
  bcast_S496_S1x496_1 : S496.BroadcastsInDim S1x496 (![1] : Fin 1 → Fin S1x496.rank)
  bcast_S1x496_S20000x496_0_1 : S1x496.BroadcastsInDim S20000x496 (![0, 1] : Fin 2 → Fin S20000x496.rank)
  slices_S20000x496_S20000x16_0_0 : S20000x496.Slices ![0, 0] S20000x16
  slices_S20000x496_S20000x32_0_16 : S20000x496.Slices ![0, 16] S20000x32
  slices_S20000x496_S20000x64_0_48 : S20000x496.Slices ![0, 48] S20000x64
  slices_S20000x496_S20000x128_0_112 : S20000x496.Slices ![0, 112] S20000x128
  slices_S20000x496_S20000x256_0_240 : S20000x496.Slices ![0, 240] S20000x256
  bcast_S_S320000x32 : S_.BroadcastsInDim S320000x32 (![] : Fin 0 → Fin S320000x32.rank)
  bcast_S_S20000x32 : S_.BroadcastsInDim S20000x32 (![] : Fin 0 → Fin S20000x32.rank)
  bcast_S32_S1x32_1 : S32.BroadcastsInDim S1x32 (![1] : Fin 1 → Fin S1x32.rank)
  bcast_S1x32_S20000x32_0_1 : S1x32.BroadcastsInDim S20000x32 (![0, 1] : Fin 2 → Fin S20000x32.rank)
  bcast_S_S320000x64 : S_.BroadcastsInDim S320000x64 (![] : Fin 0 → Fin S320000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S320000x128 : S_.BroadcastsInDim S320000x128 (![] : Fin 0 → Fin S320000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S320000x256 : S_.BroadcastsInDim S320000x256 (![] : Fin 0 → Fin S320000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  dot_S320000x256_S256x512_S320000x512_1_0_0_1_n_n_wf : DotDims.WF S320000x256 S256x512 S320000x512 [1] [0] [0] [1] [] []
  dot_S320000x10_S10x512_S320000x512_1_0_0_1_n_n_wf : DotDims.WF S320000x10 S10x512 S320000x512 [1] [0] [0] [1] [] []
  scatter_S20000x512_S320000x1_S320000x512_1_0_0_1_wf : ScatterDims.WF S20000x512 S320000x1 S320000x512 [1] [0] [0] 1
  gather_S20000x496_S320000x1_S320000x496_1_0_n_n_0_1_1496_wf : GatherDims.WF S20000x496 S320000x1 S320000x496 [1] [0] [] [0] [] 1 ![1, 496]
  dot_S320000x496_S496x496_S320000x496_1_0_0_1_n_n_wf : DotDims.WF S320000x496 S496x496 S320000x496 [1] [0] [0] [1] [] []
  dot_S320000x10_S10x496_S320000x496_1_0_0_1_n_n_wf : DotDims.WF S320000x10 S10x496 S320000x496 [1] [0] [0] [1] [] []
  scatter_S20000x496_S320000x1_S320000x496_1_0_0_1_wf : ScatterDims.WF S20000x496 S320000x1 S320000x496 [1] [0] [0] 1
  gather_S20000x16_S320000x1_S320000x16_1_0_n_n_0_1_116_wf : GatherDims.WF S20000x16 S320000x1 S320000x16 [1] [0] [] [0] [] 1 ![1, 16]
  dot_S320000x16_S16x32_S320000x32_1_0_0_1_n_n_wf : DotDims.WF S320000x16 S16x32 S320000x32 [1] [0] [0] [1] [] []
  dot_S320000x10_S10x32_S320000x32_1_0_0_1_n_n_wf : DotDims.WF S320000x10 S10x32 S320000x32 [1] [0] [0] [1] [] []
  scatter_S20000x32_S320000x1_S320000x32_1_0_0_1_wf : ScatterDims.WF S20000x32 S320000x1 S320000x32 [1] [0] [0] 1
  gather_S20000x32_S320000x1_S320000x32_1_0_n_n_0_1_132_wf : GatherDims.WF S20000x32 S320000x1 S320000x32 [1] [0] [] [0] [] 1 ![1, 32]
  dot_S320000x32_S32x64_S320000x64_1_0_0_1_n_n_wf : DotDims.WF S320000x32 S32x64 S320000x64 [1] [0] [0] [1] [] []
  dot_S320000x10_S10x64_S320000x64_1_0_0_1_n_n_wf : DotDims.WF S320000x10 S10x64 S320000x64 [1] [0] [0] [1] [] []
  scatter_S20000x64_S320000x1_S320000x64_1_0_0_1_wf : ScatterDims.WF S20000x64 S320000x1 S320000x64 [1] [0] [0] 1
  gather_S20000x64_S320000x1_S320000x64_1_0_n_n_0_1_164_wf : GatherDims.WF S20000x64 S320000x1 S320000x64 [1] [0] [] [0] [] 1 ![1, 64]
  dot_S320000x64_S64x128_S320000x128_1_0_0_1_n_n_wf : DotDims.WF S320000x64 S64x128 S320000x128 [1] [0] [0] [1] [] []
  dot_S320000x10_S10x128_S320000x128_1_0_0_1_n_n_wf : DotDims.WF S320000x10 S10x128 S320000x128 [1] [0] [0] [1] [] []
  scatter_S20000x128_S320000x1_S320000x128_1_0_0_1_wf : ScatterDims.WF S20000x128 S320000x1 S320000x128 [1] [0] [0] 1
  gather_S20000x128_S320000x1_S320000x128_1_0_n_n_0_1_1128_wf : GatherDims.WF S20000x128 S320000x1 S320000x128 [1] [0] [] [0] [] 1 ![1, 128]
  dot_S320000x128_S128x256_S320000x256_1_0_0_1_n_n_wf : DotDims.WF S320000x128 S128x256 S320000x256 [1] [0] [0] [1] [] []
  dot_S320000x10_S10x256_S320000x256_1_0_0_1_n_n_wf : DotDims.WF S320000x10 S10x256 S320000x256 [1] [0] [0] [1] [] []
  scatter_S20000x256_S320000x1_S320000x256_1_0_0_1_wf : ScatterDims.WF S20000x256 S320000x1 S320000x256 [1] [0] [0] 1
  dot_S320000x256_S256x256_S320000x256_1_0_0_1_n_n_wf : DotDims.WF S320000x256 S256x256 S320000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x256_S256x512_S320000x512_1_0_0_1_n_n : DotDims S320000x256 S256x512 S320000x512 where
  lhsContracting := [1]
  rhsContracting := [0]
  lhsNonContracting := [0]
  rhsNonContracting := [1]
  lhsBatch := []
  rhsBatch := []
  wf := dot_S320000x256_S256x512_S320000x512_1_0_0_1_n_n_wf
def dot_S320000x10_S10x512_S320000x512_1_0_0_1_n_n : DotDims S320000x10 S10x512 S320000x512 where
  lhsContracting := [1]
  rhsContracting := [0]
  lhsNonContracting := [0]
  rhsNonContracting := [1]
  lhsBatch := []
  rhsBatch := []
  wf := dot_S320000x10_S10x512_S320000x512_1_0_0_1_n_n_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def gather_S20000x496_S320000x1_S320000x496_1_0_n_n_0_1_1496 : GatherDims S20000x496 S320000x1 S320000x496 where
  offsetDims := [1]
  collapsedSliceDims := [0]
  operandBatchingDims := []
  startIndicesBatchingDims := []
  startIndexMap := [0]
  indexVectorDim := 1
  sliceSizes := ![1, 496]
  wf := gather_S20000x496_S320000x1_S320000x496_1_0_n_n_0_1_1496_wf
def dot_S320000x496_S496x496_S320000x496_1_0_0_1_n_n : DotDims S320000x496 S496x496 S320000x496 where
  lhsContracting := [1]
  rhsContracting := [0]
  lhsNonContracting := [0]
  rhsNonContracting := [1]
  lhsBatch := []
  rhsBatch := []
  wf := dot_S320000x496_S496x496_S320000x496_1_0_0_1_n_n_wf
def dot_S320000x10_S10x496_S320000x496_1_0_0_1_n_n : DotDims S320000x10 S10x496 S320000x496 where
  lhsContracting := [1]
  rhsContracting := [0]
  lhsNonContracting := [0]
  rhsNonContracting := [1]
  lhsBatch := []
  rhsBatch := []
  wf := dot_S320000x10_S10x496_S320000x496_1_0_0_1_n_n_wf
def scatter_S20000x496_S320000x1_S320000x496_1_0_0_1 : ScatterDims S20000x496 S320000x1 S320000x496 where
  updateWindowDims := [1]
  insertedWindowDims := [0]
  scatterDimsToOperandDims := [0]
  indexVectorDim := 1
  wf := scatter_S20000x496_S320000x1_S320000x496_1_0_0_1_wf
def gather_S20000x16_S320000x1_S320000x16_1_0_n_n_0_1_116 : GatherDims S20000x16 S320000x1 S320000x16 where
  offsetDims := [1]
  collapsedSliceDims := [0]
  operandBatchingDims := []
  startIndicesBatchingDims := []
  startIndexMap := [0]
  indexVectorDim := 1
  sliceSizes := ![1, 16]
  wf := gather_S20000x16_S320000x1_S320000x16_1_0_n_n_0_1_116_wf
def dot_S320000x16_S16x32_S320000x32_1_0_0_1_n_n : DotDims S320000x16 S16x32 S320000x32 where
  lhsContracting := [1]
  rhsContracting := [0]
  lhsNonContracting := [0]
  rhsNonContracting := [1]
  lhsBatch := []
  rhsBatch := []
  wf := dot_S320000x16_S16x32_S320000x32_1_0_0_1_n_n_wf
def dot_S320000x10_S10x32_S320000x32_1_0_0_1_n_n : DotDims S320000x10 S10x32 S320000x32 where
  lhsContracting := [1]
  rhsContracting := [0]
  lhsNonContracting := [0]
  rhsNonContracting := [1]
  lhsBatch := []
  rhsBatch := []
  wf := dot_S320000x10_S10x32_S320000x32_1_0_0_1_n_n_wf
def scatter_S20000x32_S320000x1_S320000x32_1_0_0_1 : ScatterDims S20000x32 S320000x1 S320000x32 where
  updateWindowDims := [1]
  insertedWindowDims := [0]
  scatterDimsToOperandDims := [0]
  indexVectorDim := 1
  wf := scatter_S20000x32_S320000x1_S320000x32_1_0_0_1_wf
def gather_S20000x32_S320000x1_S320000x32_1_0_n_n_0_1_132 : GatherDims S20000x32 S320000x1 S320000x32 where
  offsetDims := [1]
  collapsedSliceDims := [0]
  operandBatchingDims := []
  startIndicesBatchingDims := []
  startIndexMap := [0]
  indexVectorDim := 1
  sliceSizes := ![1, 32]
  wf := gather_S20000x32_S320000x1_S320000x32_1_0_n_n_0_1_132_wf
def dot_S320000x32_S32x64_S320000x64_1_0_0_1_n_n : DotDims S320000x32 S32x64 S320000x64 where
  lhsContracting := [1]
  rhsContracting := [0]
  lhsNonContracting := [0]
  rhsNonContracting := [1]
  lhsBatch := []
  rhsBatch := []
  wf := dot_S320000x32_S32x64_S320000x64_1_0_0_1_n_n_wf
def dot_S320000x10_S10x64_S320000x64_1_0_0_1_n_n : DotDims S320000x10 S10x64 S320000x64 where
  lhsContracting := [1]
  rhsContracting := [0]
  lhsNonContracting := [0]
  rhsNonContracting := [1]
  lhsBatch := []
  rhsBatch := []
  wf := dot_S320000x10_S10x64_S320000x64_1_0_0_1_n_n_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S320000x64_S64x128_S320000x128_1_0_0_1_n_n : DotDims S320000x64 S64x128 S320000x128 where
  lhsContracting := [1]
  rhsContracting := [0]
  lhsNonContracting := [0]
  rhsNonContracting := [1]
  lhsBatch := []
  rhsBatch := []
  wf := dot_S320000x64_S64x128_S320000x128_1_0_0_1_n_n_wf
def dot_S320000x10_S10x128_S320000x128_1_0_0_1_n_n : DotDims S320000x10 S10x128 S320000x128 where
  lhsContracting := [1]
  rhsContracting := [0]
  lhsNonContracting := [0]
  rhsNonContracting := [1]
  lhsBatch := []
  rhsBatch := []
  wf := dot_S320000x10_S10x128_S320000x128_1_0_0_1_n_n_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x128_S128x256_S320000x256_1_0_0_1_n_n : DotDims S320000x128 S128x256 S320000x256 where
  lhsContracting := [1]
  rhsContracting := [0]
  lhsNonContracting := [0]
  rhsNonContracting := [1]
  lhsBatch := []
  rhsBatch := []
  wf := dot_S320000x128_S128x256_S320000x256_1_0_0_1_n_n_wf
def dot_S320000x10_S10x256_S320000x256_1_0_0_1_n_n : DotDims S320000x10 S10x256 S320000x256 where
  lhsContracting := [1]
  rhsContracting := [0]
  lhsNonContracting := [0]
  rhsNonContracting := [1]
  lhsBatch := []
  rhsBatch := []
  wf := dot_S320000x10_S10x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.KernelRun.lean ====
/-
  The idealized kernel program's run, read at every buffer.

  The program is seven message kernels among eight stretches of host operations.  Every weakly fair execution
  terminates without a fault, and in the final state every unscoped buffer of a core holds what the last stretch
  of host operations leaves there: the fold of the stretches and of the kernels' write-backs from the launch
  memory.  The run is the launch of the program's segments from the launch memory; the final state is read
  buffer by buffer against the last boundary's contents.
-/
import proofs.«114688_j53257594471014_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer ends at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result buffer in the final state. -/
theorem result_mem (c : Dev nD) : Proc.devRef .tc main_v115 ∈ Pipeline.ucRefs τ sig := mem_uc main_v115 (by decide)

end Cert.KernelIdeal.Net

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«114688_j53257594471014_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.LibEdgeMsg.lean ====
/-
  The message of an edge-conditioned graph convolution, on the extended reals.

  For row operands xs : [n, k] (the gathered source rows) and ea : [n, e] (the edge attributes) and weights
  Wn : [k, c], We : [e, c], entry (r, q) of `edgeMsg xs ea Wn We` is
      max( Σ_j xs(r,j)·Wn(j,q) + Σ_j ea(r,j)·We(j,q), 0 ).
  It depends on row r of the row operands only, so a block of consecutive rows of the result is the same
  function of the same block of rows (`edgeMsg_rows`).  Two programs' forms of it are read at an entry:
  a kernel body's — both operands of each product narrowed to bf16 (the identity on extended reals), two
  matrix products into zero accumulators, their sum, the maximum with a splat zero (`edgeMsg_of_matmuls`) —
  and a host program's — two `dot_general`s, their sum, the maximum with a broadcast zero (`edgeMsg_of_dots`).
-/
import proofs.«114688_j53257594471014_1_alg».proof.Proof.LibRowsDot
import Idealize.ShloMosaic.Lib.Pipeline.Value

noncomputable section

namespace Cert.EdgeConv

open Idealize.ShloMosaic Idealize.ShloMosaic.ValueIdx Cert.Sage
open scoped BigOperators

variable {n N k e c : Nat}

/-- The clipped sum of the two row-column products. -/
def edgeMsg (xs : Arr2 n k) (ea : Arr2 n e) (Wn : Arr2 k c) (We : Arr2 e c) : Arr2 n c :=
  fun i => max (rowsMul xs Wn i + rowsMul ea We i) zeroF

/-- A block of rows of the message is the message of the blocks of rows. -/
theorem edgeMsg_rows (XS : Arr2 N k) (EA : Arr2 N e) (xs : Arr2 n k) (ea : Arr2 n e) (Wn : Arr2 k c) (We : Arr2 e c)
    (I : (⟨2, ![N, c]⟩ : Shape).Idx) (i : (⟨2, ![n, c]⟩ : Shape).Idx) (hc : (I 1).val = (i 1).val)
    (hx : ∀ q : Fin k, XS (ix2 (rowOf I) q) = xs (ix2 (rowOf i) q))
    (he : ∀ q : Fin e, EA (ix2 (rowOf I) q) = ea (ix2 (rowOf i) q)) :
    edgeMsg XS EA Wn We I = edgeMsg xs ea Wn We i := by
  unfold edgeMsg
  rw [rowsMul_rows XS xs Wn I i hc hx, rowsMul_rows EA ea We I i hc he]

/-- A host `dot_general` of [n, k] with [k, c] that contracts the second axis of the left operand with the first
    of the right, at entry (p, q), is the row-column sum. -/
theorem dotGeneral_rows {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    Host.dotGeneral D prec a W (ix2 p q) = rowsMul (n := n) (k := k) (c := c) a W (ix2 p q) := by
  simp only [Host.dotGeneral]
  rw [Ideal.dotGeneral_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

/-- The kernel body's form: the two products of the bf16-narrowed operands into zero accumulators, added, clipped
    at a splat zero, is the message, entry by entry. -/
theorem edgeMsg_of_matmuls
    (D1 : DotDims ⟨2, ![n, k]⟩ ⟨2, ![k, c]⟩ ⟨2, ![n, c]⟩) (hr1 : D1.contr.rank = 1)
    (hs1 : D1.contr.size ⟨0, by omega⟩ = k)
    (l01 : ∀ (i : (⟨2, ![n, c]⟩ : Shape).Idx) (q : D1.contr.Idx), (D1.lhsIdx i q 0).val = (i 0).val)
    (l11 : ∀ (i : (⟨2, ![n, c]⟩ : Shape).Idx) (q : D1.contr.Idx), (D1.lhsIdx i q 1).val = (q ⟨0, by omega⟩).val)
    (r01 : ∀ (i : (⟨2, ![n, c]⟩ : Shape).Idx) (q : D1.contr.Idx), (D1.rhsIdx i q 0).val = (q ⟨0, by omega⟩).val)
    (r11 : ∀ (i : (⟨2, ![n, c]⟩ : Shape).Idx) (q : D1.contr.Idx), (D1.rhsIdx i q 1).val = (i 1).val)
    (D2 : DotDims ⟨2, ![n, e]⟩ ⟨2, ![e, c]⟩ ⟨2, ![n, c]⟩) (hr2 : D2.contr.rank = 1)
    (hs2 : D2.contr.size ⟨0, by omega⟩ = e)
    (l02 : ∀ (i : (⟨2, ![n, c]⟩ : Shape).Idx) (q : D2.contr.Idx), (D2.lhsIdx i q 0).val = (i 0).val)
    (l12 : ∀ (i : (⟨2, ![n, c]⟩ : Shape).Idx) (q : D2.contr.Idx), (D2.lhsIdx i q 1).val = (q ⟨0, by omega⟩).val)
    (r02 : ∀ (i : (⟨2, ![n, c]⟩ : Shape).Idx) (q : D2.contr.Idx), (D2.rhsIdx i q 0).val = (q ⟨0, by omega⟩).val)
    (r12 : ∀ (i : (⟨2, ![n, c]⟩ : Shape).Idx) (q : D2.contr.Idx), (D2.rhsIdx i q 1).val = (i 1).val)
    (hsc : (⟨2, ![n, k]⟩ : Shape).ShapeCasts ⟨2, ![n, k]⟩) (hb : FTy.bf16.bits < FTy.f32.bits)
    (xs : FVec Ideal ⟨2, ![n, k]⟩ .f32) (ea : FVec Ideal ⟨2, ![n, e]⟩ .f32)
    (Wn : FVec Ideal ⟨2, ![k, c]⟩ .f32) (We : FVec Ideal ⟨2, ![e, c]⟩ .f32) (i : (⟨2, ![n, c]⟩ : Shape).Idx) :
    maximumf
      (addf (matmul D1 none (truncf .bf16 (shapeCast ⟨2, ![n, k]⟩ xs hsc) hb) (truncf .bf16 Wn hb) (constant ⟨2, ![n, c]⟩ .f32 0x00000000#32))
            (matmul D2 none (truncf .bf16 ea hb) (truncf .bf16 We hb) (constant ⟨2, ![n, c]⟩ .f32 0x00000000#32)))
      (broadcast ⟨2, ![n, c]⟩ (Scalar.ofBits (F := Ideal) .f32 0x00000000#32)) i
    = edgeMsg (n := n) (k := k) (e := e) (c := c) xs ea Wn We i := by
  obtain ⟨p, q, rfl⟩ : ∃ (p : Fin n) (q : Fin c), i = ix2 p q := ⟨rowOf i, colOf i, eq_ix2 i⟩
  rw [shapeCast_self]
  rw [maximumf_apply, addf_apply, matmul_zero_rows D1 hr1 hs1 l01 l11 r01 r11, matmul_zero_rows D2 hr2 hs2 l02 l12 r02 r12]
  rfl

/-- The host's form: the two `dot_general`s added and clipped at a broadcast zero is the message, entry by entry. -/
theorem edgeMsg_of_dots
    (D1 : DotDims ⟨2, ![n, k]⟩ ⟨2, ![k, c]⟩ ⟨2, ![n, c]⟩) (hr1 : D1.contr.rank = 1)
    (hs1 : D1.contr.size ⟨0, by omega⟩ = k)
    (l01 : ∀ (i : (⟨2, ![n, c]⟩ : Shape).Idx) (q : D1.contr.Idx), (D1.lhsIdx i q 0).val = (i 0).val)
    (l11 : ∀ (i : (⟨2, ![n, c]⟩ : Shape).Idx) (q : D1.contr.Idx), (D1.lhsIdx i q 1).val = (q ⟨0, by omega⟩).val)
    (r01 : ∀ (i : (⟨2, ![n, c]⟩ : Shape).Idx) (q : D1.contr.Idx), (D1.rhsIdx i q 0).val = (q ⟨0, by omega⟩).val)
    (r11 : ∀ (i : (⟨2, ![n, c]⟩ : Shape).Idx) (q : D1.contr.Idx), (D1.rhsIdx i q 1).val = (i 1).val)
    (D2 : DotDims ⟨2, ![n, e]⟩ ⟨2, ![e, c]⟩ ⟨2, ![n, c]⟩) (hr2 : D2.contr.rank = 1)
    (hs2 : D2.contr.size ⟨0, by omega⟩ = e)
    (l02 : ∀ (i : (⟨2, ![n, c]⟩ : Shape).Idx) (q : D2.contr.Idx), (D2.lhsIdx i q 0).val = (i 0).val)
    (l12 : ∀ (i : (⟨2, ![n, c]⟩ : Shape).Idx) (q : D2.contr.Idx), (D2.lhsIdx i q 1).val = (q ⟨0, by omega⟩).val)
    (r02 : ∀ (i : (⟨2, ![n, c]⟩ : Shape).Idx) (q : D2.contr.Idx), (D2.rhsIdx i q 0).val = (q ⟨0, by omega⟩).val)
    (r12 : ∀ (i : (⟨2, ![n, c]⟩ : Shape).Idx) (q : D2.contr.Idx), (D2.rhsIdx i q 1).val = (i 1).val)
    (dims : Fin (⟨0, ![]⟩ : Shape).rank → Fin (⟨2, ![n, c]⟩ : Shape).rank)
    (hbc : (⟨0, ![]⟩ : Shape).BroadcastsInDim ⟨2, ![n, c]⟩ dims)
    (xs : FVec Ideal ⟨2, ![n, k]⟩ .f32) (ea : FVec Ideal ⟨2, ![n, e]⟩ .f32)
    (Wn : FVec Ideal ⟨2, ![k, c]⟩ .f32) (We : FVec Ideal ⟨2, ![e, c]⟩ .f32) (i : (⟨2, ![n, c]⟩ : Shape).Idx) :
    maximumf (addf (Host.dotGeneral D1 none xs Wn) (Host.dotGeneral D2 none ea We))
      (broadcastInDim ⟨2, ![n, c]⟩ dims hbc (constant (F := Ideal) ⟨0, ![]⟩ .f32 0x00000000#32)) i
    = edgeMsg (n := n) (k := k) (e := e) (c := c) xs ea Wn We i := by
  obtain ⟨p, q, rfl⟩ : ∃ (p : Fin n) (q : Fin c), i = ix2 p q := ⟨rowOf i, colOf i, eq_ix2 i⟩
  rw [maximumf_apply, addf_apply, dotGeneral_rows D1 hr1 hs1 l01 l11 r01 r11, dotGeneral_rows D2 hr2 hs2 l02 l12 r02 r12]
  rw [broadcastInDim_apply dims hbc _ (ix2 p q) (fun a => a.elim0) (fun a => a.elim0)]
  rfl

end Cert.EdgeConv

end
-- ==== Proof.RefMsg.lean ====
/-
  The reference's messages.

  Each of the reference's seven convolutions forms, for the gathered rows xs, the edge attributes ea and two
  weight arrays, the sum of the two products xs·Wn and ea·We and clips it below at zero.  Entry by entry that is
  the message `edgeMsg xs ea Wn We`: a host product at entry (p, q) is the row-column sum, and the broadcast
  of the scalar zero reads zero at every entry.
-/
import proofs.«114688_j53257594471014_1_alg».proof.Proof.Gen.ReferenceIdeal.Read
import proofs.«114688_j53257594471014_1_alg».proof.Proof.LibEdgeMsg

noncomputable section

namespace Cert.ReferenceIdeal.Msg

open Cert.ReferenceIdeal Cert.ReferenceIdeal.Gen Cert.ReferenceIdeal.Read Idealize.ShloMosaic Idealize.ShloMosaic.ValueIdx
open Cert.Sage Cert.EdgeConv

/-- The first convolution's clipped sum is the message of its gathered rows, the edge attributes and its two weights. -/
theorem msg0 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) :
    val_main_v14 (F := Ideal) x0 x1 x2 x3 x4
      = edgeMsg (n := 320000) (k := 256) (e := 10) (c := 512) (val_main_v10 (F := Ideal) x0 x1) x2 x3 x4 := by
  funext i
  unfold val_main_v14 val_main_v13 val_main_v11 val_main_v12 val_main_call0_v0 val_main_call0_cst
  exact edgeMsg_of_dots dot_S320000x256_S256x512_S320000x512_1_0_0_1_n_n rfl rfl lhs_main_v11_0 lhs_main_v11_1 rhs_main_v11_0 rhs_main_v11_1
    dot_S320000x10_S10x512_S320000x512_1_0_0_1_n_n rfl rfl lhs_main_v12_0 lhs_main_v12_1 rhs_main_v12_0 rhs_main_v12_1
    _ bcast_S_S320000x512 (val_main_v10 (F := Ideal) x0 x1) x2 x3 x4 i

/-- The second convolution's clipped sum is the message of its gathered rows, the edge attributes and its two weights. -/
theorem msg1 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) (x5 : (⟨S512, .f32⟩ : BufTy).Contents (Elt Ideal)) (x6 : (⟨S496x496, .f32⟩ : BufTy).Contents (Elt Ideal)) (x7 : (⟨S10x496, .f32⟩ : BufTy).Contents (Elt Ideal)) :
    val_main_v33 (F := Ideal) x0 x1 x2 x3 x4 x5 x6 x7
      = edgeMsg (n := 320000) (k := 496) (e := 10) (c := 496) (val_main_v29 (F := Ideal) x0 x1 x2 x3 x4 x5) x2 x6 x7 := by
  funext i
  unfold val_main_v33 val_main_v32 val_main_v30 val_main_v31 val_main_call1_v0 val_main_call1_cst
  exact edgeMsg_of_dots dot_S320000x496_S496x496_S320000x496_1_0_0_1_n_n rfl rfl lhs_main_v30_0 lhs_main_v30_1 rhs_main_v30_0 rhs_main_v30_1
    dot_S320000x10_S10x496_S320000x496_1_0_0_1_n_n rfl rfl lhs_main_v31_0 lhs_main_v31_1 rhs_main_v31_0 rhs_main_v31_1
    _ bcast_S_S320000x496 (val_main_v29 (F := Ideal) x0 x1 x2 x3 x4 x5) x2 x6 x7 i

/-- The third convolution's clipped sum is the message of its gathered rows, the edge attributes and its two weights. -/
theorem msg2 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) (x5 : (⟨S512, .f32⟩ : BufTy).Contents (Elt Ideal)) (x6 : (⟨S496x496, .f32⟩ : BufTy).Contents (Elt Ideal)) (x7 : (⟨S10x496, .f32⟩ : BufTy).Contents (Elt Ideal)) (x8 : (⟨S496, .f32⟩ : BufTy).Contents (Elt Ideal)) (x12 : (⟨S16x32, .f32⟩ : BufTy).Contents (Elt Ideal)) (x13 : (⟨S10x32, .f32⟩ : BufTy).Contents (Elt Ideal)) :
    val_main_v58 (F := Ideal) x0 x1 x2 x3 x4 x5 x6 x7 x8 x12 x13
      = edgeMsg (n := 320000) (k := 16) (e := 10) (c := 32) (val_main_v54 (F := Ideal) x0 x1 x2 x3 x4 x5 x6 x7 x8) x2 x12 x13 := by
  funext i
  unfold val_main_v58 val_main_v57 val_main_v55 val_main_v56 val_main_call2_v0 val_main_call2_cst
  exact edgeMsg_of_dots dot_S320000x16_S16x32_S320000x32_1_0_0_1_n_n rfl rfl lhs_main_v55_0 lhs_main_v55_1 rhs_main_v55_0 rhs_main_v55_1
    dot_S320000x10_S10x32_S320000x32_1_0_0_1_n_n rfl rfl lhs_main_v56_0 lhs_main_v56_1 rhs_main_v56_0 rhs_main_v56_1
    _ bcast_S_S320000x32 (val_main_v54 (F := Ideal) x0 x1 x2 x3 x4 x5 x6 x7 x8) x2 x12 x13 i

/-- The fourth convolution's clipped sum is the message of its gathered rows, the edge attributes and its two weights. -/
theorem msg3 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) (x5 : (⟨S512, .f32⟩ : BufTy).Contents (Elt Ideal)) (x6 : (⟨S496x496, .f32⟩ : BufTy).Contents (Elt Ideal)) (x7 : (⟨S10x496, .f32⟩ : BufTy).Contents (Elt Ideal)) (x8 : (⟨S496, .f32⟩ : BufTy).Contents (Elt Ideal)) (x12 : (⟨S16x32, .f32⟩ : BufTy).Contents (Elt Ideal)) (x13 : (⟨S10x32, .f32⟩ : BufTy).Contents (Elt Ideal)) (x14 : (⟨S32, .f32⟩ : BufTy).Contents (Elt Ideal)) (x15 : (⟨S32x64, .f32⟩ : BufTy).Contents (Elt Ideal)) (x16 : (⟨S10x64, .f32⟩ : BufTy).Contents (Elt Ideal)) :
    val_main_v76 (F := Ideal) x0 x1 x2 x3 x4 x5 x6 x7 x8 x12 x13 x14 x15 x16
      = edgeMsg (n := 320000) (k := 32) (e := 10) (c := 64) (val_main_v72 (F := Ideal) x0 x1 x2 x3 x4 x5 x6 x7 x8 x12 x13 x14) x2 x15 x16 := by
  funext i
  unfold val_main_v76 val_main_v75 val_main_v73 val_main_v74 val_main_call3_v0 val_main_call3_cst
  exact edgeMsg_of_dots dot_S320000x32_S32x64_S320000x64_1_0_0_1_n_n rfl rfl lhs_main_v73_0 lhs_main_v73_1 rhs_main_v73_0 rhs_main_v73_1
    dot_S320000x10_S10x64_S320000x64_1_0_0_1_n_n rfl rfl lhs_main_v74_0 lhs_main_v74_1 rhs_main_v74_0 rhs_main_v74_1
    _ bcast_S_S320000x64 (val_main_v72 (F := Ideal) x0 x1 x2 x3 x4 x5 x6 x7 x8 x12 x13 x14) x2 x15 x16 i

/-- The fifth convolution's clipped sum is the message of its gathered rows, the edge attributes and its two weights. -/
theorem msg4 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) (x5 : (⟨S512, .f32⟩ : BufTy).Contents (Elt Ideal)) (x6 : (⟨S496x496, .f32⟩ : BufTy).Contents (Elt Ideal)) (x7 : (⟨S10x496, .f32⟩ : BufTy).Contents (Elt Ideal)) (x8 : (⟨S496, .f32⟩ : BufTy).Contents (Elt Ideal)) (x12 : (⟨S16x32, .f32⟩ : BufTy).Contents (Elt Ideal)) (x13 : (⟨S10x32, .f32⟩ : BufTy).Contents (Elt Ideal)) (x14 : (⟨S32, .f32⟩ : BufTy).Contents (Elt Ideal)) (x15 : (⟨S32x64, .f32⟩ : BufTy).Contents (Elt Ideal)) (x16 : (⟨S10x64, .f32⟩ : BufTy).Contents (Elt Ideal)) (x17 : (⟨S64, .f32⟩ : BufTy).Contents (Elt Ideal)) (x18 : (⟨S64x128, .f32⟩ : BufTy).Contents (Elt Ideal)) (x19 : (⟨S10x128, .f32⟩ : BufTy).Contents (Elt Ideal)) :
    val_main_v94 (F := Ideal) x0 x1 x2 x3 x4 x5 x6 x7 x8 x12 x13 x14 x15 x16 x17 x18 x19
      = edgeMsg (n := 320000) (k := 64) (e := 10) (c := 128) (val_main_v90 (F := Ideal) x0 x1 x2 x3 x4 x5 x6 x7 x8 x12 x13 x14 x15 x16 x17) x2 x18 x19 := by
  funext i
  unfold val_main_v94 val_main_v93 val_main_v91 val_main_v92 val_main_call4_v0 val_main_call4_cst
  exact edgeMsg_of_dots dot_S320000x64_S64x128_S320000x128_1_0_0_1_n_n rfl rfl lhs_main_v91_0 lhs_main_v91_1 rhs_main_v91_0 rhs_main_v91_1
    dot_S320000x10_S10x128_S320000x128_1_0_0_1_n_n rfl rfl lhs_main_v92_0 lhs_main_v92_1 rhs_main_v92_0 rhs_main_v92_1
    _ bcast_S_S320000x128 (val_main_v90 (F := Ideal) x0 x1 x2 x3 x4 x5 x6 x7 x8 x12 x13 x14 x15 x16 x17) x2 x18 x19 i

/-- The sixth convolution's clipped sum is the message of its gathered rows, the edge attributes and its two weights. -/
theorem msg5 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) (x5 : (⟨S512, .f32⟩ : BufTy).Contents (Elt Ideal)) (x6 : (⟨S496x496, .f32⟩ : BufTy).Contents (Elt Ideal)) (x7 : (⟨S10x496, .f32⟩ : BufTy).Contents (Elt Ideal)) (x8 : (⟨S496, .f32⟩ : BufTy).Contents (Elt Ideal)) (x12 : (⟨S16x32, .f32⟩ : BufTy).Contents (Elt Ideal)) (x13 : (⟨S10x32, .f32⟩ : BufTy).Contents (Elt Ideal)) (x14 : (⟨S32, .f32⟩ : BufTy).Contents (Elt Ideal)) (x15 : (⟨S32x64, .f32⟩ : BufTy).Contents (Elt Ideal)) (x16 : (⟨S10x64, .f32⟩ : BufTy).Contents (Elt Ideal)) (x17 : (⟨S64, .f32⟩ : BufTy).Contents (Elt Ideal)) (x18 : (⟨S64x128, .f32⟩ : BufTy).Contents (Elt Ideal)) (x19 : (⟨S10x128, .f32⟩ : BufTy).Contents (Elt Ideal)) (x20 : (⟨S128, .f32⟩ : BufTy).Contents (Elt Ideal)) (x21 : (⟨S128x256, .f32⟩ : BufTy).Contents (Elt Ideal)) (x22 : (⟨S10x256, .f32⟩ : BufTy).Contents (Elt Ideal)) :
    val_main_v112 (F := Ideal) x0 x1 x2 x3 x4 x5 x6 x7 x8 x12 x13 x14 x15 x16 x17 x18 x19 x20 x21 x22
      = edgeMsg (n := 320000) (k := 128) (e := 10) (c := 256) (val_main_v108 (F := Ideal) x0 x1 x2 x3 x4 x5 x6 x7 x8 x12 x13 x14 x15 x16 x17 x18 x19 x20) x2 x21 x22 := by
  funext i
  unfold val_main_v112 val_main_v111 val_main_v109 val_main_v110 val_main_call5_v0 val_main_call5_cst
  exact edgeMsg_of_dots dot_S320000x128_S128x256_S320000x256_1_0_0_1_n_n rfl rfl lhs_main_v109_0 lhs_main_v109_1 rhs_main_v109_0 rhs_main_v109_1
    dot_S320000x10_S10x256_S320000x256_1_0_0_1_n_n rfl rfl lhs_main_v110_0 lhs_main_v110_1 rhs_main_v110_0 rhs_main_v110_1
    _ bcast_S_S320000x256 (val_main_v108 (F := Ideal) x0 x1 x2 x3 x4 x5 x6 x7 x8 x12 x13 x14 x15 x16 x17 x18 x19 x20) x2 x21 x22 i

/-- The seventh convolution's clipped sum is the message of its gathered rows, the edge attributes and its two weights. -/
theorem msg6 (x0 : (⟨S20000x256, .f32⟩ : BufTy).Contents (Elt Ideal)) (x1 : (⟨S2x320000, .i32⟩ : BufTy).Contents (Elt Ideal)) (x2 : (⟨S320000x10, .f32⟩ : BufTy).Contents (Elt Ideal)) (x3 : (⟨S256x512, .f32⟩ : BufTy).Contents (Elt Ideal)) (x4 : (⟨S10x512, .f32⟩ : BufTy).Contents (Elt Ideal)) (x5 : (⟨S512, .f32⟩ : BufTy).Contents (Elt Ideal)) (x6 : (⟨S496x496, .f32⟩ : BufTy).Contents (Elt Ideal)) (x7 : (⟨S10x496, .f32⟩ : BufTy).Contents (Elt Ideal)) (x8 : (⟨S496, .f32⟩ : BufTy).Contents (Elt Ideal)) (x9 : (⟨S256x256, .f32⟩ : BufTy).Contents (Elt Ideal)) (x10 : (⟨S10x256, .f32⟩ : BufTy).Contents (Elt Ideal)) (x12 : (⟨S16x32, .f32⟩ : BufTy).Contents (Elt Ideal)) (x13 : (⟨S10x32, .f32⟩ : BufTy).Contents (Elt Ideal)) (x14 : (⟨S32, .f32⟩ : BufTy).Contents (Elt Ideal)) (x15 : (⟨S32x64, .f32⟩ : BufTy).Contents (Elt Ideal)) (x16 : (⟨S10x64, .f32⟩ : BufTy).Contents (Elt Ideal)) (x17 : (⟨S64, .f32⟩ : BufTy).Contents (Elt Ideal)) (x18 : (⟨S64x128, .f32⟩ : BufTy).Contents (Elt Ideal)) (x19 : (⟨S10x128, .f32⟩ : BufTy).Contents (Elt Ideal)) (x20 : (⟨S128, .f32⟩ : BufTy).Contents (Elt Ideal)) (x21 : (⟨S128x256, .f32⟩ : BufTy).Contents (Elt Ideal)) (x22 : (⟨S10x256, .f32⟩ : BufTy).Contents (Elt Ideal)) (x23 : (⟨S256, .f32⟩ : BufTy).Contents (Elt Ideal)) :
    val_main_v130 (F := Ideal) x0 x1 x2 x3 x4 x5 x6 x7 x8 x9 x10 x12 x13 x14 x15 x16 x17 x18 x19 x20 x21 x22 x23
      = edgeMsg (n := 320000) (k := 256) (e := 10) (c := 256) (val_main_v126 (F := Ideal) x0 x1 x2 x3 x4 x5 x6 x7 x8 x12 x13 x14 x15 x16 x17 x18 x19 x20 x21 x22 x23) x2 x9 x10 := by
  funext i
  unfold val_main_v130 val_main_v129 val_main_v127 val_main_v128 val_main_call6_v0 val_main_call6_cst
  exact edgeMsg_of_dots dot_S320000x256_S256x256_S320000x256_1_0_0_1_n_n rfl rfl lhs_main_v127_0 lhs_main_v127_1 rhs_main_v127_0 rhs_main_v127_1
    dot_S320000x10_S10x256_S320000x256_1_0_0_1_n_n rfl rfl lhs_main_v128_0 lhs_main_v128_1 rhs_main_v128_0 rhs_main_v128_1
    _ bcast_S_S320000x256 (val_main_v126 (F := Ideal) x0 x1 x2 x3 x4 x5 x6 x7 x8 x12 x13 x14 x15 x16 x17 x18 x19 x20 x21 x22 x23) x2 x9 x10 i

end Cert.ReferenceIdeal.Msg

end
-- ==== Proof.Region0.lean ====
/-
  The first message kernel's output array, as one function of the arrays it is entered with.

  The grid has 160 points; point t holds rows 2000·t … 2000·t + 1999 of the gathered rows [320000, 256] and of the
  edge attributes [320000, 10], the whole of both weight arrays, and writes rows 2000·t … 2000·t + 1999 of the
  result [320000, 512].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x512.Idx) (q : dot_S2000x256_S256x512_S2000x512_1_0_0_1_n_n.contr.Idx) : (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem d1_l1 (i : S2000x512.Idx) (q : dot_S2000x256_S256x512_S2000x512_1_0_0_1_n_n.contr.Idx) : (dot_S2000x256_S256x512_S2000x512_1_0_0_1_n_n.lhsIdx i q 1).val = (q ⟨0, by decide⟩).val :=
  dot_S2000x256_S256x512_S2000x512_1_0_0_1_n_n.lhsIdx_val_of_single rfl i q
theorem d1_r0 (i : S2000x512.Idx) (q : dot_S2000x256_S256x512_S2000x512_1_0_0_1_n_n.contr.Idx) : (dot_S2000x256_S256x512_S2000x512_1_0_0_1_n_n.rhsIdx i q 0).val = (q ⟨0, by decide⟩).val :=
  dot_S2000x256_S256x512_S2000x512_1_0_0_1_n_n.rhsIdx_val_of_single rfl i q
theorem d1_r1 (i : S2000x512.Idx) (q : dot_S2000x256_S256x512_S2000x512_1_0_0_1_n_n.contr.Idx) : (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

theorem d2_l0 (i : S2000x512.Idx) (q : dot_S2000x10_S10x512_S2000x512_1_0_0_1_n_n.contr.Idx) : (dot_S2000x10_S10x512_S2000x512_1_0_0_1_n_n.lhsIdx i q 0).val = (i 0).val := by
  unfold DotDims.lhsIdx
  rw [dif_neg (show ¬(0 : Fin S2000x10.rank) ∈ dot_S2000x10_S10x512_S2000x512_1_0_0_1_n_n.lhsBatch by decide), dif_pos (show (0 : Fin S2000x10.rank) ∈ dot_S2000x10_S10x512_S2000x512_1_0_0_1_n_n.lhsNonContracting by decide)]
  rfl
theorem d2_l1 (i : S2000x512.Idx) (q : dot_S2000x10_S10x512_S2000x512_1_0_0_1_n_n.contr.Idx) : (dot_S2000x10_S10x512_S2000x512_1_0_0_1_n_n.lhsIdx i q 1).val = (q ⟨0, by decide⟩).val :=
  dot_S2000x10_S10x512_S2000x512_1_0_0_1_n_n.lhsIdx_val_of_single rfl i q
theorem d2_r0 (i : S2000x512.Idx) (q : dot_S2000x10_S10x512_S2000x512_1_0_0_1_n_n.contr.Idx) : (dot_S2000x10_S10x512_S2000x512_1_0_0_1_n_n.rhsIdx i q 0).val = (q ⟨0, by decide⟩).val :=
  dot_S2000x10_S10x512_S2000x512_1_0_0_1_n_n.rhsIdx_val_of_single rfl i q
theorem d2_r1 (i : S2000x512.Idx) (q : dot_S2000x10_S10x512_S2000x512_1_0_0_1_n_n.contr.Idx) : (dot_S2000x10_S10x512_S2000x512_1_0_0_1_n_n.rhsIdx i q 1).val = (i 1).val := by
  unfold DotDims.rhsIdx
  rw [dif_neg (show ¬(1 : Fin S10x512.rank) ∈ dot_S2000x10_S10x512_S2000x512_1_0_0_1_n_n.rhsBatch by decide), dif_pos (show (1 : Fin S10x512.rank) ∈ dot_S2000x10_S10x512_S2000x512_1_0_0_1_n_n.rhsNonContracting by decide)]
  rfl

/-! ## The body's stored value at an entry -/

/-- The stored block at entry j is the message of the loaded blocks at j. -/
theorem pay (x0 : Vec Ideal S2000x256 .f32) (x3 : Vec Ideal S256x512 .f32) (x5 : Vec Ideal S2000x10 .f32)
    (x7 : Vec Ideal S10x512 .f32) (j : S2000x512.Idx) :
    k0_pay1 x0 x3 x5 x7 j = edgeMsg (n := 2000) (k := 256) (e := 10) (c := 512) x0 x5 x3 x7 j := by
  unfold k0_pay1
  exact edgeMsg_of_matmuls dot_S2000x256_S256x512_S2000x512_1_0_0_1_n_n rfl rfl d1_l0 d1_l1 d1_r0 d1_r1 dot_S2000x10_S10x512_S2000x512_1_0_0_1_n_n rfl rfl d2_l0 d2_l1 d2_r0 d2_r1
    shapeCasts_S2000x256_S2000x256 bitsLt_bf16_f32 x0 x5 x3 x7 j

/-! ## Where each window's block sits -/

/-- The row windows and the result window move down 2000 rows per point; the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of the first weight array is the whole array, at every point. -/
theorem wn_blk (c : Dev nD) (t : Fin cfg0.N) :
    (iblk0 V c 2 t : S256x512.Idx → EReal) = (V c main_arg3 : S256x512.Idx → EReal) := by
  obtain ⟨-, -, -, -, e0, e1, -, -, -, -⟩ := idx_facts t
  funext y
  show (V c main_arg3 : S256x512.Idx → EReal) (((cfg0.win 2).blk t).view.emb y) = (V c main_arg3 : S256x512.Idx → EReal) y
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 512 + 1 * (y 1).val = (y 1).val; omega

/-- The block of the second weight array is the whole array, at every point. -/
theorem we_blk (c : Dev nD) (t : Fin cfg0.N) :
    (iblk0 V c 3 t : S10x512.Idx → EReal) = (V c main_arg4 : S10x512.Idx → EReal) := by
  obtain ⟨-, -, -, -, -, -, e0, e1, -, -⟩ := idx_facts t
  funext y
  show (V c main_arg4 : S10x512.Idx → EReal) (((cfg0.win 3).blk t).view.emb y) = (V c main_arg4 : S10x512.Idx → EReal) y
  refine congrArg _ (funext fun a => Fin.ext ?_)
  match a with
  | ⟨0, _⟩ => show win0_3.index t (0 : Fin 2) * 10 + 1 * (y 0).val = (y 0).val; omega
  | ⟨1, _⟩ => show win0_3.index t (1 : Fin 2) * 512 + 1 * (y 1).val = (y 1).val; omega

/-- The whole-array message of the arrays the region is entered with. -/
abbrev result (c : Dev nD) : S320000x512.Idx → EReal :=
  edgeMsg (n := 320000) (k := 256) (e := 10) (c := 512) (V c main_v10) (V c main_arg2) (V c main_arg3) (V c main_arg4)

/-- What point t writes back is block t of the whole-array message. -/
theorem flushed_eq (c : Dev nD) (t : Fin cfg0.N) :
    (dat0 V c).flushed 4 t = ((cfg0.win 4).blk t).view.read (Elt Ideal) (result V c) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x512) hz,
    View.ld_unit_zero (S := S2000x10) hz, View.ld_unit_zero (S := S10x512) hz]
  obtain ⟨e0, e1, e2, e3, -, -, -, -, e8, e9⟩ := idx_facts t
  funext j
  show k0_pay1 (iblk0 V c 0 t) (iblk0 V c 2 t) (iblk0 V c 1 t) (iblk0 V c 3 t) j
    = result V c (((cfg0.win 4).blk t).view.emb j)
  refine (pay (iblk0 V c 0 t) (iblk0 V c 2 t) (iblk0 V c 1 t) (iblk0 V c 3 t) j).trans ?_
  have hwn := wn_blk V c t
  have hwe := we_blk V c t
  show edgeMsg (n := 2000) (k := 256) (e := 10) (c := 512) (iblk0 V c 0 t) (iblk0 V c 1 t)
    (iblk0 V c 2 t : S256x512.Idx → EReal) (iblk0 V c 3 t : S10x512.Idx → EReal) j = _
  rw [hwn, hwe]
  refine (edgeMsg_rows (N := 320000) (n := 2000) (k := 256) (e := 10) (c := 512) (V c main_v10) (V c main_arg2)
    (iblk0 V c 0 t) (iblk0 V c 1 t) (V c main_arg3) (V c main_arg4) (((cfg0.win 4).blk t).view.emb j) j ?_ ?_ ?_).symm
  · show win0_4.index t (1 : Fin 2) * 512 + 1 * (j 1).val = (j 1).val
    omega
  · intro q
    show (V c main_v10 : S320000x256.Idx → EReal) _ = (V c main_v10 : S320000x256.Idx → EReal) (((cfg0.win 0).blk t).view.emb (ix2 (rowOf j) q))
    refine congrArg _ (funext fun a => Fin.ext ?_)
    match a with
    | ⟨0, _⟩ =>
      show win0_4.index t (0 : Fin 2) * 2000 + 1 * (j 0).val = win0_0.index t (0 : Fin 2) * 2000 + 1 * (j 0).val
      omega
    | ⟨1, _⟩ =>
      show q.val = win0_0.index t (1 : Fin 2) * 256 + 1 * q.val
      omega
  · intro q
    show (V c main_arg2 : S320000x10.Idx → EReal) _ = (V c main_arg2 : S320000x10.Idx → EReal) (((cfg0.win 1).blk t).view.emb (ix2 (rowOf j) q))
    refine congrArg _ (funext fun a => Fin.ext ?_)
    match a with
    | ⟨0, _⟩ =>
      show win0_4.index t (0 : Fin 2) * 2000 + 1 * (j 0).val = win0_1.index t (0 : Fin 2) * 2000 + 1 * (j 0).val
      omega
    | ⟨1, _⟩ =>
      show q.val = win0_1.index t (1 : Fin 2) * 10 + 1 * q.val
      omega

/-! ## The blocks tile the result -/

/-- An index of the result is in point t's block iff each coordinate is in the block's range on its axis. -/
theorem mem_blk (t : Fin cfg0.N) (i : S320000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v11).slice (win0_4.rect t)).set ↔ _
  rw [View.set_slice_whole, Rect.mem_set_unit]
  exact Iff.rfl

/-- Row r of the result lies in the block of point r / 2000. -/
theorem cover (i : S320000x512.Idx) :
    ∃ t : Fin cfg0.N, (cfg0.win 4).flush t = true ∧ i ∈ ((cfg0.win 4).blk t).view.set := by
  have hN : cfg0.N = 160 := N_0
  have hi0 : (i 0).val < 320000 := (i 0).isLt
  have hi1 : (i 1).val < 512 := (i 1).isLt
  have ht : (i 0).val / 2000 < cfg0.N := by rw [hN]; omega
  refine ⟨⟨(i 0).val / 2000, ht⟩, flush0_4 _, ?_⟩
  rw [mem_blk]
  obtain ⟨-, -, -, -, -, -, -, -, e8, e9⟩ := idx_facts ⟨(i 0).val / 2000, ht⟩
  have e8' : win0_4.index ⟨(i 0).val / 2000, ht⟩ (0 : Fin 2) = (i 0).val / 2000 := e8
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    omega
  | ⟨1, _⟩ =>
    show win0_4.index ⟨(i 0).val / 2000, ht⟩ (1 : Fin 2) * 512 ≤ (i 1).val ∧ (i 1).val < win0_4.index ⟨(i 0).val / 2000, ht⟩ (1 : Fin 2) * 512 + 512
    omega

/-- The result array after the region is the message of the arrays the region is entered with. -/
theorem final (c : Dev nD) : (dat0 V c).arrAt 4 cfg0.N = result V c :=
  (dat0 V c).arrAt_eq_of_cover 4 (result V c) (fun t _ => flushed_eq V c t) cover

end Cert.KernelIdeal.Region0

end
-- ==== Proof.Region1.lean ====
/-
  The second message kernel's output array, as one function of the arrays it is entered with.

  The grid has 160 points; point t holds rows 2000·t … 2000·t + 1999 of the gathered rows [320000, 496] and of the
  edge attributes [320000, 10], the whole of both weight arrays, and writes rows 2000·t … 2000·t + 1999 of the
  result [320000, 496].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x496.Idx) (q : dot_S2000x496_S496x496_S2000x496_1_0_0_1_n_n.contr.Idx) : (dot_S2000x496_S496x496_S2000x496_1_0_0_1_n_n.lhsIdx i q 0).val = (i 0).val := by
  unfold DotDims.lhsIdx
  rw [dif_neg (show ¬(0 : Fin S2000x496.rank) ∈ dot_S2000x496_S496x496_S2000x496_1_0_0_1_n_n.lhsBatch by decide), dif_pos (show (0 : Fin S2000x496.rank) ∈ dot_S2000x496_S496x496_S2000x496_1_0_0_1_n_n.lhsNonContracting by decide)]
  rfl
theorem d1_l1 (i : S2000x496.Idx) (q : dot_S2000x496_S496x496_S2000x496_1_0_0_1_n_n.contr.Idx) : (dot_S2000x496_S496x496_S2000x496_1_0_0_1_n_n.lhsIdx i q 1).val = (q ⟨0, by decide⟩).val :=
  dot_S2000x496_S496x496_S2000x496_1_0_0_1_n_n.lhsIdx_val_of_single rfl i q
theorem d1_r0 (i : S2000x496.Idx) (q : dot_S2000x496_S496x496_S2000x496_1_0_0_1_n_n.contr.Idx) : (dot_S2000x496_S496x496_S2000x496_1_0_0_1_n_n.rhsIdx i q 0).val = (q ⟨0, by decide⟩).val :=
  dot_S2000x496_S496x496_S2000x496_1_0_0_1_n_n.rhsIdx_val_of_single rfl i q
theorem d1_r1 (i : S2000x496.Idx) (q : dot_S2000x496_S496x496_S2000x496_1_0_0_1_n_n.contr.Idx) : (dot_S2000x496_S496x496_S2000x496_1_0_0_1_n_n.rhsIdx i q 1).val = (i 1).val := by
  unfold DotDims.rhsIdx
  rw [dif_neg (show ¬(1 : Fin S496x496.rank) ∈ dot_S2000x496_S496x496_S2000x496_1_0_0_1_n_n.rhsBatch by decide), dif_pos (show (1 : Fin S496x496.rank) ∈ dot_S2000x496_S496x496_S2000x496_1_0_0_1_n_n.rhsNonContracting by decide)]
  rfl

theorem d2_l0 (i : S2000x496.Idx) (q : dot_S2000x10_S10x496_S2000x496_1_0_0_1_n_n.contr.Idx) : (dot_S2000x10_S10x496_S2000x496_1_0_0_1_n_n.lhsIdx i q 0).val = (i 0).val := by
  unfold DotDims.lhsIdx
  rw [dif_neg (show ¬(0 : Fin S2000x10.rank) ∈ dot_S2000x10_S10x496_S2000x496_1_0_0_1_n_n.lhsBatch by decide), dif_pos (show (0 : Fin S2000x10.rank) ∈ dot_S2000x10_S10x496_S2000x496_1_0_0_1_n_n.lhsNonContracting by decide)]
  rfl
theorem d2_l1 (i : S2000x496.Idx) (q : dot_S2000x10_S10x496_S2000x496_1_0_0_1_n_n.contr.Idx) : (dot_S2000x10_S10x496_S2000x496_1_0_0_1_n_n.lhsIdx i q 1).val = (q ⟨0, by decide⟩).val :=
  dot_S2000x10_S10x496_S2000x496_1_0_0_1_n_n.lhsIdx_val_of_single rfl i q
theorem d2_r0 (i : S2000x496.Idx) (q : dot_S2000x10_S10x496_S2000x496_1_0_0_1_n_n.contr.Idx) : (dot_S2000x10_S10x496_S2000x496_1_0_0_1_n_n.rhsIdx i q 0).val = (q ⟨0, by decide⟩).val :=
  dot_S2000x10_S10x496_S2000x496_1_0_0_1_n_n.rhsIdx_val_of_single rfl i q
theorem d2_r1 (i : S2000x496.Idx) (q : dot_S2000x10_S10x496_S2000x496_1_0_0_1_n_n.contr.Idx) : (dot_S2000x10_S10x496_S2000x496_1_0_0_1_n_n.rhsIdx i q 1).val = (i 1).val := by
  unfold DotDims.rhsIdx
  rw [dif_neg (show ¬(1 : Fin S10x496.rank) ∈ dot_S2000x10_S10x496_S2000x496_1_0_0_1_n_n.rhsBatch by decide), dif_pos (show (1 : Fin S10x496.rank) ∈ dot_S2000x10_S10x496_S2000x496_1_0_0_1_n_n.rhsNonContracting by decide)]
  rfl

/-! ## The body's stored value at an entry -/

/-- The stored block at entry j is the message of the loaded blocks at j. -/
theorem pay (x0 : Vec Ideal S2000x496 .f32) (x3 : Vec Ideal S496x496 .f32) (x5 : Vec Ideal S2000x10 .f32)
    (x7 : Vec Ideal S10x496 .f32) (j : S2000x496.Idx) :
    k1_pay1 x0 x3 x5 x7 j = edgeMsg (n := 2000) (k := 496) (e := 10) (c := 496) x0 x5 x3 x7 j := by
  unfold k1_pay1
  exact edgeMsg_of_matmuls dot_S2000x496_S496x496_S2000x496_1_0_0_1_n_n rfl rfl d1_l0 d1_l1 d1_r0 d1_r1 dot_S2000x10_S10x496_S2000x496_1_0_0_1_n_n rfl rfl d2_l0 d2_l1 d2_r0 d2_r1
    shapeCasts_S2000x496_S2000x496 bitsLt_bf16_f32 x0 x5 x3 x7 j

/-! ## Where each window's block sits -/

/-- The row windows and the result window move down 2000 rows per point; the weight windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the first weight array is the whole array, at every point. -/
theorem wn_blk (c : Dev nD) (t : Fin cfg1.N) :
    (iblk1 V c 2 t : S496x496.Idx → EReal) = (V c main_arg6 : S496x496.Idx → EReal) := by
  obtain ⟨-, -, -, -, e0, e1, -, -, -, -⟩ := idx_facts t
  funext y
  show (V c main_arg6 : S496x496.Idx → EReal) (((cfg1.win 2).blk t).view.emb y) = (V c main_arg6 : S496x496.Idx → EReal) y
  refine congrArg _ (funext fun a => Fin.ext ?_)
  match a with
  | ⟨0, _⟩ => show win1_2.index t (0 : Fin 2) * 496 + 1 * (y 0).val = (y 0).val; omega
  | ⟨1, _⟩ => show win1_2.index t (1 : Fin 2) * 496 + 1 * (y 1).val = (y 1).val; omega

/-- The block of the second weight array is the whole array, at every point. -/
theorem we_blk (c : Dev nD) (t : Fin cfg1.N) :
    (iblk1 V c 3 t : S10x496.Idx → EReal) = (V c main_arg7 : S10x496.Idx → EReal) := by
  obtain ⟨-, -, -, -, -, -, e0, e1, -, -⟩ := idx_facts t
  funext y
  show (V c main_arg7 : S10x496.Idx → EReal) (((cfg1.win 3).blk t).view.emb y) = (V c main_arg7 : S10x496.Idx → EReal) y
  refine congrArg _ (funext fun a => Fin.ext ?_)
  match a with
  | ⟨0, _⟩ => show win1_3.index t (0 : Fin 2) * 10 + 1 * (y 0).val = (y 0).val; omega
  | ⟨1, _⟩ => show win1_3.index t (1 : Fin 2) * 496 + 1 * (y 1).val = (y 1).val; omega

/-- The whole-array message of the arrays the region is entered with. -/
abbrev result (c : Dev nD) : S320000x496.Idx → EReal :=
  edgeMsg (n := 320000) (k := 496) (e := 10) (c := 496) (V c main_v26) (V c main_arg2) (V c main_arg6) (V c main_arg7)

/-- What point t writes back is block t of the whole-array message. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S2000x496) hz, View.ld_unit_zero (S := S496x496) hz,
    View.ld_unit_zero (S := S2000x10) hz, View.ld_unit_zero (S := S10x496) hz]
  obtain ⟨e0, e1, e2, e3, -, -, -, -, e8, e9⟩ := idx_facts t
  funext j
  show k1_pay1 (iblk1 V c 0 t) (iblk1 V c 2 t) (iblk1 V c 1 t) (iblk1 V c 3 t) j
    = result V c (((cfg1.win 4).blk t).view.emb j)
  refine (pay (iblk1 V c 0 t) (iblk1 V c 2 t) (iblk1 V c 1 t) (iblk1 V c 3 t) j).trans ?_
  have hwn := wn_blk V c t
  have hwe := we_blk V c t
  show edgeMsg (n := 2000) (k := 496) (e := 10) (c := 496) (iblk1 V c 0 t) (iblk1 V c 1 t)
    (iblk1 V c 2 t : S496x496.Idx → EReal) (iblk1 V c 3 t : S10x496.Idx → EReal) j = _
  rw [hwn, hwe]
  refine (edgeMsg_rows (N := 320000) (n := 2000) (k := 496) (e := 10) (c := 496) (V c main_v26) (V c main_arg2)
    (iblk1 V c 0 t) (iblk1 V c 1 t) (V c main_arg6) (V c main_arg7) (((cfg1.win 4).blk t).view.emb j) j ?_ ?_ ?_).symm
  · show win1_4.index t (1 : Fin 2) * 496 + 1 * (j 1).val = (j 1).val
    omega
  · intro q
    show (V c main_v26 : S320000x496.Idx → EReal) _ = (V c main_v26 : S320000x496.Idx → EReal) (((cfg1.win 0).blk t).view.emb (ix2 (rowOf j) q))
    refine congrArg _ (funext fun a => Fin.ext ?_)
    match a with
    | ⟨0, _⟩ =>
      show win1_4.index t (0 : Fin 2) * 2000 + 1 * (j 0).val = win1_0.index t (0 : Fin 2) * 2000 + 1 * (j 0).val
      omega
    | ⟨1, _⟩ =>
      show q.val = win1_0.index t (1 : Fin 2) * 496 + 1 * q.val
      omega
  · intro q
    show (V c main_arg2 : S320000x10.Idx → EReal) _ = (V c main_arg2 : S320000x10.Idx → EReal) (((cfg1.win 1).blk t).view.emb (ix2 (rowOf j) q))
    refine congrArg _ (funext fun a => Fin.ext ?_)
    match a with
    | ⟨0, _⟩ =>
      show win1_4.index t (0 : Fin 2) * 2000 + 1 * (j 0).val = win1_1.index t (0 : Fin 2) * 2000 + 1 * (j 0).val
      omega
    | ⟨1, _⟩ =>
      show q.val = win1_1.index t (1 : Fin 2) * 10 + 1 * q.val
      omega

/-! ## The blocks tile the result -/

/-- An index of the result is in point t's block iff each coordinate is in the block's range on its axis. -/
theorem mem_blk (t : Fin cfg1.N) (i : S320000x496.Idx) :
    i ∈ ((cfg1.win 4).blk t).view.set ↔ ∀ a : Fin 2, win1_4.index t a * S2000x496.size a ≤ (i a).val ∧ (i a).val < win1_4.index t a * S2000x496.size a + S2000x496.size a := by
  show i ∈ ((View.whole main_v27).slice (win1_4.rect t)).set ↔ _
  rw [View.set_slice_whole, Rect.mem_set_unit]
  exact Iff.rfl

/-- Row r of the result lies in the block of point r / 2000. -/
theorem cover (i : S320000x496.Idx) :
    ∃ t : Fin cfg1.N, (cfg1.win 4).flush t = true ∧ i ∈ ((cfg1.win 4).blk t).view.set := by
  have hN : cfg1.N = 160 := N_1
  have hi0 : (i 0).val < 320000 := (i 0).isLt
  have hi1 : (i 1).val < 496 := (i 1).isLt
  have ht : (i 0).val / 2000 < cfg1.N := by rw [hN]; omega
  refine ⟨⟨(i 0).val / 2000, ht⟩, flush1_4 _, ?_⟩
  rw [mem_blk]
  obtain ⟨-, -, -, -, -, -, -, -, e8, e9⟩ := idx_facts ⟨(i 0).val / 2000, ht⟩
  have e8' : win1_4.index ⟨(i 0).val / 2000, ht⟩ (0 : Fin 2) = (i 0).val / 2000 := e8
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    omega
  | ⟨1, _⟩ =>
    show win1_4.index ⟨(i 0).val / 2000, ht⟩ (1 : Fin 2) * 496 ≤ (i 1).val ∧ (i 1).val < win1_4.index ⟨(i 0).val / 2000, ht⟩ (1 : Fin 2) * 496 + 496
    omega

/-- The result array after the region is the message of the arrays the region is entered with. -/
theorem final (c : Dev nD) : (dat1 V c).arrAt 4 cfg1.N = result V c :=
  (dat1 V c).arrAt_eq_of_cover 4 (result V c) (fun t _ => flushed_eq V c t) cover

end Cert.KernelIdeal.Region1

end
-- ==== Proof.Region2.lean ====
/-
  The third message kernel's output array, as one function of the arrays it is entered with.

  The grid has 160 points; point t holds rows 2000·t … 2000·t + 1999 of the gathered rows [320000, 16] and of the
  edge attributes [320000, 10], the whole of both weight arrays, and writes rows 2000·t … 2000·t + 1999 of the
  result [320000, 32].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x32.Idx) (q : dot_S2000x16_S16x32_S2000x32_1_0_0_1_n_n.contr.Idx) : (dot_S2000x16_S16x32_S2000x32_1_0_0_1_n_n.lhsIdx i q 0).val = (i 0).val := by
  unfold DotDims.lhsIdx
  rw [dif_neg (show ¬(0 : Fin S2000x16.rank) ∈ dot_S2000x16_S16x32_S2000x32_1_0_0_1_n_n.lhsBatch by decide), dif_pos (show (0 : Fin S2000x16.rank) ∈ dot_S2000x16_S16x32_S2000x32_1_0_0_1_n_n.lhsNonContracting by decide)]
  rfl
theorem d1_l1 (i : S2000x32.Idx) (q : dot_S2000x16_S16x32_S2000x32_1_0_0_1_n_n.contr.Idx) : (dot_S2000x16_S16x32_S2000x32_1_0_0_1_n_n.lhsIdx i q 1).val = (q ⟨0, by decide⟩).val :=
  dot_S2000x16_S16x32_S2000x32_1_0_0_1_n_n.lhsIdx_val_of_single rfl i q
theorem d1_r0 (i : S2000x32.Idx) (q : dot_S2000x16_S16x32_S2000x32_1_0_0_1_n_n.contr.Idx) : (dot_S2000x16_S16x32_S2000x32_1_0_0_1_n_n.rhsIdx i q 0).val = (q ⟨0, by decide⟩).val :=
  dot_S2000x16_S16x32_S2000x32_1_0_0_1_n_n.rhsIdx_val_of_single rfl i q
theorem d1_r1 (i : S2000x32.Idx) (q : dot_S2000x16_S16x32_S2000x32_1_0_0_1_n_n.contr.Idx) : (dot_S2000x16_S16x32_S2000x32_1_0_0_1_n_n.rhsIdx i q 1).val = (i 1).val := by
  unfold DotDims.rhsIdx
  rw [dif_neg (show ¬(1 : Fin S16x32.rank) ∈ dot_S2000x16_S16x32_S2000x32_1_0_0_1_n_n.rhsBatch by decide), dif_pos (show (1 : Fin S16x32.rank) ∈ dot_S2000x16_S16x32_S2000x32_1_0_0_1_n_n.rhsNonContracting by decide)]
  rfl

theorem d2_l0 (i : S2000x32.Idx) (q : dot_S2000x10_S10x32_S2000x32_1_0_0_1_n_n.contr.Idx) : (dot_S2000x10_S10x32_S2000x32_1_0_0_1_n_n.lhsIdx i q 0).val = (i 0).val := by
  unfold DotDims.lhsIdx
  rw [dif_neg (show ¬(0 : Fin S2000x10.rank) ∈ dot_S2000x10_S10x32_S2000x32_1_0_0_1_n_n.lhsBatch by decide), dif_pos (show (0 : Fin S2000x10.rank) ∈ dot_S2000x10_S10x32_S2000x32_1_0_0_1_n_n.lhsNonContracting by decide)]
  rfl
theorem d2_l1 (i : S2000x32.Idx) (q : dot_S2000x10_S10x32_S2000x32_1_0_0_1_n_n.contr.Idx) : (dot_S2000x10_S10x32_S2000x32_1_0_0_1_n_n.lhsIdx i q 1).val = (q ⟨0, by decide⟩).val :=
  dot_S2000x10_S10x32_S2000x32_1_0_0_1_n_n.lhsIdx_val_of_single rfl i q
theorem d2_r0 (i : S2000x32.Idx) (q : dot_S2000x10_S10x32_S2000x32_1_0_0_1_n_n.contr.Idx) : (dot_S2000x10_S10x32_S2000x32_1_0_0_1_n_n.rhsIdx i q 0).val = (q ⟨0, by decide⟩).val :=
  dot_S2000x10_S10x32_S2000x32_1_0_0_1_n_n.rhsIdx_val_of_single rfl i q
theorem d2_r1 (i : S2000x32.Idx) (q : dot_S2000x10_S10x32_S2000x32_1_0_0_1_n_n.contr.Idx) : (dot_S2000x10_S10x32_S2000x32_1_0_0_1_n_n.rhsIdx i q 1).val = (i 1).val := by
  unfold DotDims.rhsIdx
  rw [dif_neg (show ¬(1 : Fin S10x32.rank) ∈ dot_S2000x10_S10x32_S2000x32_1_0_0_1_n_n.rhsBatch by decide), dif_pos (show (1 : Fin S10x32.rank) ∈ dot_S2000x10_S10x32_S2000x32_1_0_0_1_n_n.rhsNonContracting by decide)]
  rfl

/-! ## The body's stored value at an entry -/

/-- The stored block at entry j is the message of the loaded blocks at j. -/
theorem pay (x0 : Vec Ideal S2000x16 .f32) (x3 : Vec Ideal S16x32 .f32) (x5 : Vec Ideal S2000x10 .f32)
    (x7 : Vec Ideal S10x32 .f32) (j : S2000x32.Idx) :
    k2_pay1 x0 x3 x5 x7 j = edgeMsg (n := 2000) (k := 16) (e := 10) (c := 32) x0 x5 x3 x7 j := by
  unfold k2_pay1
  exact edgeMsg_of_matmuls dot_S2000x16_S16x32_S2000x32_1_0_0_1_n_n rfl rfl d1_l0 d1_l1 d1_r0 d1_r1 dot_S2000x10_S10x32_S2000x32_1_0_0_1_n_n rfl rfl d2_l0 d2_l1 d2_r0 d2_r1
    shapeCasts_S2000x16_S2000x16 bitsLt_bf16_f32 x0 x5 x3 x7 j

/-! ## Where each window's block sits -/

/-- The row windows and the result window move down 2000 rows per point; the weight windows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The block of the first weight array is the whole array, at every point. -/
theorem wn_blk (c : Dev nD) (t : Fin cfg2.N) :
    (iblk2 V c 2 t : S16x32.Idx → EReal) = (V c main_arg12 : S16x32.Idx → EReal) := by
  obtain ⟨-, -, -, -, e0, e1, -, -, -, -⟩ := idx_facts t
  funext y
  show (V c main_arg12 : S16x32.Idx → EReal) (((cfg2.win 2).blk t).view.emb y) = (V c main_arg12 : S16x32.Idx → EReal) y
  refine congrArg _ (funext fun a => Fin.ext ?_)
  match a with
  | ⟨0, _⟩ => show win2_2.index t (0 : Fin 2) * 16 + 1 * (y 0).val = (y 0).val; omega
  | ⟨1, _⟩ => show win2_2.index t (1 : Fin 2) * 32 + 1 * (y 1).val = (y 1).val; omega

/-- The block of the second weight array is the whole array, at every point. -/
theorem we_blk (c : Dev nD) (t : Fin cfg2.N) :
    (iblk2 V c 3 t : S10x32.Idx → EReal) = (V c main_arg13 : S10x32.Idx → EReal) := by
  obtain ⟨-, -, -, -, -, -, e0, e1, -, -⟩ := idx_facts t
  funext y
  show (V c main_arg13 : S10x32.Idx → EReal) (((cfg2.win 3).blk t).view.emb y) = (V c main_arg13 : S10x32.Idx → EReal) y
  refine congrArg _ (funext fun a => Fin.ext ?_)
  match a with
  | ⟨0, _⟩ => show win2_3.index t (0 : Fin 2) * 10 + 1 * (y 0).val = (y 0).val; omega
  | ⟨1, _⟩ => show win2_3.index t (1 : Fin 2) * 32 + 1 * (y 1).val = (y 1).val; omega

/-- The whole-array message of the arrays the region is entered with. -/
abbrev result (c : Dev nD) : S320000x32.Idx → EReal :=
  edgeMsg (n := 320000) (k := 16) (e := 10) (c := 32) (V c main_v48) (V c main_arg2) (V c main_arg12) (V c main_arg13)

/-- What point t writes back is block t of the whole-array message. -/
theorem flushed_eq (c : Dev nD) (t : Fin cfg2.N) :
    (dat2 V c).flushed 4 t = ((cfg2.win 4).blk t).view.read (Elt Ideal) (result V c) := by
  show (cfg2.win 4).cut (grid2.coords t) ((dat2 V c).after 4 t) = _
  rw [after2_4]
  unfold out2_4
  rw [View.canon_unit_zero hz]
  simp only [View.ld_unit_zero (S := S2000x16) hz, View.ld_unit_zero (S := S16x32) hz,
    View.ld_unit_zero (S := S2000x10) hz, View.ld_unit_zero (S := S10x32) hz]
  obtain ⟨e0, e1, e2, e3, -, -, -, -, e8, e9⟩ := idx_facts t
  funext j
  show k2_pay1 (iblk2 V c 0 t) (iblk2 V c 2 t) (iblk2 V c 1 t) (iblk2 V c 3 t) j
    = result V c (((cfg2.win 4).blk t).view.emb j)
  refine (pay (iblk2 V c 0 t) (iblk2 V c 2 t) (iblk2 V c 1 t) (iblk2 V c 3 t) j).trans ?_
  have hwn := wn_blk V c t
  have hwe := we_blk V c t
  show edgeMsg (n := 2000) (k := 16) (e := 10) (c := 32) (iblk2 V c 0 t) (iblk2 V c 1 t)
    (iblk2 V c 2 t : S16x32.Idx → EReal) (iblk2 V c 3 t : S10x32.Idx → EReal) j = _
  rw [hwn, hwe]
  refine (edgeMsg_rows (N := 320000) (n := 2000) (k := 16) (e := 10) (c := 32) (V c main_v48) (V c main_arg2)
    (iblk2 V c 0 t) (iblk2 V c 1 t) (V c main_arg12) (V c main_arg13) (((cfg2.win 4).blk t).view.emb j) j ?_ ?_ ?_).symm
  · show win2_4.index t (1 : Fin 2) * 32 + 1 * (j 1).val = (j 1).val
    omega
  · intro q
    show (V c main_v48 : S320000x16.Idx → EReal) _ = (V c main_v48 : S320000x16.Idx → EReal) (((cfg2.win 0).blk t).view.emb (ix2 (rowOf j) q))
    refine congrArg _ (funext fun a => Fin.ext ?_)
    match a with
    | ⟨0, _⟩ =>
      show win2_4.index t (0 : Fin 2) * 2000 + 1 * (j 0).val = win2_0.index t (0 : Fin 2) * 2000 + 1 * (j 0).val
      omega
    | ⟨1, _⟩ =>
      show q.val = win2_0.index t (1 : Fin 2) * 16 + 1 * q.val
      omega
  · intro q
    show (V c main_arg2 : S320000x10.Idx → EReal) _ = (V c main_arg2 : S320000x10.Idx → EReal) (((cfg2.win 1).blk t).view.emb (ix2 (rowOf j) q))
    refine congrArg _ (funext fun a => Fin.ext ?_)
    match a with
    | ⟨0, _⟩ =>
      show win2_4.index t (0 : Fin 2) * 2000 + 1 * (j 0).val = win2_1.index t (0 : Fin 2) * 2000 + 1 * (j 0).val
      omega
    | ⟨1, _⟩ =>
      show q.val = win2_1.index t (1 : Fin 2) * 10 + 1 * q.val
      omega

/-! ## The blocks tile the result -/

/-- An index of the result is in point t's block iff each coordinate is in the block's range on its axis. -/
theorem mem_blk (t : Fin cfg2.N) (i : S320000x32.Idx) :
    i ∈ ((cfg2.win 4).blk t).view.set ↔ ∀ a : Fin 2, win2_4.index t a * S2000x32.size a ≤ (i a).val ∧ (i a).val < win2_4.index t a * S2000x32.size a + S2000x32.size a := by
  show i ∈ ((View.whole main_v49).slice (win2_4.rect t)).set ↔ _
  rw [View.set_slice_whole, Rect.mem_set_unit]
  exact Iff.rfl

/-- Row r of the result lies in the block of point r / 2000. -/
theorem cover (i : S320000x32.Idx) :
    ∃ t : Fin cfg2.N, (cfg2.win 4).flush t = true ∧ i ∈ ((cfg2.win 4).blk t).view.set := by
  have hN : cfg2.N = 160 := N_2
  have hi0 : (i 0).val < 320000 := (i 0).isLt
  have hi1 : (i 1).val < 32 := (i 1).isLt
  have ht : (i 0).val / 2000 < cfg2.N := by rw [hN]; omega
  refine ⟨⟨(i 0).val / 2000, ht⟩, flush2_4 _, ?_⟩
  rw [mem_blk]
  obtain ⟨-, -, -, -, -, -, -, -, e8, e9⟩ := idx_facts ⟨(i 0).val / 2000, ht⟩
  have e8' : win2_4.index ⟨(i 0).val / 2000, ht⟩ (0 : Fin 2) = (i 0).val / 2000 := e8
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    omega
  | ⟨1, _⟩ =>
    show win2_4.index ⟨(i 0).val / 2000, ht⟩ (1 : Fin 2) * 32 ≤ (i 1).val ∧ (i 1).val < win2_4.index ⟨(i 0).val / 2000, ht⟩ (1 : Fin 2) * 32 + 32
    omega

/-- The result array after the region is the message of the arrays the region is entered with. -/
theorem final (c : Dev nD) : (dat2 V c).arrAt 4 cfg2.N = result V c :=
  (dat2 V c).arrAt_eq_of_cover 4 (result V c) (fun t _ => flushed_eq V c t) cover

end Cert.KernelIdeal.Region2

end
-- ==== Proof.Region3.lean ====
/-
  The fourth message kernel's output array, as one function of the arrays it is entered with.

  The grid has 160 points; point t holds rows 2000·t … 2000·t + 1999 of the gathered rows [320000, 32] and of the
  edge attributes [320000, 10], the whole of both weight arrays, and writes rows 2000·t … 2000·t + 1999 of the
  result [320000, 64].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x64.Idx) (q : dot_S2000x32_S32x64_S2000x64_1_0_0_1_n_n.contr.Idx) : (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem d1_l1 (i : S2000x64.Idx) (q : dot_S2000x32_S32x64_S2000x64_1_0_0_1_n_n.contr.Idx) : (dot_S2000x32_S32x64_S2000x64_1_0_0_1_n_n.lhsIdx i q 1).val = (q ⟨0, by decide⟩).val :=
  dot_S2000x32_S32x64_S2000x64_1_0_0_1_n_n.lhsIdx_val_of_single rfl i q
theorem d1_r0 (i : S2000x64.Idx) (q : dot_S2000x32_S32x64_S2000x64_1_0_0_1_n_n.contr.Idx) : (dot_S2000x32_S32x64_S2000x64_1_0_0_1_n_n.rhsIdx i q 0).val = (q ⟨0, by decide⟩).val :=
  dot_S2000x32_S32x64_S2000x64_1_0_0_1_n_n.rhsIdx_val_of_single rfl i q
theorem d1_r1 (i : S2000x64.Idx) (q : dot_S2000x32_S32x64_S2000x64_1_0_0_1_n_n.contr.Idx) : (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

theorem d2_l0 (i : S2000x64.Idx) (q : dot_S2000x10_S10x64_S2000x64_1_0_0_1_n_n.contr.Idx) : (dot_S2000x10_S10x64_S2000x64_1_0_0_1_n_n.lhsIdx i q 0).val = (i 0).val := by
  unfold DotDims.lhsIdx
  rw [dif_neg (show ¬(0 : Fin S2000x10.rank) ∈ dot_S2000x10_S10x64_S2000x64_1_0_0_1_n_n.lhsBatch by decide), dif_pos (show (0 : Fin S2000x10.rank) ∈ dot_S2000x10_S10x64_S2000x64_1_0_0_1_n_n.lhsNonContracting by decide)]
  rfl
theorem d2_l1 (i : S2000x64.Idx) (q : dot_S2000x10_S10x64_S2000x64_1_0_0_1_n_n.contr.Idx) : (dot_S2000x10_S10x64_S2000x64_1_0_0_1_n_n.lhsIdx i q 1).val = (q ⟨0, by decide⟩).val :=
  dot_S2000x10_S10x64_S2000x64_1_0_0_1_n_n.lhsIdx_val_of_single rfl i q
theorem d2_r0 (i : S2000x64.Idx) (q : dot_S2000x10_S10x64_S2000x64_1_0_0_1_n_n.contr.Idx) : (dot_S2000x10_S10x64_S2000x64_1_0_0_1_n_n.rhsIdx i q 0).val = (q ⟨0, by decide⟩).val :=
  dot_S2000x10_S10x64_S2000x64_1_0_0_1_n_n.rhsIdx_val_of_single rfl i q
theorem d2_r1 (i : S2000x64.Idx) (q : dot_S2000x10_S10x64_S2000x64_1_0_0_1_n_n.contr.Idx) : (dot_S2000x10_S10x64_S2000x64_1_0_0_1_n_n.rhsIdx i q 1).val = (i 1).val := by
  unfold DotDims.rhsIdx
  rw [dif_neg (show ¬(1 : Fin S10x64.rank) ∈ dot_S2000x10_S10x64_S2000x64_1_0_0_1_n_n.rhsBatch by decide), dif_pos (show (1 : Fin S10x64.rank) ∈ dot_S2000x10_S10x64_S2000x64_1_0_0_1_n_n.rhsNonContracting by decide)]
  rfl

/-! ## The body's stored value at an entry -/

/-- The stored block at entry j is the message of the loaded blocks at j. -/
theorem pay (x0 : Vec Ideal S2000x32 .f32) (x3 : Vec Ideal S32x64 .f32) (x5 : Vec Ideal S2000x10 .f32)
    (x7 : Vec Ideal S10x64 .f32) (j : S2000x64.Idx) :
    k3_pay1 x0 x3 x5 x7 j = edgeMsg (n := 2000) (k := 32) (e := 10) (c := 64) x0 x5 x3 x7 j := by
  unfold k3_pay1
  exact edgeMsg_of_matmuls dot_S2000x32_S32x64_S2000x64_1_0_0_1_n_n rfl rfl d1_l0 d1_l1 d1_r0 d1_r1 dot_S2000x10_S10x64_S2000x64_1_0_0_1_n_n rfl rfl d2_l0 d2_l1 d2_r0 d2_r1
    shapeCasts_S2000x32_S2000x32 bitsLt_bf16_f32 x0 x5 x3 x7 j

/-! ## Where each window's block sits -/

/-- The row windows and the result window move down 2000 rows per point; the weight windows stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The block of the first weight array is the whole array, at every point. -/
theorem wn_blk (c : Dev nD) (t : Fin cfg3.N) :
    (iblk3 V c 2 t : S32x64.Idx → EReal) = (V c main_arg15 : S32x64.Idx → EReal) := by
  obtain ⟨-, -, -, -, e0, e1, -, -, -, -⟩ := idx_facts t
  funext y
  show (V c main_arg15 : S32x64.Idx → EReal) (((cfg3.win 2).blk t).view.emb y) = (V c main_arg15 : S32x64.Idx → EReal) y
  refine congrArg _ (funext fun a => Fin.ext ?_)
  match a with
  | ⟨0, _⟩ => show win3_2.index t (0 : Fin 2) * 32 + 1 * (y 0).val = (y 0).val; omega
  | ⟨1, _⟩ => show win3_2.index t (1 : Fin 2) * 64 + 1 * (y 1).val = (y 1).val; omega

/-- The block of the second weight array is the whole array, at every point. -/
theorem we_blk (c : Dev nD) (t : Fin cfg3.N) :
    (iblk3 V c 3 t : S10x64.Idx → EReal) = (V c main_arg16 : S10x64.Idx → EReal) := by
  obtain ⟨-, -, -, -, -, -, e0, e1, -, -⟩ := idx_facts t
  funext y
  show (V c main_arg16 : S10x64.Idx → EReal) (((cfg3.win 3).blk t).view.emb y) = (V c main_arg16 : S10x64.Idx → EReal) y
  refine congrArg _ (funext fun a => Fin.ext ?_)
  match a with
  | ⟨0, _⟩ => show win3_3.index t (0 : Fin 2) * 10 + 1 * (y 0).val = (y 0).val; omega
  | ⟨1, _⟩ => show win3_3.index t (1 : Fin 2) * 64 + 1 * (y 1).val = (y 1).val; omega

/-- The whole-array message of the arrays the region is entered with. -/
abbrev result (c : Dev nD) : S320000x64.Idx → EReal :=
  edgeMsg (n := 320000) (k := 32) (e := 10) (c := 64) (V c main_v63) (V c main_arg2) (V c main_arg15) (V c main_arg16)

/-- What point t writes back is block t of the whole-array message. -/
theorem flushed_eq (c : Dev nD) (t : Fin cfg3.N) :
    (dat3 V c).flushed 4 t = ((cfg3.win 4).blk t).view.read (Elt Ideal) (result V c) := by
  show (cfg3.win 4).cut (grid3.coords t) ((dat3 V c).after 4 t) = _
  rw [after3_4]
  unfold out3_4
  rw [View.canon_unit_zero hz]
  simp only [View.ld_unit_zero (S := S2000x32) hz, View.ld_unit_zero (S := S32x64) hz,
    View.ld_unit_zero (S := S2000x10) hz, View.ld_unit_zero (S := S10x64) hz]
  obtain ⟨e0, e1, e2, e3, -, -, -, -, e8, e9⟩ := idx_facts t
  funext j
  show k3_pay1 (iblk3 V c 0 t) (iblk3 V c 2 t) (iblk3 V c 1 t) (iblk3 V c 3 t) j
    = result V c (((cfg3.win 4).blk t).view.emb j)
  refine (pay (iblk3 V c 0 t) (iblk3 V c 2 t) (iblk3 V c 1 t) (iblk3 V c 3 t) j).trans ?_
  have hwn := wn_blk V c t
  have hwe := we_blk V c t
  show edgeMsg (n := 2000) (k := 32) (e := 10) (c := 64) (iblk3 V c 0 t) (iblk3 V c 1 t)
    (iblk3 V c 2 t : S32x64.Idx → EReal) (iblk3 V c 3 t : S10x64.Idx → EReal) j = _
  rw [hwn, hwe]
  refine (edgeMsg_rows (N := 320000) (n := 2000) (k := 32) (e := 10) (c := 64) (V c main_v63) (V c main_arg2)
    (iblk3 V c 0 t) (iblk3 V c 1 t) (V c main_arg15) (V c main_arg16) (((cfg3.win 4).blk t).view.emb j) j ?_ ?_ ?_).symm
  · show win3_4.index t (1 : Fin 2) * 64 + 1 * (j 1).val = (j 1).val
    omega
  · intro q
    show (V c main_v63 : S320000x32.Idx → EReal) _ = (V c main_v63 : S320000x32.Idx → EReal) (((cfg3.win 0).blk t).view.emb (ix2 (rowOf j) q))
    refine congrArg _ (funext fun a => Fin.ext ?_)
    match a with
    | ⟨0, _⟩ =>
      show win3_4.index t (0 : Fin 2) * 2000 + 1 * (j 0).val = win3_0.index t (0 : Fin 2) * 2000 + 1 * (j 0).val
      omega
    | ⟨1, _⟩ =>
      show q.val = win3_0.index t (1 : Fin 2) * 32 + 1 * q.val
      omega
  · intro q
    show (V c main_arg2 : S320000x10.Idx → EReal) _ = (V c main_arg2 : S320000x10.Idx → EReal) (((cfg3.win 1).blk t).view.emb (ix2 (rowOf j) q))
    refine congrArg _ (funext fun a => Fin.ext ?_)
    match a with
    | ⟨0, _⟩ =>
      show win3_4.index t (0 : Fin 2) * 2000 + 1 * (j 0).val = win3_1.index t (0 : Fin 2) * 2000 + 1 * (j 0).val
      omega
    | ⟨1, _⟩ =>
      show q.val = win3_1.index t (1 : Fin 2) * 10 + 1 * q.val
      omega

/-! ## The blocks tile the result -/

/-- An index of the result is in point t's block iff each coordinate is in the block's range on its axis. -/
theorem mem_blk (t : Fin cfg3.N) (i : S320000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v64).slice (win3_4.rect t)).set ↔ _
  rw [View.set_slice_whole, Rect.mem_set_unit]
  exact Iff.rfl

/-- Row r of the result lies in the block of point r / 2000. -/
theorem cover (i : S320000x64.Idx) :
    ∃ t : Fin cfg3.N, (cfg3.win 4).flush t = true ∧ i ∈ ((cfg3.win 4).blk t).view.set := by
  have hN : cfg3.N = 160 := N_3
  have hi0 : (i 0).val < 320000 := (i 0).isLt
  have hi1 : (i 1).val < 64 := (i 1).isLt
  have ht : (i 0).val / 2000 < cfg3.N := by rw [hN]; omega
  refine ⟨⟨(i 0).val / 2000, ht⟩, flush3_4 _, ?_⟩
  rw [mem_blk]
  obtain ⟨-, -, -, -, -, -, -, -, e8, e9⟩ := idx_facts ⟨(i 0).val / 2000, ht⟩
  have e8' : win3_4.index ⟨(i 0).val / 2000, ht⟩ (0 : Fin 2) = (i 0).val / 2000 := e8
  intro a
  match a with
  | ⟨0, _⟩ =>
    show win3_4.index ⟨(i 0).val / 2000, ht⟩ (0 : Fin 2) * 2000 ≤ (i 0).val ∧ (i 0).val < win3_4.index ⟨(i 0).val / 2000, ht⟩ (0 : Fin 2) * 2000 + 2000
    omega
  | ⟨1, _⟩ =>
    show win3_4.index ⟨(i 0).val / 2000, ht⟩ (1 : Fin 2) * 64 ≤ (i 1).val ∧ (i 1).val < win3_4.index ⟨(i 0).val / 2000, ht⟩ (1 : Fin 2) * 64 + 64
    omega

/-- The result array after the region is the message of the arrays the region is entered with. -/
theorem final (c : Dev nD) : (dat3 V c).arrAt 4 cfg3.N = result V c :=
  (dat3 V c).arrAt_eq_of_cover 4 (result V c) (fun t _ => flushed_eq V c t) cover

end Cert.KernelIdeal.Region3

end
-- ==== Proof.Region4.lean ====
/-
  The fifth message kernel's output array, as one function of the arrays it is entered with.

  The grid has 160 points; point t holds rows 2000·t … 2000·t + 1999 of the gathered rows [320000, 64] and of the
  edge attributes [320000, 10], the whole of both weight arrays, and writes rows 2000·t … 2000·t + 1999 of the
  result [320000, 128].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem d1_l1 (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem d1_r0 (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem d1_r1 (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

theorem d2_l0 (i : S2000x128.Idx) (q : dot_S2000x10_S10x128_S2000x128_1_0_0_1_n_n.contr.Idx) : (dot_S2000x10_S10x128_S2000x128_1_0_0_1_n_n.lhsIdx i q 0).val = (i 0).val := by
  unfold DotDims.lhsIdx
  rw [dif_neg (show ¬(0 : Fin S2000x10.rank) ∈ dot_S2000x10_S10x128_S2000x128_1_0_0_1_n_n.lhsBatch by decide), dif_pos (show (0 : Fin S2000x10.rank) ∈ dot_S2000x10_S10x128_S2000x128_1_0_0_1_n_n.lhsNonContracting by decide)]
  rfl
theorem d2_l1 (i : S2000x128.Idx) (q : dot_S2000x10_S10x128_S2000x128_1_0_0_1_n_n.contr.Idx) : (dot_S2000x10_S10x128_S2000x128_1_0_0_1_n_n.lhsIdx i q 1).val = (q ⟨0, by decide⟩).val :=
  dot_S2000x10_S10x128_S2000x128_1_0_0_1_n_n.lhsIdx_val_of_single rfl i q
theorem d2_r0 (i : S2000x128.Idx) (q : dot_S2000x10_S10x128_S2000x128_1_0_0_1_n_n.contr.Idx) : (dot_S2000x10_S10x128_S2000x128_1_0_0_1_n_n.rhsIdx i q 0).val = (q ⟨0, by decide⟩).val :=
  dot_S2000x10_S10x128_S2000x128_1_0_0_1_n_n.rhsIdx_val_of_single rfl i q
theorem d2_r1 (i : S2000x128.Idx) (q : dot_S2000x10_S10x128_S2000x128_1_0_0_1_n_n.contr.Idx) : (dot_S2000x10_S10x128_S2000x128_1_0_0_1_n_n.rhsIdx i q 1).val = (i 1).val := by
  unfold DotDims.rhsIdx
  rw [dif_neg (show ¬(1 : Fin S10x128.rank) ∈ dot_S2000x10_S10x128_S2000x128_1_0_0_1_n_n.rhsBatch by decide), dif_pos (show (1 : Fin S10x128.rank) ∈ dot_S2000x10_S10x128_S2000x128_1_0_0_1_n_n.rhsNonContracting by decide)]
  rfl

/-! ## The body's stored value at an entry -/

/-- The stored block at entry j is the message of the loaded blocks at j. -/
theorem pay (x0 : Vec Ideal S2000x64 .f32) (x3 : Vec Ideal S64x128 .f32) (x5 : Vec Ideal S2000x10 .f32)
    (x7 : Vec Ideal S10x128 .f32) (j : S2000x128.Idx) :
    k4_pay1 x0 x3 x5 x7 j = edgeMsg (n := 2000) (k := 64) (e := 10) (c := 128) x0 x5 x3 x7 j := by
  unfold k4_pay1
  exact edgeMsg_of_matmuls dot_S2000x64_S64x128_S2000x128_1_0_0_1_n_n rfl rfl d1_l0 d1_l1 d1_r0 d1_r1 dot_S2000x10_S10x128_S2000x128_1_0_0_1_n_n rfl rfl d2_l0 d2_l1 d2_r0 d2_r1
    shapeCasts_S2000x64_S2000x64 bitsLt_bf16_f32 x0 x5 x3 x7 j

/-! ## Where each window's block sits -/

/-- The row windows and the result window move down 2000 rows per point; the weight windows stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The block of the first weight array is the whole array, at every point. -/
theorem wn_blk (c : Dev nD) (t : Fin cfg4.N) :
    (iblk4 V c 2 t : S64x128.Idx → EReal) = (V c main_arg18 : S64x128.Idx → EReal) := by
  obtain ⟨-, -, -, -, e0, e1, -, -, -, -⟩ := idx_facts t
  funext y
  show (V c main_arg18 : S64x128.Idx → EReal) (((cfg4.win 2).blk t).view.emb y) = (V c main_arg18 : S64x128.Idx → EReal) y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 128 + 1 * (y 1).val = (y 1).val; omega

/-- The block of the second weight array is the whole array, at every point. -/
theorem we_blk (c : Dev nD) (t : Fin cfg4.N) :
    (iblk4 V c 3 t : S10x128.Idx → EReal) = (V c main_arg19 : S10x128.Idx → EReal) := by
  obtain ⟨-, -, -, -, -, -, e0, e1, -, -⟩ := idx_facts t
  funext y
  show (V c main_arg19 : S10x128.Idx → EReal) (((cfg4.win 3).blk t).view.emb y) = (V c main_arg19 : S10x128.Idx → EReal) y
  refine congrArg _ (funext fun a => Fin.ext ?_)
  match a with
  | ⟨0, _⟩ => show win4_3.index t (0 : Fin 2) * 10 + 1 * (y 0).val = (y 0).val; omega
  | ⟨1, _⟩ => show win4_3.index t (1 : Fin 2) * 128 + 1 * (y 1).val = (y 1).val; omega

/-- The whole-array message of the arrays the region is entered with. -/
abbrev result (c : Dev nD) : S320000x128.Idx → EReal :=
  edgeMsg (n := 320000) (k := 64) (e := 10) (c := 128) (V c main_v78) (V c main_arg2) (V c main_arg18) (V c main_arg19)

/-- What point t writes back is block t of the whole-array message. -/
theorem flushed_eq (c : Dev nD) (t : Fin cfg4.N) :
    (dat4 V c).flushed 4 t = ((cfg4.win 4).blk t).view.read (Elt Ideal) (result V c) := by
  show (cfg4.win 4).cut (grid4.coords t) ((dat4 V c).after 4 t) = _
  rw [after4_4]
  unfold out4_4
  rw [View.canon_unit_zero hz]
  simp only [View.ld_unit_zero (S := S2000x64) hz, View.ld_unit_zero (S := S64x128) hz,
    View.ld_unit_zero (S := S2000x10) hz, View.ld_unit_zero (S := S10x128) hz]
  obtain ⟨e0, e1, e2, e3, -, -, -, -, e8, e9⟩ := idx_facts t
  funext j
  show k4_pay1 (iblk4 V c 0 t) (iblk4 V c 2 t) (iblk4 V c 1 t) (iblk4 V c 3 t) j
    = result V c (((cfg4.win 4).blk t).view.emb j)
  refine (pay (iblk4 V c 0 t) (iblk4 V c 2 t) (iblk4 V c 1 t) (iblk4 V c 3 t) j).trans ?_
  have hwn := wn_blk V c t
  have hwe := we_blk V c t
  show edgeMsg (n := 2000) (k := 64) (e := 10) (c := 128) (iblk4 V c 0 t) (iblk4 V c 1 t)
    (iblk4 V c 2 t : S64x128.Idx → EReal) (iblk4 V c 3 t : S10x128.Idx → EReal) j = _
  rw [hwn, hwe]
  refine (edgeMsg_rows (N := 320000) (n := 2000) (k := 64) (e := 10) (c := 128) (V c main_v78) (V c main_arg2)
    (iblk4 V c 0 t) (iblk4 V c 1 t) (V c main_arg18) (V c main_arg19) (((cfg4.win 4).blk t).view.emb j) j ?_ ?_ ?_).symm
  · show win4_4.index t (1 : Fin 2) * 128 + 1 * (j 1).val = (j 1).val
    omega
  · intro q
    show (V c main_v78 : S320000x64.Idx → EReal) _ = (V c main_v78 : S320000x64.Idx → EReal) (((cfg4.win 0).blk t).view.emb (ix2 (rowOf j) q))
    refine congrArg _ (funext fun a => Fin.ext ?_)
    match a with
    | ⟨0, _⟩ =>
      show win4_4.index t (0 : Fin 2) * 2000 + 1 * (j 0).val = win4_0.index t (0 : Fin 2) * 2000 + 1 * (j 0).val
      omega
    | ⟨1, _⟩ =>
      show q.val = win4_0.index t (1 : Fin 2) * 64 + 1 * q.val
      omega
  · intro q
    show (V c main_arg2 : S320000x10.Idx → EReal) _ = (V c main_arg2 : S320000x10.Idx → EReal) (((cfg4.win 1).blk t).view.emb (ix2 (rowOf j) q))
    refine congrArg _ (funext fun a => Fin.ext ?_)
    match a with
    | ⟨0, _⟩ =>
      show win4_4.index t (0 : Fin 2) * 2000 + 1 * (j 0).val = win4_1.index t (0 : Fin 2) * 2000 + 1 * (j 0).val
      omega
    | ⟨1, _⟩ =>
      show q.val = win4_1.index t (1 : Fin 2) * 10 + 1 * q.val
      omega

/-! ## The blocks tile the result -/

/-- An index of the result is in point t's block iff each coordinate is in the block's range on its axis. -/
theorem mem_blk (t : Fin cfg4.N) (i : S320000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v79).slice (win4_4.rect t)).set ↔ _
  rw [View.set_slice_whole, Rect.mem_set_unit]
  exact Iff.rfl

/-- Row r of the result lies in the block of point r / 2000. -/
theorem cover (i : S320000x128.Idx) :
    ∃ t : Fin cfg4.N, (cfg4.win 4).flush t = true ∧ i ∈ ((cfg4.win 4).blk t).view.set := by
  have hN : cfg4.N = 160 := N_4
  have hi0 : (i 0).val < 320000 := (i 0).isLt
  have hi1 : (i 1).val < 128 := (i 1).isLt
  have ht : (i 0).val / 2000 < cfg4.N := by rw [hN]; omega
  refine ⟨⟨(i 0).val / 2000, ht⟩, flush4_4 _, ?_⟩
  rw [mem_blk]
  obtain ⟨-, -, -, -, -, -, -, -, e8, e9⟩ := idx_facts ⟨(i 0).val / 2000, ht⟩
  have e8' : win4_4.index ⟨(i 0).val / 2000, ht⟩ (0 : Fin 2) = (i 0).val / 2000 := e8
  intro a
  match a with
  | ⟨0, _⟩ =>
    show win4_4.index ⟨(i 0).val / 2000, ht⟩ (0 : Fin 2) * 2000 ≤ (i 0).val ∧ (i 0).val < win4_4.index ⟨(i 0).val / 2000, ht⟩ (0 : Fin 2) * 2000 + 2000
    omega
  | ⟨1, _⟩ =>
    show win4_4.index ⟨(i 0).val / 2000, ht⟩ (1 : Fin 2) * 128 ≤ (i 1).val ∧ (i 1).val < win4_4.index ⟨(i 0).val / 2000, ht⟩ (1 : Fin 2) * 128 + 128
    omega

/-- The result array after the region is the message of the arrays the region is entered with. -/
theorem final (c : Dev nD) : (dat4 V c).arrAt 4 cfg4.N = result V c :=
  (dat4 V c).arrAt_eq_of_cover 4 (result V c) (fun t _ => flushed_eq V c t) cover

end Cert.KernelIdeal.Region4

end
-- ==== Proof.Region5.lean ====
/-
  The sixth message kernel's output array, as one function of the arrays it is entered with.

  The grid has 160 points; point t holds rows 2000·t … 2000·t + 1999 of the gathered rows [320000, 128] and of the
  edge attributes [320000, 10], the whole of both weight arrays, and writes rows 2000·t … 2000·t + 1999 of the
  result [320000, 256].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem d1_l1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem d1_r0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem d1_r1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem d2_l0 (i : S2000x256.Idx) (q : dot_S2000x10_S10x256_S2000x256_1_0_0_1_n_n.contr.Idx) : (dot_S2000x10_S10x256_S2000x256_1_0_0_1_n_n.lhsIdx i q 0).val = (i 0).val := by
  unfold DotDims.lhsIdx
  rw [dif_neg (show ¬(0 : Fin S2000x10.rank) ∈ dot_S2000x10_S10x256_S2000x256_1_0_0_1_n_n.lhsBatch by decide), dif_pos (show (0 : Fin S2000x10.rank) ∈ dot_S2000x10_S10x256_S2000x256_1_0_0_1_n_n.lhsNonContracting by decide)]
  rfl
theorem d2_l1 (i : S2000x256.Idx) (q : dot_S2000x10_S10x256_S2000x256_1_0_0_1_n_n.contr.Idx) : (dot_S2000x10_S10x256_S2000x256_1_0_0_1_n_n.lhsIdx i q 1).val = (q ⟨0, by decide⟩).val :=
  dot_S2000x10_S10x256_S2000x256_1_0_0_1_n_n.lhsIdx_val_of_single rfl i q
theorem d2_r0 (i : S2000x256.Idx) (q : dot_S2000x10_S10x256_S2000x256_1_0_0_1_n_n.contr.Idx) : (dot_S2000x10_S10x256_S2000x256_1_0_0_1_n_n.rhsIdx i q 0).val = (q ⟨0, by decide⟩).val :=
  dot_S2000x10_S10x256_S2000x256_1_0_0_1_n_n.rhsIdx_val_of_single rfl i q
theorem d2_r1 (i : S2000x256.Idx) (q : dot_S2000x10_S10x256_S2000x256_1_0_0_1_n_n.contr.Idx) : (dot_S2000x10_S10x256_S2000x256_1_0_0_1_n_n.rhsIdx i q 1).val = (i 1).val := by
  unfold DotDims.rhsIdx
  rw [dif_neg (show ¬(1 : Fin S10x256.rank) ∈ dot_S2000x10_S10x256_S2000x256_1_0_0_1_n_n.rhsBatch by decide), dif_pos (show (1 : Fin S10x256.rank) ∈ dot_S2000x10_S10x256_S2000x256_1_0_0_1_n_n.rhsNonContracting by decide)]
  rfl

/-! ## The body's stored value at an entry -/

/-- The stored block at entry j is the message of the loaded blocks at j. -/
theorem pay (x0 : Vec Ideal S2000x128 .f32) (x3 : Vec Ideal S128x256 .f32) (x5 : Vec Ideal S2000x10 .f32)
    (x7 : Vec Ideal S10x256 .f32) (j : S2000x256.Idx) :
    k5_pay1 x0 x3 x5 x7 j = edgeMsg (n := 2000) (k := 128) (e := 10) (c := 256) x0 x5 x3 x7 j := by
  unfold k5_pay1
  exact edgeMsg_of_matmuls dot_S2000x128_S128x256_S2000x256_1_0_0_1_n_n rfl rfl d1_l0 d1_l1 d1_r0 d1_r1 dot_S2000x10_S10x256_S2000x256_1_0_0_1_n_n rfl rfl d2_l0 d2_l1 d2_r0 d2_r1
    shapeCasts_S2000x128_S2000x128 bitsLt_bf16_f32 x0 x5 x3 x7 j

/-! ## Where each window's block sits -/

/-- The row windows and the result window move down 2000 rows per point; the weight windows stay. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The block of the first weight array is the whole array, at every point. -/
theorem wn_blk (c : Dev nD) (t : Fin cfg5.N) :
    (iblk5 V c 2 t : S128x256.Idx → EReal) = (V c main_arg21 : S128x256.Idx → EReal) := by
  obtain ⟨-, -, -, -, e0, e1, -, -, -, -⟩ := idx_facts t
  funext y
  show (V c main_arg21 : S128x256.Idx → EReal) (((cfg5.win 2).blk t).view.emb y) = (V c main_arg21 : S128x256.Idx → EReal) y
  refine congrArg _ (funext fun a => Fin.ext ?_)
  match a with
  | ⟨0, _⟩ => show win5_2.index t (0 : Fin 2) * 128 + 1 * (y 0).val = (y 0).val; omega
  | ⟨1, _⟩ => show win5_2.index t (1 : Fin 2) * 256 + 1 * (y 1).val = (y 1).val; omega

/-- The block of the second weight array is the whole array, at every point. -/
theorem we_blk (c : Dev nD) (t : Fin cfg5.N) :
    (iblk5 V c 3 t : S10x256.Idx → EReal) = (V c main_arg22 : S10x256.Idx → EReal) := by
  obtain ⟨-, -, -, -, -, -, e0, e1, -, -⟩ := idx_facts t
  funext y
  show (V c main_arg22 : S10x256.Idx → EReal) (((cfg5.win 3).blk t).view.emb y) = (V c main_arg22 : S10x256.Idx → EReal) y
  refine congrArg _ (funext fun a => Fin.ext ?_)
  match a with
  | ⟨0, _⟩ => show win5_3.index t (0 : Fin 2) * 10 + 1 * (y 0).val = (y 0).val; omega
  | ⟨1, _⟩ => show win5_3.index t (1 : Fin 2) * 256 + 1 * (y 1).val = (y 1).val; omega

/-- The whole-array message of the arrays the region is entered with. -/
abbrev result (c : Dev nD) : S320000x256.Idx → EReal :=
  edgeMsg (n := 320000) (k := 128) (e := 10) (c := 256) (V c main_v93) (V c main_arg2) (V c main_arg21) (V c main_arg22)

/-- What point t writes back is block t of the whole-array message. -/
theorem flushed_eq (c : Dev nD) (t : Fin cfg5.N) :
    (dat5 V c).flushed 4 t = ((cfg5.win 4).blk t).view.read (Elt Ideal) (result V c) := by
  show (cfg5.win 4).cut (grid5.coords t) ((dat5 V c).after 4 t) = _
  rw [after5_4]
  unfold out5_4
  rw [View.canon_unit_zero hz]
  simp only [View.ld_unit_zero (S := S2000x128) hz, View.ld_unit_zero (S := S128x256) hz,
    View.ld_unit_zero (S := S2000x10) hz, View.ld_unit_zero (S := S10x256) hz]
  obtain ⟨e0, e1, e2, e3, -, -, -, -, e8, e9⟩ := idx_facts t
  funext j
  show k5_pay1 (iblk5 V c 0 t) (iblk5 V c 2 t) (iblk5 V c 1 t) (iblk5 V c 3 t) j
    = result V c (((cfg5.win 4).blk t).view.emb j)
  refine (pay (iblk5 V c 0 t) (iblk5 V c 2 t) (iblk5 V c 1 t) (iblk5 V c 3 t) j).trans ?_
  have hwn := wn_blk V c t
  have hwe := we_blk V c t
  show edgeMsg (n := 2000) (k := 128) (e := 10) (c := 256) (iblk5 V c 0 t) (iblk5 V c 1 t)
    (iblk5 V c 2 t : S128x256.Idx → EReal) (iblk5 V c 3 t : S10x256.Idx → EReal) j = _
  rw [hwn, hwe]
  refine (edgeMsg_rows (N := 320000) (n := 2000) (k := 128) (e := 10) (c := 256) (V c main_v93) (V c main_arg2)
    (iblk5 V c 0 t) (iblk5 V c 1 t) (V c main_arg21) (V c main_arg22) (((cfg5.win 4).blk t).view.emb j) j ?_ ?_ ?_).symm
  · show win5_4.index t (1 : Fin 2) * 256 + 1 * (j 1).val = (j 1).val
    omega
  · intro q
    show (V c main_v93 : S320000x128.Idx → EReal) _ = (V c main_v93 : S320000x128.Idx → EReal) (((cfg5.win 0).blk t).view.emb (ix2 (rowOf j) q))
    refine congrArg _ (funext fun a => Fin.ext ?_)
    match a with
    | ⟨0, _⟩ =>
      show win5_4.index t (0 : Fin 2) * 2000 + 1 * (j 0).val = win5_0.index t (0 : Fin 2) * 2000 + 1 * (j 0).val
      omega
    | ⟨1, _⟩ =>
      show q.val = win5_0.index t (1 : Fin 2) * 128 + 1 * q.val
      omega
  · intro q
    show (V c main_arg2 : S320000x10.Idx → EReal) _ = (V c main_arg2 : S320000x10.Idx → EReal) (((cfg5.win 1).blk t).view.emb (ix2 (rowOf j) q))
    refine congrArg _ (funext fun a => Fin.ext ?_)
    match a with
    | ⟨0, _⟩ =>
      show win5_4.index t (0 : Fin 2) * 2000 + 1 * (j 0).val = win5_1.index t (0 : Fin 2) * 2000 + 1 * (j 0).val
      omega
    | ⟨1, _⟩ =>
      show q.val = win5_1.index t (1 : Fin 2) * 10 + 1 * q.val
      omega

/-! ## The blocks tile the result -/

/-- An index of the result is in point t's block iff each coordinate is in the block's range on its axis. -/
theorem mem_blk (t : Fin cfg5.N) (i : S320000x256.Idx) :
    i ∈ ((cfg5.win 4).blk t).view.set ↔ ∀ a : Fin 2, win5_4.index t a * S2000x256.size a ≤ (i a).val ∧ (i a).val < win5_4.index t a * S2000x256.size a + S2000x256.size a := by
  show i ∈ ((View.whole main_v94).slice (win5_4.rect t)).set ↔ _
  rw [View.set_slice_whole, Rect.mem_set_unit]
  exact Iff.rfl

/-- Row r of the result lies in the block of point r / 2000. -/
theorem cover (i : S320000x256.Idx) :
    ∃ t : Fin cfg5.N, (cfg5.win 4).flush t = true ∧ i ∈ ((cfg5.win 4).blk t).view.set := by
  have hN : cfg5.N = 160 := N_5
  have hi0 : (i 0).val < 320000 := (i 0).isLt
  have hi1 : (i 1).val < 256 := (i 1).isLt
  have ht : (i 0).val / 2000 < cfg5.N := by rw [hN]; omega
  refine ⟨⟨(i 0).val / 2000, ht⟩, flush5_4 _, ?_⟩
  rw [mem_blk]
  obtain ⟨-, -, -, -, -, -, -, -, e8, e9⟩ := idx_facts ⟨(i 0).val / 2000, ht⟩
  have e8' : win5_4.index ⟨(i 0).val / 2000, ht⟩ (0 : Fin 2) = (i 0).val / 2000 := e8
  intro a
  match a with
  | ⟨0, _⟩ =>
    show win5_4.index ⟨(i 0).val / 2000, ht⟩ (0 : Fin 2) * 2000 ≤ (i 0).val ∧ (i 0).val < win5_4.index ⟨(i 0).val / 2000, ht⟩ (0 : Fin 2) * 2000 + 2000
    omega
  | ⟨1, _⟩ =>
    show win5_4.index ⟨(i 0).val / 2000, ht⟩ (1 : Fin 2) * 256 ≤ (i 1).val ∧ (i 1).val < win5_4.index ⟨(i 0).val / 2000, ht⟩ (1 : Fin 2) * 256 + 256
    omega

/-- The result array after the region is the message of the arrays the region is entered with. -/
theorem final (c : Dev nD) : (dat5 V c).arrAt 4 cfg5.N = result V c :=
  (dat5 V c).arrAt_eq_of_cover 4 (result V c) (fun t _ => flushed_eq V c t) cover

end Cert.KernelIdeal.Region5

end
-- ==== Proof.Region6.lean ====
/-
  The seventh message kernel's output array, as one function of the arrays it is entered with.

  The grid has 160 points; point t holds rows 2000·t … 2000·t + 1999 of the gathered rows [320000, 256] and of the
  edge attributes [320000, 10], the whole of both weight arrays, and writes rows 2000·t … 2000·t + 1999 of the
  result [320000, 256].  The body's stored value at an entry is the clipped sum of the two row-column products of
  its blocks; a row of that depends on the same row of the row operands only, so the block written at point t is
  block t of the message of the whole arrays, and the 160 blocks tile the result.
-/
import proofs.«114688_j53257594471014_1_alg».proof.Proof.Gen.KernelIdeal.Frame
import proofs.«114688_j53257594471014_1_alg».proof.Proof.LibEdgeMsg
import Idealize.ShloMosaic.Lib.Pipeline.Value
import Idealize.ShloMosaic.Lib.ValueIdx
import Idealize.ShloMosaic.PureOps.Ideal.Laws

set_option maxRecDepth 16384

noncomputable section

namespace Cert.KernelIdeal.Region6

open Cert.KernelIdeal Cert.KernelIdeal.Gen Idealize.ShloMosaic Idealize.ShloMosaic.TcCoe Idealize.ShloMosaic.ValueIdx
open Idealize.SL.Sem
open Idealize.ShloMosaic.Pipeline (Dat)
open Cert.Sage Cert.EdgeConv

variable (V : (c : Dev nD) → (b : Ref sig .tc) → Buf (Elt Ideal) ((c : Thread nD τ).loc b))

theorem hz : (![0, 0] : Fin 2 → Nat) = fun _ => 0 := funext fun a => by fin_cases a <;> rfl

/-! ## The two products' dimension numbers, coordinate by coordinate -/

theorem d1_l0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem d1_l1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem d1_r0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem d1_r1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

theorem d2_l0 (i : S2000x256.Idx) (q : dot_S2000x10_S10x256_S2000x256_1_0_0_1_n_n.contr.Idx) : (dot_S2000x10_S10x256_S2000x256_1_0_0_1_n_n.lhsIdx i q 0).val = (i 0).val := by
  unfold DotDims.lhsIdx
  rw [dif_neg (show ¬(0 : Fin S2000x10.rank) ∈ dot_S2000x10_S10x256_S2000x256_1_0_0_1_n_n.lhsBatch by decide), dif_pos (show (0 : Fin S2000x10.rank) ∈ dot_S2000x10_S10x256_S2000x256_1_0_0_1_n_n.lhsNonContracting by decide)]
  rfl
theorem d2_l1 (i : S2000x256.Idx) (q : dot_S2000x10_S10x256_S2000x256_1_0_0_1_n_n.contr.Idx) : (dot_S2000x10_S10x256_S2000x256_1_0_0_1_n_n.lhsIdx i q 1).val = (q ⟨0, by decide⟩).val :=
  dot_S2000x10_S10x256_S2000x256_1_0_0_1_n_n.lhsIdx_val_of_single rfl i q
theorem d2_r0 (i : S2000x256.Idx) (q : dot_S2000x10_S10x256_S2000x256_1_0_0_1_n_n.contr.Idx) : (dot_S2000x10_S10x256_S2000x256_1_0_0_1_n_n.rhsIdx i q 0).val = (q ⟨0, by decide⟩).val :=
  dot_S2000x10_S10x256_S2000x256_1_0_0_1_n_n.rhsIdx_val_of_single rfl i q
theorem d2_r1 (i : S2000x256.Idx) (q : dot_S2000x10_S10x256_S2000x256_1_0_0_1_n_n.contr.Idx) : (dot_S2000x10_S10x256_S2000x256_1_0_0_1_n_n.rhsIdx i q 1).val = (i 1).val := by
  unfold DotDims.rhsIdx
  rw [dif_neg (show ¬(1 : Fin S10x256.rank) ∈ dot_S2000x10_S10x256_S2000x256_1_0_0_1_n_n.rhsBatch by decide), dif_pos (show (1 : Fin S10x256.rank) ∈ dot_S2000x10_S10x256_S2000x256_1_0_0_1_n_n.rhsNonContracting by decide)]
  rfl

/-! ## The body's stored value at an entry -/

/-- The stored block at entry j is the message of the loaded blocks at j. -/
theorem pay (x0 : Vec Ideal S2000x256 .f32) (x3 : Vec Ideal S256x256 .f32) (x5 : Vec Ideal S2000x10 .f32)
    (x7 : Vec Ideal S10x256 .f32) (j : S2000x256.Idx) :
    k6_pay1 x0 x3 x5 x7 j = edgeMsg (n := 2000) (k := 256) (e := 10) (c := 256) x0 x5 x3 x7 j := by
  unfold k6_pay1
  exact edgeMsg_of_matmuls dot_S2000x256_S256x256_S2000x256_1_0_0_1_n_n rfl rfl d1_l0 d1_l1 d1_r0 d1_r1 dot_S2000x10_S10x256_S2000x256_1_0_0_1_n_n rfl rfl d2_l0 d2_l1 d2_r0 d2_r1
    shapeCasts_S2000x256_S2000x256 bitsLt_bf16_f32 x0 x5 x3 x7 j

/-! ## Where each window's block sits -/

/-- The row windows and the result window move down 2000 rows per point; the weight windows stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The block of the first weight array is the whole array, at every point. -/
theorem wn_blk (c : Dev nD) (t : Fin cfg6.N) :
    (iblk6 V c 2 t : S256x256.Idx → EReal) = (V c main_arg9 : S256x256.Idx → EReal) := by
  obtain ⟨-, -, -, -, e0, e1, -, -, -, -⟩ := idx_facts t
  funext y
  show (V c main_arg9 : S256x256.Idx → EReal) (((cfg6.win 2).blk t).view.emb y) = (V c main_arg9 : S256x256.Idx → EReal) y
  refine congrArg _ (funext fun a => Fin.ext ?_)
  match a with
  | ⟨0, _⟩ => show win6_2.index t (0 : Fin 2) * 256 + 1 * (y 0).val = (y 0).val; omega
  | ⟨1, _⟩ => show win6_2.index t (1 : Fin 2) * 256 + 1 * (y 1).val = (y 1).val; omega

/-- The block of the second weight array is the whole array, at every point. -/
theorem we_blk (c : Dev nD) (t : Fin cfg6.N) :
    (iblk6 V c 3 t : S10x256.Idx → EReal) = (V c main_arg10 : S10x256.Idx → EReal) := by
  obtain ⟨-, -, -, -, -, -, e0, e1, -, -⟩ := idx_facts t
  funext y
  show (V c main_arg10 : S10x256.Idx → EReal) (((cfg6.win 3).blk t).view.emb y) = (V c main_arg10 : S10x256.Idx → EReal) y
  refine congrArg _ (funext fun a => Fin.ext ?_)
  match a with
  | ⟨0, _⟩ => show win6_3.index t (0 : Fin 2) * 10 + 1 * (y 0).val = (y 0).val; omega
  | ⟨1, _⟩ => show win6_3.index t (1 : Fin 2) * 256 + 1 * (y 1).val = (y 1).val; omega

/-- The whole-array message of the arrays the region is entered with. -/
abbrev result (c : Dev nD) : S320000x256.Idx → EReal :=
  edgeMsg (n := 320000) (k := 256) (e := 10) (c := 256) (V c main_v108) (V c main_arg2) (V c main_arg9) (V c main_arg10)

/-- What point t writes back is block t of the whole-array message. -/
theorem flushed_eq (c : Dev nD) (t : Fin cfg6.N) :
    (dat6 V c).flushed 4 t = ((cfg6.win 4).blk t).view.read (Elt Ideal) (result V c) := by
  show (cfg6.win 4).cut (grid6.coords t) ((dat6 V c).after 4 t) = _
  rw [after6_4]
  unfold out6_4
  rw [View.canon_unit_zero hz]
  simp only [View.ld_unit_zero (S := S2000x256) hz, View.ld_unit_zero (S := S256x256) hz,
    View.ld_unit_zero (S := S2000x10) hz, View.ld_unit_zero (S := S10x256) hz]
  obtain ⟨e0, e1, e2, e3, -, -, -, -, e8, e9⟩ := idx_facts t
  funext j
  show k6_pay1 (iblk6 V c 0 t) (iblk6 V c 2 t) (iblk6 V c 1 t) (iblk6 V c 3 t) j
    = result V c (((cfg6.win 4).blk t).view.emb j)
  refine (pay (iblk6 V c 0 t) (iblk6 V c 2 t) (iblk6 V c 1 t) (iblk6 V c 3 t) j).trans ?_
  have hwn := wn_blk V c t
  have hwe := we_blk V c t
  show edgeMsg (n := 2000) (k := 256) (e := 10) (c := 256) (iblk6 V c 0 t) (iblk6 V c 1 t)
    (iblk6 V c 2 t : S256x256.Idx → EReal) (iblk6 V c 3 t : S10x256.Idx → EReal) j = _
  rw [hwn, hwe]
  refine (edgeMsg_rows (N := 320000) (n := 2000) (k := 256) (e := 10) (c := 256) (V c main_v108) (V c main_arg2)
    (iblk6 V c 0 t) (iblk6 V c 1 t) (V c main_arg9) (V c main_arg10) (((cfg6.win 4).blk t).view.emb j) j ?_ ?_ ?_).symm
  · show win6_4.index t (1 : Fin 2) * 256 + 1 * (j 1).val = (j 1).val
    omega
  · intro q
    show (V c main_v108 : S320000x256.Idx → EReal) _ = (V c main_v108 : S320000x256.Idx → EReal) (((cfg6.win 0).blk t).view.emb (ix2 (rowOf j) q))
    refine congrArg _ (funext fun a => Fin.ext ?_)
    match a with
    | ⟨0, _⟩ =>
      show win6_4.index t (0 : Fin 2) * 2000 + 1 * (j 0).val = win6_0.index t (0 : Fin 2) * 2000 + 1 * (j 0).val
      omega
    | ⟨1, _⟩ =>
      show q.val = win6_0.index t (1 : Fin 2) * 256 + 1 * q.val
      omega
  · intro q
    show (V c main_arg2 : S320000x10.Idx → EReal) _ = (V c main_arg2 : S320000x10.Idx → EReal) (((cfg6.win 1).blk t).view.emb (ix2 (rowOf j) q))
    refine congrArg _ (funext fun a => Fin.ext ?_)
    match a with
    | ⟨0, _⟩ =>
      show win6_4.index t (0 : Fin 2) * 2000 + 1 * (j 0).val = win6_1.index t (0 : Fin 2) * 2000 + 1 * (j 0).val
      omega
    | ⟨1, _⟩ =>
      show q.val = win6_1.index t (1 : Fin 2) * 10 + 1 * q.val
      omega

/-! ## The blocks tile the result -/

/-- An index of the result is in point t's block iff each coordinate is in the block's range on its axis. -/
theorem mem_blk (t : Fin cfg6.N) (i : S320000x256.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole main_v109).slice (win6_4.rect t)).set ↔ _
  rw [View.set_slice_whole, Rect.mem_set_unit]
  exact Iff.rfl

/-- Row r of the result lies in the block of point r / 2000. -/
theorem cover (i : S320000x256.Idx) :
    ∃ t : Fin cfg6.N, (cfg6.win 4).flush t = true ∧ i ∈ ((cfg6.win 4).blk t).view.set := by
  have hN : cfg6.N = 160 := N_6
  have hi0 : (i 0).val < 320000 := (i 0).isLt
  have hi1 : (i 1).val < 256 := (i 1).isLt
  have ht : (i 0).val / 2000 < cfg6.N := by rw [hN]; omega
  refine ⟨⟨(i 0).val / 2000, ht⟩, flush6_4 _, ?_⟩
  rw [mem_blk]
  obtain ⟨-, -, -, -, -, -, -, -, e8, e9⟩ := idx_facts ⟨(i 0).val / 2000, ht⟩
  have e8' : win6_4.index ⟨(i 0).val / 2000, ht⟩ (0 : Fin 2) = (i 0).val / 2000 := e8
  intro a
  match a with
  | ⟨0, _⟩ =>
    show win6_4.index ⟨(i 0).val / 2000, ht⟩ (0 : Fin 2) * 2000 ≤ (i 0).val ∧ (i 0).val < win6_4.index ⟨(i 0).val / 2000, ht⟩ (0 : Fin 2) * 2000 + 2000
    omega
  | ⟨1, _⟩ =>
    show win6_4.index ⟨(i 0).val / 2000, ht⟩ (1 : Fin 2) * 256 ≤ (i 1).val ∧ (i 1).val < win6_4.index ⟨(i 0).val / 2000, ht⟩ (1 : Fin 2) * 256 + 256
    omega

/-- The result array after the region is the message of the arrays the region is entered with. -/
theorem final (c : Dev nD) : (dat6 V c).arrAt 4 cfg6.N = result V c :=
  (dat6 V c).arrAt_eq_of_cover 4 (result V c) (fun t _ => flushed_eq V c t) cover

end Cert.KernelIdeal.Region6

end
-- ==== Proof.KernelValue.lean ====
/-
  The kernel program's intermediate arrays, boundary by boundary.

  The program alternates stretches of host operations with the seven message kernels.  At each kernel's exit the
  arrays still to be read — the edge endpoints, the kept slices of the gates, the arguments, and the kernel's own
  message — are named here as functions of the program's arguments.  A host stretch is read operation by
  operation from the boundary before it; a kernel leaves every array it does not write as entered, and its result
  at the message of the arrays it is entered with.  The functions are the reference's own stages (the same
  gathers, scatter-adds, biases, slices and gates on both sides), so that at the last boundary the result is the
  reference's result stage of the arguments.
-/
import proofs.«114688_j53257594471014_1_alg».proof.Proof.KernelRun
import proofs.«114688_j53257594471014_1_alg».proof.Proof.RefMsg
import proofs.«114688_j53257594471014_1_alg».proof.Proof.Region0
import proofs.«114688_j53257594471014_1_alg».proof.Proof.Region1
import proofs.«114688_j53257594471014_1_alg».proof.Proof.Region2
import proofs.«114688_j53257594471014_1_alg».proof.Proof.Region3
import proofs.«114688_j53257594471014_1_alg».proof.Proof.Region4
import proofs.«114688_j53257594471014_1_alg».proof.Proof.Region5
import proofs.«114688_j53257594471014_1_alg».proof.Proof.Region6
import Idealize.ShloMosaic.Lib.StableHlo.Run

set_option maxRecDepth 16384
set_option maxHeartbeats 4000000

noncomputable section

namespace Cert.KernelIdeal.Net

open Cert.KernelIdeal Cert.KernelIdeal.Gen
open Idealize.ShloMosaic Idealize.ShloMosaic.TcCoe Idealize.ShloMosaic.StableHlo Idealize.SL.Sem
open Cert.Sage Cert.EdgeConv

variable (m : (ℓ : Loc nD τ sig) → Buf (Elt Ideal) ℓ) (ρ : Dev nD → PrngReg) (c : Dev nD)

/-! ## The first kernel: what it is entered with, and what is held at its exit -/

/-- Entering the first kernel, `main_v10` (the gathered rows). -/
theorem in0_v10 : W1 m ρ c (Proc.devRef .tc main_v10) = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results_simp
  all_goals rfl

/-- Entering the first kernel, `main_arg2` (the edge attributes). -/
theorem in0_arg2 : W1 m ρ c (Proc.devRef .tc main_arg2) = (m ((c : Thread nD τ).loc main_arg2)) := by
  show StableHlo.after hostOps0 (W0 m ρ c) (Proc.devRef .tc main_arg2) = _
  after_results_simp
  all_goals rfl

/-- Entering the first kernel, `main_arg3` (a weight array). -/
theorem in0_arg3 : W1 m ρ c (Proc.devRef .tc main_arg3) = (m ((c : Thread nD τ).loc main_arg3)) := by
  show StableHlo.after hostOps0 (W0 m ρ c) (Proc.devRef .tc main_arg3) = _
  after_results_simp
  all_goals rfl

/-- Entering the first kernel, `main_arg4` (a weight array). -/
theorem in0_arg4 : W1 m ρ c (Proc.devRef .tc main_arg4) = (m ((c : Thread nD τ).loc main_arg4)) := by
  show StableHlo.after hostOps0 (W0 m ρ c) (Proc.devRef .tc main_arg4) = _
  after_results_simp
  all_goals rfl

/-- At the first kernel's exit `main_v3`, which the kernel does not touch, is as the stretch before left it. -/
theorem at2_v3 : W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp
  all_goals rfl

/-- At the first kernel's exit its result is the message of what it was entered with: the reference's clipped sum. -/
theorem at2_v11 : W2 m ρ c (Proc.devRef .tc main_v11) = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 4).trans ?_
  refine (Region0.final (V1 m ρ) c).trans ?_
  show edgeMsg (n := 320000) (k := 256) (e := 10) (c := 512) (W1 m ρ c (Proc.devRef .tc main_v10)) (W1 m ρ c (Proc.devRef .tc main_arg2))
    (W1 m ρ c (Proc.devRef .tc main_arg3)) (W1 m ρ c (Proc.devRef .tc main_arg4)) = _
  rw [in0_v10, in0_arg2, in0_arg3, in0_arg4]
  exact (Cert.ReferenceIdeal.Msg.msg0 (m ((c : Thread nD τ).loc main_arg0)) (m ((c : Thread nD τ).loc main_arg1)) (m ((c : Thread nD τ).loc main_arg2)) (m ((c : Thread nD τ).loc main_arg3)) (m ((c : Thread nD τ).loc main_arg4))).symm

/-- At the first kernel's exit `main_arg5`, which the kernel does not touch, is as the stretch before left it. -/
theorem at2_arg5 : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp
  all_goals rfl

/-- At the first kernel's exit `main_v1`, which the kernel does not touch, is as the stretch before left it. -/
theorem at2_v1 : W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp
  all_goals rfl

/-- At the first kernel's exit `main_arg2`, which the kernel only reads through an input window, is as the stretch before left it. -/
theorem at2_arg2 : W2 m ρ c (Proc.devRef .tc main_arg2) = (m ((c : Thread nD τ).loc main_arg2)) := by
  refine ((W2_arr m ρ c 1).trans (((dat0 (V1 m ρ) c).arrAt_in 1 rfl _).trans (A_eq0 (V1 m ρ) c 1))).trans ?_
  show StableHlo.after hostOps0 (W0 m ρ c) (Proc.devRef .tc main_arg2) = _
  after_results_simp
  all_goals rfl

/-- At the first kernel's exit `main_arg6`, which the kernel does not touch, is as the stretch before left it. -/
theorem at2_arg6 : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp
  all_goals rfl

/-- At the first kernel's exit `main_arg7`, which the kernel does not touch, is as the stretch before left it. -/
theorem at2_arg7 : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp
  all_goals rfl

/-- At the first kernel's exit `main_arg8`, which the kernel does not touch, is as the stretch before left it. -/
theorem at2_arg8 : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results_simp
  all_goals rfl

/-- At the first kernel's exit `main_arg12`, which the kernel does not touch, is as the stretch before left it. -/
theorem at2_arg12 : W2 m ρ c (Proc.devRef .tc main_arg12) = (m ((c : Thread nD τ).loc main_arg12)) := by
  refine (W2_of_ne m ρ c main_arg12 (by decide)).trans ?_
  show StableHlo.after hostOps0 (W0 m ρ c) (Proc.devRef .tc main_arg12) = _
  after_results_simp
  all_goals rfl

/-- At the first kernel's exit `main_arg13`, which the kernel does not touch, is as the stretch before left it. -/
theorem at2_arg13 : W2 m ρ c (Proc.devRef .tc main_arg13) = (m ((c : Thread nD τ).loc main_arg13)) := by
  refine (W2_of_ne m ρ c main_arg13 (by decide)).trans ?_
  show StableHlo.after hostOps0 (W0 m ρ c) (Proc.devRef .tc main_arg13) = _
  after_results_simp
  all_goals rfl

/-- At the first kernel's exit `main_arg14`, which the kernel does not touch, is as the stretch before left it. -/
theorem at2_arg14 : W2 m ρ c (Proc.devRef .tc main_arg14) = (m ((c : Thread nD τ).loc main_arg14)) := by
  refine (W2_of_ne m ρ c main_arg14 (by decide)).trans ?_
  show StableHlo.after hostOps0 (W0 m ρ c) (Proc.devRef .tc main_arg14) = _
  after_results_simp
  all_goals rfl

/-- At the first kernel's exit `main_arg15`, which the kernel does not touch, is as the stretch before left it. -/
theorem at2_arg15 : W2 m ρ c (Proc.devRef .tc main_arg15) = (m ((c : Thread nD τ).loc main_arg15)) := by
  refine (W2_of_ne m ρ c main_arg15 (by decide)).trans ?_
  show StableHlo.after hostOps0 (W0 m ρ c) (Proc.devRef .tc main_arg15) = _
  after_results_simp
  all_goals rfl

/-- At the first kernel's exit `main_arg16`, which the kernel does not touch, is as the stretch before left it. -/
theorem at2_arg16 : W2 m ρ c (Proc.devRef .tc main_arg16) = (m ((c : Thread nD τ).loc main_arg16)) := by
  refine (W2_of_ne m ρ c main_arg16 (by decide)).trans ?_
  show StableHlo.after hostOps0 (W0 m ρ c) (Proc.devRef .tc main_arg16) = _
  after_results_simp
  all_goals rfl

/-- At the first kernel's exit `main_arg17`, which the kernel does not touch, is as the stretch before left it. -/
theorem at2_arg17 : W2 m ρ c (Proc.devRef .tc main_arg17) = (m ((c : Thread nD τ).loc main_arg17)) := by
  refine (W2_of_ne m ρ c main_arg17 (by decide)).trans ?_
  show StableHlo.after hostOps0 (W0 m ρ c) (Proc.devRef .tc main_arg17) = _
  after_results_simp
  all_goals rfl

/-- At the first kernel's exit `main_arg18`, which the kernel does not touch, is as the stretch before left it. -/
theorem at2_arg18 : W2 m ρ c (Proc.devRef .tc main_arg18) = (m ((c : Thread nD τ).loc main_arg18)) := by
  refine (W2_of_ne m ρ c main_arg18 (by decide)).trans ?_
  show StableHlo.after hostOps0 (W0 m ρ c) (Proc.devRef .tc main_arg18) = _
  after_results_simp
  all_goals rfl

/-- At the first kernel's exit `main_arg19`, which the kernel does not touch, is as the stretch before left it. -/
theorem at2_arg19 : W2 m ρ c (Proc.devRef .tc main_arg19) = (m ((c : Thread nD τ).loc main_arg19)) := by
  refine (W2_of_ne m ρ c main_arg19 (by decide)).trans ?_
  show StableHlo.after hostOps0 (W0 m ρ c) (Proc.devRef .tc main_arg19) = _
  after_results_simp
  all_goals rfl

/-- At the first kernel's exit `main_arg20`, which the kernel does not touch, is as the stretch before left it. -/
theorem at2_arg20 : W2 m ρ c (Proc.devRef .tc main_arg20) = (m ((c : Thread nD τ).loc main_arg20)) := by
  refine (W2_of_ne m ρ c main_arg20 (by decide)).trans ?_
  show StableHlo.after hostOps0 (W0 m ρ c) (Proc.devRef .tc main_arg20) = _
  after_results_simp
  all_goals rfl

/-- At the first kernel's exit `main_arg21`, which the kernel does not touch, is as the stretch before left it. -/
theorem at2_arg21 : W2 m ρ c (Proc.devRef .tc main_arg21) = (m ((c : Thread nD τ).loc main_arg21)) := by
  refine (W2_of_ne m ρ c main_arg21 (by decide)).trans ?_
  show StableHlo.after hostOps0 (W0 m ρ c) (Proc.devRef .tc main_arg21) = _
  after_results_simp
  all_goals rfl

/-- At the first kernel's exit `main_arg22`, which the kernel does not touch, is as the stretch before left it. -/
theorem at2_arg22 : W2 m ρ c (Proc.devRef .tc main_arg22) = (m ((c : Thread nD τ).loc main_arg22)) := by
  refine (W2_of_ne m ρ c main_arg22 (by decide)).trans ?_
  show StableHlo.after hostOps0 (W0 m ρ c) (Proc.devRef .tc main_arg22) = _
  after_results_simp
  all_goals rfl

/-- At the first kernel's exit `main_arg23`, which the kernel does not touch, is as the stretch before left it. -/
theorem at2_arg23 : W2 m ρ c (Proc.devRef .tc main_arg23) = (m ((c : Thread nD τ).loc main_arg23)) := by
  refine (W2_of_ne m ρ c main_arg23 (by decide)).trans ?_
  show StableHlo.after hostOps0 (W0 m ρ c) (Proc.devRef .tc main_arg23) = _
  after_results_simp
  all_goals rfl

/-- At the first kernel's exit `main_arg9`, which the kernel does not touch, is as the stretch before left it. -/
theorem at2_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results_simp
  all_goals rfl

/-- At the first kernel's exit `main_arg10`, which the kernel does not touch, is as the stretch before left it. -/
theorem at2_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results_simp
  all_goals rfl

/-- At the first kernel's exit `main_arg11`, which the kernel does not touch, is as the stretch before left it. -/
theorem at2_arg11 : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results_simp
  all_goals rfl

/-! ## The second kernel: what it is entered with, and what is held at its exit -/

/-- Entering the second kernel, `main_v26` (the gathered rows). -/
theorem in1_v26 : W3 m ρ c (Proc.devRef .tc main_v26) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v26) = _
  after_results_simp
  all_goals (try rw [at2_v3, at2_v11, at2_arg5, at2_v1])
  all_goals rfl

/-- Entering the second kernel, `main_arg2` (the edge attributes). -/
theorem in1_arg2 : W3 m ρ c (Proc.devRef .tc main_arg2) = (m ((c : Thread nD τ).loc main_arg2)) := by
  show StableHlo.after hostOps1 (W2 m ρ c) (Proc.devRef .tc main_arg2) = _
  after_results_simp
  all_goals (try rw [at2_arg2])
  all_goals rfl

/-- Entering the second kernel, `main_arg6` (a weight array). -/
theorem in1_arg6 : W3 m ρ c (Proc.devRef .tc main_arg6) = (m ((c : Thread nD τ).loc main_arg6)) := by
  show StableHlo.after hostOps1 (W2 m ρ c) (Proc.devRef .tc main_arg6) = _
  after_results_simp
  all_goals (try rw [at2_arg6])
  all_goals rfl

/-- Entering the second kernel, `main_arg7` (a weight array). -/
theorem in1_arg7 : W3 m ρ c (Proc.devRef .tc main_arg7) = (m ((c : Thread nD τ).loc main_arg7)) := by
  show StableHlo.after hostOps1 (W2 m ρ c) (Proc.devRef .tc main_arg7) = _
  after_results_simp
  all_goals (try rw [at2_arg7])
  all_goals rfl

/-- At the second kernel's exit `main_v3`, which the kernel does not touch, is as the stretch before left it. -/
theorem at4_v3 : W4 m ρ c (Proc.devRef .tc main_v3) = Cert.ReferenceIdeal.Read.val_main_v3 (F := Ideal) (m ((c : Thread nD τ).loc main_arg1)) := by
  refine (W4_of_ne m ρ c main_v3 (by decide)).trans ?_
  show StableHlo.after hostOps1 (W2 m ρ c) (Proc.devRef .tc main_v3) = _
  after_results_simp
  all_goals (try rw [at2_v3])
  all_goals rfl

/-- At the second kernel's exit `main_v18`, which the kernel does not touch, is as the stretch before left it. -/
theorem at4_v18 : W4 m ρ c (Proc.devRef .tc main_v18) = Cert.ReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_of_ne m ρ c main_v18 (by decide)).trans ?_
  show StableHlo.after hostOps1 (W2 m ρ c) (Proc.devRef .tc main_v18) = _
  after_results_simp
  all_goals (try rw [at2_v3, at2_v11, at2_arg5])
  all_goals rfl

/-- At the second kernel's exit its result is the message of what it was entered with: the reference's clipped sum. -/
theorem at4_v27 : W4 m ρ c (Proc.devRef .tc main_v27) = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 4).trans ?_
  refine (Region1.final (V3 m ρ) c).trans ?_
  show edgeMsg (n := 320000) (k := 496) (e := 10) (c := 496) (W3 m ρ c (Proc.devRef .tc main_v26)) (W3 m ρ c (Proc.devRef .tc main_arg2))
    (W3 m ρ c (Proc.devRef .tc main_arg6)) (W3 m ρ c (Proc.devRef .tc main_arg7)) = _
  rw [in1_v26, in1_arg2, in1_arg6, in1_arg7]
  exact (Cert.ReferenceIdeal.Msg.msg1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

/-- At the second kernel's exit `main_arg8`, which the kernel does not touch, is as the stretch before left it. -/
theorem at4_arg8 : W4 m ρ c (Proc.devRef .tc main_arg8) = (m ((c : Thread nD τ).loc main_arg8)) := by
  refine (W4_of_ne m ρ c main_arg8 (by decide)).trans ?_
  show StableHlo.after hostOps1 (W2 m ρ c) (Proc.devRef .tc main_arg8) = _
  after_results_simp
  all_goals (try rw [at2_arg8])
  all_goals rfl

/-- At the second kernel's exit `main_v1`, which the kernel does not touch, is as the stretch before left it. -/
theorem at4_v1 : W4 m ρ c (Proc.devRef .tc main_v1) = Cert.ReferenceIdeal.Read.val_main_v1 (F := Ideal) (m ((c : Thread nD τ).loc main_arg1)) := by
  refine (W4_of_ne m ρ c main_v1 (by decide)).trans ?_
  show StableHlo.after hostOps1 (W2 m ρ c) (Proc.devRef .tc main_v1) = _
  after_results_simp
  all_goals (try rw [at2_v1])
  all_goals rfl

/-- At the second kernel's exit `main_arg2`, which the kernel only reads through an input window, is as the stretch before left it. -/
theorem at4_arg2 : W4 m ρ c (Proc.devRef .tc main_arg2) = (m ((c : Thread nD τ).loc main_arg2)) := by
  refine ((W4_arr m ρ c 1).trans (((dat1 (V3 m ρ) c).arrAt_in 1 rfl _).trans (A_eq1 (V3 m ρ) c 1))).trans ?_
  show StableHlo.after hostOps1 (W2 m ρ c) (Proc.devRef .tc main_arg2) = _
  after_results_simp
  all_goals (try rw [at2_arg2])
  all_goals rfl

/-- At the second kernel's exit `main_arg12`, which the kernel does not touch, is as the stretch before left it. -/
theorem at4_arg12 : W4 m ρ c (Proc.devRef .tc main_arg12) = (m ((c : Thread nD τ).loc main_arg12)) := by
  refine (W4_of_ne m ρ c main_arg12 (by decide)).trans ?_
  show StableHlo.after hostOps1 (W2 m ρ c) (Proc.devRef .tc main_arg12) = _
  after_results_simp
  all_goals (try rw [at2_arg12])
  all_goals rfl

/-- At the second kernel's exit `main_arg13`, which the kernel does not touch, is as the stretch before left it. -/
theorem at4_arg13 : W4 m ρ c (Proc.devRef .tc main_arg13) = (m ((c : Thread nD τ).loc main_arg13)) := by
  refine (W4_of_ne m ρ c main_arg13 (by decide)).trans ?_
  show StableHlo.after hostOps1 (W2 m ρ c) (Proc.devRef .tc main_arg13) = _
  after_results_simp
  all_goals (try rw [at2_arg13])
  all_goals rfl

/-- At the second kernel's exit `main_arg14`, which the kernel does not touch, is as the stretch before left it. -/
theorem at4_arg14 : W4 m ρ c (Proc.devRef .tc main_arg14) = (m ((c : Thread nD τ).loc main_arg14)) := by
  refine (W4_of_ne m ρ c main_arg14 (by decide)).trans ?_
  show StableHlo.after hostOps1 (W2 m ρ c) (Proc.devRef .tc main_arg14) = _
  after_results_simp
  all_goals (try rw [at2_arg14])
  all_goals rfl

/-- At the second kernel's exit `main_arg15`, which the kernel does not touch, is as the stretch before left it. -/
theorem at4_arg15 : W4 m ρ c (Proc.devRef .tc main_arg15) = (m ((c : Thread nD τ).loc main_arg15)) := by
  refine (W4_of_ne m ρ c main_arg15 (by decide)).trans ?_
  show StableHlo.after hostOps1 (W2 m ρ c) (Proc.devRef .tc main_arg15) = _
  after_results_simp
  all_goals (try rw [at2_arg15])
  all_goals rfl

/-- At the second kernel's exit `main_arg16`, which the kernel does not touch, is as the stretch before left it. -/
theorem at4_arg16 : W4 m ρ c (Proc.devRef .tc main_arg16) = (m ((c : Thread nD τ).loc main_arg16)) := by
  refine (W4_of_ne m ρ c main_arg16 (by decide)).trans ?_
  show StableHlo.after hostOps1 (W2 m ρ c) (Proc.devRef .tc main_arg16) = _
  after_results_simp
  all_goals (try rw [at2_arg16])
  all_goals rfl

/-- At the second kernel's exit `main_arg17`, which the kernel does not touch, is as the stretch before left it. -/
theorem at4_arg17 : W4 m ρ c (Proc.devRef .tc main_arg17) = (m ((c : Thread nD τ).loc main_arg17)) := by
  refine (W4_of_ne m ρ c main_arg17 (by decide)).trans ?_
  show StableHlo.after hostOps1 (W2 m ρ c) (Proc.devRef .tc main_arg17) = _
  after_results_simp
  all_goals (try rw [at2_arg17])
  all_goals rfl

/-- At the second kernel's exit `main_arg18`, which the kernel does not touch, is as the stretch before left it. -/
theorem at4_arg18 : W4 m ρ c (Proc.devRef .tc main_arg18) = (m ((c : Thread nD τ).loc main_arg18)) := by
  refine (W4_of_ne m ρ c main_arg18 (by decide)).trans ?_
  show StableHlo.after hostOps1 (W2 m ρ c) (Proc.devRef .tc main_arg18) = _
  after_results_simp
  all_goals (try rw [at2_arg18])
  all_goals rfl

/-- At the second kernel's exit `main_arg19`, which the kernel does not touch, is as the stretch before left it. -/
theorem at4_arg19 : W4 m ρ c (Proc.devRef .tc main_arg19) = (m ((c : Thread nD τ).loc main_arg19)) := by
  refine (W4_of_ne m ρ c main_arg19 (by decide)).trans ?_
  show StableHlo.after hostOps1 (W2 m ρ c) (Proc.devRef .tc main_arg19) = _
  after_results_simp
  all_goals (try rw [at2_arg19])
  all_goals rfl

/-- At the second kernel's exit `main_arg20`, which the kernel does not touch, is as the stretch before left it. -/
theorem at4_arg20 : W4 m ρ c (Proc.devRef .tc main_arg20) = (m ((c : Thread nD τ).loc main_arg20)) := by
  refine (W4_of_ne m ρ c main_arg20 (by decide)).trans ?_
  show StableHlo.after hostOps1 (W2 m ρ c) (Proc.devRef .tc main_arg20) = _
  after_results_simp
  all_goals (try rw [at2_arg20])
  all_goals rfl

/-- At the second kernel's exit `main_arg21`, which the kernel does not touch, is as the stretch before left it. -/
theorem at4_arg21 : W4 m ρ c (Proc.devRef .tc main_arg21) = (m ((c : Thread nD τ).loc main_arg21)) := by
  refine (W4_of_ne m ρ c main_arg21 (by decide)).trans ?_
  show StableHlo.after hostOps1 (W2 m ρ c) (Proc.devRef .tc main_arg21) = _
  after_results_simp
  all_goals (try rw [at2_arg21])
  all_goals rfl

/-- At the second kernel's exit `main_arg22`, which the kernel does not touch, is as the stretch before left it. -/
theorem at4_arg22 : W4 m ρ c (Proc.devRef .tc main_arg22) = (m ((c : Thread nD τ).loc main_arg22)) := by
  refine (W4_of_ne m ρ c main_arg22 (by decide)).trans ?_
  show StableHlo.after hostOps1 (W2 m ρ c) (Proc.devRef .tc main_arg22) = _
  after_results_simp
  all_goals (try rw [at2_arg22])
  all_goals rfl

/-- At the second kernel's exit `main_arg23`, which the kernel does not touch, is as the stretch before left it. -/
theorem at4_arg23 : W4 m ρ c (Proc.devRef .tc main_arg23) = (m ((c : Thread nD τ).loc main_arg23)) := by
  refine (W4_of_ne m ρ c main_arg23 (by decide)).trans ?_
  show StableHlo.after hostOps1 (W2 m ρ c) (Proc.devRef .tc main_arg23) = _
  after_results_simp
  all_goals (try rw [at2_arg23])
  all_goals rfl

/-- At the second kernel's exit `main_arg9`, which the kernel does not touch, is as the stretch before left it. -/
theorem at4_arg9 : W4 m ρ c (Proc.devRef .tc main_arg9) = (m ((c : Thread nD τ).loc main_arg9)) := by
  refine (W4_of_ne m ρ c main_arg9 (by decide)).trans ?_
  show StableHlo.after hostOps1 (W2 m ρ c) (Proc.devRef .tc main_arg9) = _
  after_results_simp
  all_goals (try rw [at2_arg9])
  all_goals rfl

/-- At the second kernel's exit `main_arg10`, which the kernel does not touch, is as the stretch before left it. -/
theorem at4_arg10 : W4 m ρ c (Proc.devRef .tc main_arg10) = (m ((c : Thread nD τ).loc main_arg10)) := by
  refine (W4_of_ne m ρ c main_arg10 (by decide)).trans ?_
  show StableHlo.after hostOps1 (W2 m ρ c) (Proc.devRef .tc main_arg10) = _
  after_results_simp
  all_goals (try rw [at2_arg10])
  all_goals rfl

/-- At the second kernel's exit `main_arg11`, which the kernel does not touch, is as the stretch before left it. -/
theorem at4_arg11 : W4 m ρ c (Proc.devRef .tc main_arg11) = (m ((c : Thread nD τ).loc main_arg11)) := by
  refine (W4_of_ne m ρ c main_arg11 (by decide)).trans ?_
  show StableHlo.after hostOps1 (W2 m ρ c) (Proc.devRef .tc main_arg11) = _
  after_results_simp
  all_goals (try rw [at2_arg11])
  all_goals rfl

/-! ## The third kernel: what it is entered with, and what is held at its exit -/

/-- Entering the third kernel, `main_v48` (the gathered rows). -/
theorem in2_v48 : W5 m ρ c (Proc.devRef .tc main_v48) = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v48) = _
  after_results_simp
  all_goals (try rw [at4_v18, at4_v3, at4_v27, at4_arg8, at4_v1])
  all_goals rfl

/-- Entering the third kernel, `main_arg2` (the edge attributes). -/
theorem in2_arg2 : W5 m ρ c (Proc.devRef .tc main_arg2) = (m ((c : Thread nD τ).loc main_arg2)) := by
  show StableHlo.after hostOps2 (W4 m ρ c) (Proc.devRef .tc main_arg2) = _
  after_results_simp
  all_goals (try rw [at4_arg2])
  all_goals rfl

/-- Entering the third kernel, `main_arg12` (a weight array). -/
theorem in2_arg12 : W5 m ρ c (Proc.devRef .tc main_arg12) = (m ((c : Thread nD τ).loc main_arg12)) := by
  show StableHlo.after hostOps2 (W4 m ρ c) (Proc.devRef .tc main_arg12) = _
  after_results_simp
  all_goals (try rw [at4_arg12])
  all_goals rfl

/-- Entering the third kernel, `main_arg13` (a weight array). -/
theorem in2_arg13 : W5 m ρ c (Proc.devRef .tc main_arg13) = (m ((c : Thread nD τ).loc main_arg13)) := by
  show StableHlo.after hostOps2 (W4 m ρ c) (Proc.devRef .tc main_arg13) = _
  after_results_simp
  all_goals (try rw [at4_arg13])
  all_goals rfl

/-- At the third kernel's exit `main_v3`, which the kernel does not touch, is as the stretch before left it. -/
theorem at6_v3 : W6 m ρ c (Proc.devRef .tc main_v3) = Cert.ReferenceIdeal.Read.val_main_v3 (F := Ideal) (m ((c : Thread nD τ).loc main_arg1)) := by
  refine (W6_of_ne m ρ c main_v3 (by decide)).trans ?_
  show StableHlo.after hostOps2 (W4 m ρ c) (Proc.devRef .tc main_v3) = _
  after_results_simp
  all_goals (try rw [at4_v3])
  all_goals rfl

/-- At the third kernel's exit its result is the message of what it was entered with: the reference's clipped sum. -/
theorem at6_v49 : W6 m ρ c (Proc.devRef .tc main_v49) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) := by
  refine (W6_arr m ρ c 4).trans ?_
  refine (Region2.final (V5 m ρ) c).trans ?_
  show edgeMsg (n := 320000) (k := 16) (e := 10) (c := 32) (W5 m ρ c (Proc.devRef .tc main_v48)) (W5 m ρ c (Proc.devRef .tc main_arg2))
    (W5 m ρ c (Proc.devRef .tc main_arg12)) (W5 m ρ c (Proc.devRef .tc main_arg13)) = _
  rw [in2_v48, in2_arg2, in2_arg12, in2_arg13]
  exact (Cert.ReferenceIdeal.Msg.msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13))).symm

/-- At the third kernel's exit `main_arg14`, which the kernel does not touch, is as the stretch before left it. -/
theorem at6_arg14 : W6 m ρ c (Proc.devRef .tc main_arg14) = (m ((c : Thread nD τ).loc main_arg14)) := by
  refine (W6_of_ne m ρ c main_arg14 (by decide)).trans ?_
  show StableHlo.after hostOps2 (W4 m ρ c) (Proc.devRef .tc main_arg14) = _
  after_results_simp
  all_goals (try rw [at4_arg14])
  all_goals rfl

/-- At the third kernel's exit `main_v37`, which the kernel does not touch, is as the stretch before left it. -/
theorem at6_v37 : W6 m ρ c (Proc.devRef .tc main_v37) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_of_ne m ρ c main_v37 (by decide)).trans ?_
  show StableHlo.after hostOps2 (W4 m ρ c) (Proc.devRef .tc main_v37) = _
  after_results_simp
  all_goals (try rw [at4_v3, at4_v27, at4_arg8])
  all_goals rfl

/-- At the third kernel's exit `main_v1`, which the kernel does not touch, is as the stretch before left it. -/
theorem at6_v1 : W6 m ρ c (Proc.devRef .tc main_v1) = Cert.ReferenceIdeal.Read.val_main_v1 (F := Ideal) (m ((c : Thread nD τ).loc main_arg1)) := by
  refine (W6_of_ne m ρ c main_v1 (by decide)).trans ?_
  show StableHlo.after hostOps2 (W4 m ρ c) (Proc.devRef .tc main_v1) = _
  after_results_simp
  all_goals (try rw [at4_v1])
  all_goals rfl

/-- At the third kernel's exit `main_arg2`, which the kernel only reads through an input window, is as the stretch before left it. -/
theorem at6_arg2 : W6 m ρ c (Proc.devRef .tc main_arg2) = (m ((c : Thread nD τ).loc main_arg2)) := by
  refine ((W6_arr m ρ c 1).trans (((dat2 (V5 m ρ) c).arrAt_in 1 rfl _).trans (A_eq2 (V5 m ρ) c 1))).trans ?_
  show StableHlo.after hostOps2 (W4 m ρ c) (Proc.devRef .tc main_arg2) = _
  after_results_simp
  all_goals (try rw [at4_arg2])
  all_goals rfl

/-- At the third kernel's exit `main_arg15`, which the kernel does not touch, is as the stretch before left it. -/
theorem at6_arg15 : W6 m ρ c (Proc.devRef .tc main_arg15) = (m ((c : Thread nD τ).loc main_arg15)) := by
  refine (W6_of_ne m ρ c main_arg15 (by decide)).trans ?_
  show StableHlo.after hostOps2 (W4 m ρ c) (Proc.devRef .tc main_arg15) = _
  after_results_simp
  all_goals (try rw [at4_arg15])
  all_goals rfl

/-- At the third kernel's exit `main_arg16`, which the kernel does not touch, is as the stretch before left it. -/
theorem at6_arg16 : W6 m ρ c (Proc.devRef .tc main_arg16) = (m ((c : Thread nD τ).loc main_arg16)) := by
  refine (W6_of_ne m ρ c main_arg16 (by decide)).trans ?_
  show StableHlo.after hostOps2 (W4 m ρ c) (Proc.devRef .tc main_arg16) = _
  after_results_simp
  all_goals (try rw [at4_arg16])
  all_goals rfl

/-- At the third kernel's exit `main_arg17`, which the kernel does not touch, is as the stretch before left it. -/
theorem at6_arg17 : W6 m ρ c (Proc.devRef .tc main_arg17) = (m ((c : Thread nD τ).loc main_arg17)) := by
  refine (W6_of_ne m ρ c main_arg17 (by decide)).trans ?_
  show StableHlo.after hostOps2 (W4 m ρ c) (Proc.devRef .tc main_arg17) = _
  after_results_simp
  all_goals (try rw [at4_arg17])
  all_goals rfl

/-- At the third kernel's exit `main_v38`, which the kernel does not touch, is as the stretch before left it. -/
theorem at6_v38 : W6 m ρ c (Proc.devRef .tc main_v38) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_of_ne m ρ c main_v38 (by decide)).trans ?_
  show StableHlo.after hostOps2 (W4 m ρ c) (Proc.devRef .tc main_v38) = _
  after_results_simp
  all_goals (try rw [at4_v3, at4_v27, at4_arg8])
  all_goals rfl

/-- At the third kernel's exit `main_arg18`, which the kernel does not touch, is as the stretch before left it. -/
theorem at6_arg18 : W6 m ρ c (Proc.devRef .tc main_arg18) = (m ((c : Thread nD τ).loc main_arg18)) := by
  refine (W6_of_ne m ρ c main_arg18 (by decide)).trans ?_
  show StableHlo.after hostOps2 (W4 m ρ c) (Proc.devRef .tc main_arg18) = _
  after_results_simp
  all_goals (try rw [at4_arg18])
  all_goals rfl

/-- At the third kernel's exit `main_arg19`, which the kernel does not touch, is as the stretch before left it. -/
theorem at6_arg19 : W6 m ρ c (Proc.devRef .tc main_arg19) = (m ((c : Thread nD τ).loc main_arg19)) := by
  refine (W6_of_ne m ρ c main_arg19 (by decide)).trans ?_
  show StableHlo.after hostOps2 (W4 m ρ c) (Proc.devRef .tc main_arg19) = _
  after_results_simp
  all_goals (try rw [at4_arg19])
  all_goals rfl

/-- At the third kernel's exit `main_arg20`, which the kernel does not touch, is as the stretch before left it. -/
theorem at6_arg20 : W6 m ρ c (Proc.devRef .tc main_arg20) = (m ((c : Thread nD τ).loc main_arg20)) := by
  refine (W6_of_ne m ρ c main_arg20 (by decide)).trans ?_
  show StableHlo.after hostOps2 (W4 m ρ c) (Proc.devRef .tc main_arg20) = _
  after_results_simp
  all_goals (try rw [at4_arg20])
  all_goals rfl

/-- At the third kernel's exit `main_v39`, which the kernel does not touch, is as the stretch before left it. -/
theorem at6_v39 : W6 m ρ c (Proc.devRef .tc main_v39) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_of_ne m ρ c main_v39 (by decide)).trans ?_
  show StableHlo.after hostOps2 (W4 m ρ c) (Proc.devRef .tc main_v39) = _
  after_results_simp
  all_goals (try rw [at4_v3, at4_v27, at4_arg8])
  all_goals rfl

/-- At the third kernel's exit `main_arg21`, which the kernel does not touch, is as the stretch before left it. -/
theorem at6_arg21 : W6 m ρ c (Proc.devRef .tc main_arg21) = (m ((c : Thread nD τ).loc main_arg21)) := by
  refine (W6_of_ne m ρ c main_arg21 (by decide)).trans ?_
  show StableHlo.after hostOps2 (W4 m ρ c) (Proc.devRef .tc main_arg21) = _
  after_results_simp
  all_goals (try rw [at4_arg21])
  all_goals rfl

/-- At the third kernel's exit `main_arg22`, which the kernel does not touch, is as the stretch before left it. -/
theorem at6_arg22 : W6 m ρ c (Proc.devRef .tc main_arg22) = (m ((c : Thread nD τ).loc main_arg22)) := by
  refine (W6_of_ne m ρ c main_arg22 (by decide)).trans ?_
  show StableHlo.after hostOps2 (W4 m ρ c) (Proc.devRef .tc main_arg22) = _
  after_results_simp
  all_goals (try rw [at4_arg22])
  all_goals rfl

/-- At the third kernel's exit `main_arg23`, which the kernel does not touch, is as the stretch before left it. -/
theorem at6_arg23 : W6 m ρ c (Proc.devRef .tc main_arg23) = (m ((c : Thread nD τ).loc main_arg23)) := by
  refine (W6_of_ne m ρ c main_arg23 (by decide)).trans ?_
  show StableHlo.after hostOps2 (W4 m ρ c) (Proc.devRef .tc main_arg23) = _
  after_results_simp
  all_goals (try rw [at4_arg23])
  all_goals rfl

/-- At the third kernel's exit `main_v40`, which the kernel does not touch, is as the stretch before left it. -/
theorem at6_v40 : W6 m ρ c (Proc.devRef .tc main_v40) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_of_ne m ρ c main_v40 (by decide)).trans ?_
  show StableHlo.after hostOps2 (W4 m ρ c) (Proc.devRef .tc main_v40) = _
  after_results_simp
  all_goals (try rw [at4_v3, at4_v27, at4_arg8])
  all_goals rfl

/-- At the third kernel's exit `main_arg9`, which the kernel does not touch, is as the stretch before left it. -/
theorem at6_arg9 : W6 m ρ c (Proc.devRef .tc main_arg9) = (m ((c : Thread nD τ).loc main_arg9)) := by
  refine (W6_of_ne m ρ c main_arg9 (by decide)).trans ?_
  show StableHlo.after hostOps2 (W4 m ρ c) (Proc.devRef .tc main_arg9) = _
  after_results_simp
  all_goals (try rw [at4_arg9])
  all_goals rfl

/-- At the third kernel's exit `main_arg10`, which the kernel does not touch, is as the stretch before left it. -/
theorem at6_arg10 : W6 m ρ c (Proc.devRef .tc main_arg10) = (m ((c : Thread nD τ).loc main_arg10)) := by
  refine (W6_of_ne m ρ c main_arg10 (by decide)).trans ?_
  show StableHlo.after hostOps2 (W4 m ρ c) (Proc.devRef .tc main_arg10) = _
  after_results_simp
  all_goals (try rw [at4_arg10])
  all_goals rfl

/-- At the third kernel's exit `main_arg11`, which the kernel does not touch, is as the stretch before left it. -/
theorem at6_arg11 : W6 m ρ c (Proc.devRef .tc main_arg11) = (m ((c : Thread nD τ).loc main_arg11)) := by
  refine (W6_of_ne m ρ c main_arg11 (by decide)).trans ?_
  show StableHlo.after hostOps2 (W4 m ρ c) (Proc.devRef .tc main_arg11) = _
  after_results_simp
  all_goals (try rw [at4_arg11])
  all_goals rfl

/-! ## The fourth kernel: what it is entered with, and what is held at its exit -/

/-- Entering the fourth kernel, `main_v63` (the gathered rows). -/
theorem in3_v63 : W7 m ρ c (Proc.devRef .tc main_v63) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) := by
  show StableHlo.after hostOps3 (W6 m ρ c) (Proc.devRef .tc main_v63) = _
  after_results_simp
  all_goals (try rw [at6_v3, at6_v49, at6_arg14, at6_v37, at6_v1])
  all_goals rfl

/-- Entering the fourth kernel, `main_arg2` (the edge attributes). -/
theorem in3_arg2 : W7 m ρ c (Proc.devRef .tc main_arg2) = (m ((c : Thread nD τ).loc main_arg2)) := by
  show StableHlo.after hostOps3 (W6 m ρ c) (Proc.devRef .tc main_arg2) = _
  after_results_simp
  all_goals (try rw [at6_arg2])
  all_goals rfl

/-- Entering the fourth kernel, `main_arg15` (a weight array). -/
theorem in3_arg15 : W7 m ρ c (Proc.devRef .tc main_arg15) = (m ((c : Thread nD τ).loc main_arg15)) := by
  show StableHlo.after hostOps3 (W6 m ρ c) (Proc.devRef .tc main_arg15) = _
  after_results_simp
  all_goals (try rw [at6_arg15])
  all_goals rfl

/-- Entering the fourth kernel, `main_arg16` (a weight array). -/
theorem in3_arg16 : W7 m ρ c (Proc.devRef .tc main_arg16) = (m ((c : Thread nD τ).loc main_arg16)) := by
  show StableHlo.after hostOps3 (W6 m ρ c) (Proc.devRef .tc main_arg16) = _
  after_results_simp
  all_goals (try rw [at6_arg16])
  all_goals rfl

/-- At the fourth kernel's exit `main_v3`, which the kernel does not touch, is as the stretch before left it. -/
theorem at8_v3 : W8 m ρ c (Proc.devRef .tc main_v3) = Cert.ReferenceIdeal.Read.val_main_v3 (F := Ideal) (m ((c : Thread nD τ).loc main_arg1)) := by
  refine (W8_of_ne m ρ c main_v3 (by decide)).trans ?_
  show StableHlo.after hostOps3 (W6 m ρ c) (Proc.devRef .tc main_v3) = _
  after_results_simp
  all_goals (try rw [at6_v3])
  all_goals rfl

/-- At the fourth kernel's exit its result is the message of what it was entered with: the reference's clipped sum. -/
theorem at8_v64 : W8 m ρ c (Proc.devRef .tc main_v64) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W8_arr m ρ c 4).trans ?_
  refine (Region3.final (V7 m ρ) c).trans ?_
  show edgeMsg (n := 320000) (k := 32) (e := 10) (c := 64) (W7 m ρ c (Proc.devRef .tc main_v63)) (W7 m ρ c (Proc.devRef .tc main_arg2))
    (W7 m ρ c (Proc.devRef .tc main_arg15)) (W7 m ρ c (Proc.devRef .tc main_arg16)) = _
  rw [in3_v63, in3_arg2, in3_arg15, in3_arg16]
  exact (Cert.ReferenceIdeal.Msg.msg3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16))).symm

/-- At the fourth kernel's exit `main_arg17`, which the kernel does not touch, is as the stretch before left it. -/
theorem at8_arg17 : W8 m ρ c (Proc.devRef .tc main_arg17) = (m ((c : Thread nD τ).loc main_arg17)) := by
  refine (W8_of_ne m ρ c main_arg17 (by decide)).trans ?_
  show StableHlo.after hostOps3 (W6 m ρ c) (Proc.devRef .tc main_arg17) = _
  after_results_simp
  all_goals (try rw [at6_arg17])
  all_goals rfl

/-- At the fourth kernel's exit `main_v38`, which the kernel does not touch, is as the stretch before left it. -/
theorem at8_v38 : W8 m ρ c (Proc.devRef .tc main_v38) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_of_ne m ρ c main_v38 (by decide)).trans ?_
  show StableHlo.after hostOps3 (W6 m ρ c) (Proc.devRef .tc main_v38) = _
  after_results_simp
  all_goals (try rw [at6_v38])
  all_goals rfl

/-- At the fourth kernel's exit `main_v1`, which the kernel does not touch, is as the stretch before left it. -/
theorem at8_v1 : W8 m ρ c (Proc.devRef .tc main_v1) = Cert.ReferenceIdeal.Read.val_main_v1 (F := Ideal) (m ((c : Thread nD τ).loc main_arg1)) := by
  refine (W8_of_ne m ρ c main_v1 (by decide)).trans ?_
  show StableHlo.after hostOps3 (W6 m ρ c) (Proc.devRef .tc main_v1) = _
  after_results_simp
  all_goals (try rw [at6_v1])
  all_goals rfl

/-- At the fourth kernel's exit `main_arg2`, which the kernel only reads through an input window, is as the stretch before left it. -/
theorem at8_arg2 : W8 m ρ c (Proc.devRef .tc main_arg2) = (m ((c : Thread nD τ).loc main_arg2)) := by
  refine ((W8_arr m ρ c 1).trans (((dat3 (V7 m ρ) c).arrAt_in 1 rfl _).trans (A_eq3 (V7 m ρ) c 1))).trans ?_
  show StableHlo.after hostOps3 (W6 m ρ c) (Proc.devRef .tc main_arg2) = _
  after_results_simp
  all_goals (try rw [at6_arg2])
  all_goals rfl

/-- At the fourth kernel's exit `main_arg18`, which the kernel does not touch, is as the stretch before left it. -/
theorem at8_arg18 : W8 m ρ c (Proc.devRef .tc main_arg18) = (m ((c : Thread nD τ).loc main_arg18)) := by
  refine (W8_of_ne m ρ c main_arg18 (by decide)).trans ?_
  show StableHlo.after hostOps3 (W6 m ρ c) (Proc.devRef .tc main_arg18) = _
  after_results_simp
  all_goals (try rw [at6_arg18])
  all_goals rfl

/-- At the fourth kernel's exit `main_arg19`, which the kernel does not touch, is as the stretch before left it. -/
theorem at8_arg19 : W8 m ρ c (Proc.devRef .tc main_arg19) = (m ((c : Thread nD τ).loc main_arg19)) := by
  refine (W8_of_ne m ρ c main_arg19 (by decide)).trans ?_
  show StableHlo.after hostOps3 (W6 m ρ c) (Proc.devRef .tc main_arg19) = _
  after_results_simp
  all_goals (try rw [at6_arg19])
  all_goals rfl

/-- At the fourth kernel's exit `main_arg20`, which the kernel does not touch, is as the stretch before left it. -/
theorem at8_arg20 : W8 m ρ c (Proc.devRef .tc main_arg20) = (m ((c : Thread nD τ).loc main_arg20)) := by
  refine (W8_of_ne m ρ c main_arg20 (by decide)).trans ?_
  show StableHlo.after hostOps3 (W6 m ρ c) (Proc.devRef .tc main_arg20) = _
  after_results_simp
  all_goals (try rw [at6_arg20])
  all_goals rfl

/-- At the fourth kernel's exit `main_v39`, which the kernel does not touch, is as the stretch before left it. -/
theorem at8_v39 : W8 m ρ c (Proc.devRef .tc main_v39) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_of_ne m ρ c main_v39 (by decide)).trans ?_
  show StableHlo.after hostOps3 (W6 m ρ c) (Proc.devRef .tc main_v39) = _
  after_results_simp
  all_goals (try rw [at6_v39])
  all_goals rfl

/-- At the fourth kernel's exit `main_arg21`, which the kernel does not touch, is as the stretch before left it. -/
theorem at8_arg21 : W8 m ρ c (Proc.devRef .tc main_arg21) = (m ((c : Thread nD τ).loc main_arg21)) := by
  refine (W8_of_ne m ρ c main_arg21 (by decide)).trans ?_
  show StableHlo.after hostOps3 (W6 m ρ c) (Proc.devRef .tc main_arg21) = _
  after_results_simp
  all_goals (try rw [at6_arg21])
  all_goals rfl

/-- At the fourth kernel's exit `main_arg22`, which the kernel does not touch, is as the stretch before left it. -/
theorem at8_arg22 : W8 m ρ c (Proc.devRef .tc main_arg22) = (m ((c : Thread nD τ).loc main_arg22)) := by
  refine (W8_of_ne m ρ c main_arg22 (by decide)).trans ?_
  show StableHlo.after hostOps3 (W6 m ρ c) (Proc.devRef .tc main_arg22) = _
  after_results_simp
  all_goals (try rw [at6_arg22])
  all_goals rfl

/-- At the fourth kernel's exit `main_arg23`, which the kernel does not touch, is as the stretch before left it. -/
theorem at8_arg23 : W8 m ρ c (Proc.devRef .tc main_arg23) = (m ((c : Thread nD τ).loc main_arg23)) := by
  refine (W8_of_ne m ρ c main_arg23 (by decide)).trans ?_
  show StableHlo.after hostOps3 (W6 m ρ c) (Proc.devRef .tc main_arg23) = _
  after_results_simp
  all_goals (try rw [at6_arg23])
  all_goals rfl

/-- At the fourth kernel's exit `main_v40`, which the kernel does not touch, is as the stretch before left it. -/
theorem at8_v40 : W8 m ρ c (Proc.devRef .tc main_v40) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_of_ne m ρ c main_v40 (by decide)).trans ?_
  show StableHlo.after hostOps3 (W6 m ρ c) (Proc.devRef .tc main_v40) = _
  after_results_simp
  all_goals (try rw [at6_v40])
  all_goals rfl

/-- At the fourth kernel's exit `main_arg9`, which the kernel does not touch, is as the stretch before left it. -/
theorem at8_arg9 : W8 m ρ c (Proc.devRef .tc main_arg9) = (m ((c : Thread nD τ).loc main_arg9)) := by
  refine (W8_of_ne m ρ c main_arg9 (by decide)).trans ?_
  show StableHlo.after hostOps3 (W6 m ρ c) (Proc.devRef .tc main_arg9) = _
  after_results_simp
  all_goals (try rw [at6_arg9])
  all_goals rfl

/-- At the fourth kernel's exit `main_arg10`, which the kernel does not touch, is as the stretch before left it. -/
theorem at8_arg10 : W8 m ρ c (Proc.devRef .tc main_arg10) = (m ((c : Thread nD τ).loc main_arg10)) := by
  refine (W8_of_ne m ρ c main_arg10 (by decide)).trans ?_
  show StableHlo.after hostOps3 (W6 m ρ c) (Proc.devRef .tc main_arg10) = _
  after_results_simp
  all_goals (try rw [at6_arg10])
  all_goals rfl

/-- At the fourth kernel's exit `main_arg11`, which the kernel does not touch, is as the stretch before left it. -/
theorem at8_arg11 : W8 m ρ c (Proc.devRef .tc main_arg11) = (m ((c : Thread nD τ).loc main_arg11)) := by
  refine (W8_of_ne m ρ c main_arg11 (by decide)).trans ?_
  show StableHlo.after hostOps3 (W6 m ρ c) (Proc.devRef .tc main_arg11) = _
  after_results_simp
  all_goals (try rw [at6_arg11])
  all_goals rfl

/-! ## The fifth kernel: what it is entered with, and what is held at its exit -/

/-- Entering the fifth kernel, `main_v78` (the gathered rows). -/
theorem in4_v78 : W9 m ρ c (Proc.devRef .tc main_v78) = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  show StableHlo.after hostOps4 (W8 m ρ c) (Proc.devRef .tc main_v78) = _
  after_results_simp
  all_goals (try rw [at8_v3, at8_v64, at8_arg17, at8_v38, at8_v1])
  all_goals rfl

/-- Entering the fifth kernel, `main_arg2` (the edge attributes). -/
theorem in4_arg2 : W9 m ρ c (Proc.devRef .tc main_arg2) = (m ((c : Thread nD τ).loc main_arg2)) := by
  show StableHlo.after hostOps4 (W8 m ρ c) (Proc.devRef .tc main_arg2) = _
  after_results_simp
  all_goals (try rw [at8_arg2])
  all_goals rfl

/-- Entering the fifth kernel, `main_arg18` (a weight array). -/
theorem in4_arg18 : W9 m ρ c (Proc.devRef .tc main_arg18) = (m ((c : Thread nD τ).loc main_arg18)) := by
  show StableHlo.after hostOps4 (W8 m ρ c) (Proc.devRef .tc main_arg18) = _
  after_results_simp
  all_goals (try rw [at8_arg18])
  all_goals rfl

/-- Entering the fifth kernel, `main_arg19` (a weight array). -/
theorem in4_arg19 : W9 m ρ c (Proc.devRef .tc main_arg19) = (m ((c : Thread nD τ).loc main_arg19)) := by
  show StableHlo.after hostOps4 (W8 m ρ c) (Proc.devRef .tc main_arg19) = _
  after_results_simp
  all_goals (try rw [at8_arg19])
  all_goals rfl

/-- At the fifth kernel's exit `main_v3`, which the kernel does not touch, is as the stretch before left it. -/
theorem at10_v3 : W10 m ρ c (Proc.devRef .tc main_v3) = Cert.ReferenceIdeal.Read.val_main_v3 (F := Ideal) (m ((c : Thread nD τ).loc main_arg1)) := by
  refine (W10_of_ne m ρ c main_v3 (by decide)).trans ?_
  show StableHlo.after hostOps4 (W8 m ρ c) (Proc.devRef .tc main_v3) = _
  after_results_simp
  all_goals (try rw [at8_v3])
  all_goals rfl

/-- At the fifth kernel's exit its result is the message of what it was entered with: the reference's clipped sum. -/
theorem at10_v79 : W10 m ρ c (Proc.devRef .tc main_v79) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  refine (W10_arr m ρ c 4).trans ?_
  refine (Region4.final (V9 m ρ) c).trans ?_
  show edgeMsg (n := 320000) (k := 64) (e := 10) (c := 128) (W9 m ρ c (Proc.devRef .tc main_v78)) (W9 m ρ c (Proc.devRef .tc main_arg2))
    (W9 m ρ c (Proc.devRef .tc main_arg18)) (W9 m ρ c (Proc.devRef .tc main_arg19)) = _
  rw [in4_v78, in4_arg2, in4_arg18, in4_arg19]
  exact (Cert.ReferenceIdeal.Msg.msg4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))).symm

/-- At the fifth kernel's exit `main_arg20`, which the kernel does not touch, is as the stretch before left it. -/
theorem at10_arg20 : W10 m ρ c (Proc.devRef .tc main_arg20) = (m ((c : Thread nD τ).loc main_arg20)) := by
  refine (W10_of_ne m ρ c main_arg20 (by decide)).trans ?_
  show StableHlo.after hostOps4 (W8 m ρ c) (Proc.devRef .tc main_arg20) = _
  after_results_simp
  all_goals (try rw [at8_arg20])
  all_goals rfl

/-- At the fifth kernel's exit `main_v39`, which the kernel does not touch, is as the stretch before left it. -/
theorem at10_v39 : W10 m ρ c (Proc.devRef .tc main_v39) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_of_ne m ρ c main_v39 (by decide)).trans ?_
  show StableHlo.after hostOps4 (W8 m ρ c) (Proc.devRef .tc main_v39) = _
  after_results_simp
  all_goals (try rw [at8_v39])
  all_goals rfl

/-- At the fifth kernel's exit `main_v1`, which the kernel does not touch, is as the stretch before left it. -/
theorem at10_v1 : W10 m ρ c (Proc.devRef .tc main_v1) = Cert.ReferenceIdeal.Read.val_main_v1 (F := Ideal) (m ((c : Thread nD τ).loc main_arg1)) := by
  refine (W10_of_ne m ρ c main_v1 (by decide)).trans ?_
  show StableHlo.after hostOps4 (W8 m ρ c) (Proc.devRef .tc main_v1) = _
  after_results_simp
  all_goals (try rw [at8_v1])
  all_goals rfl

/-- At the fifth kernel's exit `main_arg2`, which the kernel only reads through an input window, is as the stretch before left it. -/
theorem at10_arg2 : W10 m ρ c (Proc.devRef .tc main_arg2) = (m ((c : Thread nD τ).loc main_arg2)) := by
  refine ((W10_arr m ρ c 1).trans (((dat4 (V9 m ρ) c).arrAt_in 1 rfl _).trans (A_eq4 (V9 m ρ) c 1))).trans ?_
  show StableHlo.after hostOps4 (W8 m ρ c) (Proc.devRef .tc main_arg2) = _
  after_results_simp
  all_goals (try rw [at8_arg2])
  all_goals rfl

/-- At the fifth kernel's exit `main_arg21`, which the kernel does not touch, is as the stretch before left it. -/
theorem at10_arg21 : W10 m ρ c (Proc.devRef .tc main_arg21) = (m ((c : Thread nD τ).loc main_arg21)) := by
  refine (W10_of_ne m ρ c main_arg21 (by decide)).trans ?_
  show StableHlo.after hostOps4 (W8 m ρ c) (Proc.devRef .tc main_arg21) = _
  after_results_simp
  all_goals (try rw [at8_arg21])
  all_goals rfl

/-- At the fifth kernel's exit `main_arg22`, which the kernel does not touch, is as the stretch before left it. -/
theorem at10_arg22 : W10 m ρ c (Proc.devRef .tc main_arg22) = (m ((c : Thread nD τ).loc main_arg22)) := by
  refine (W10_of_ne m ρ c main_arg22 (by decide)).trans ?_
  show StableHlo.after hostOps4 (W8 m ρ c) (Proc.devRef .tc main_arg22) = _
  after_results_simp
  all_goals (try rw [at8_arg22])
  all_goals rfl

/-- At the fifth kernel's exit `main_arg23`, which the kernel does not touch, is as the stretch before left it. -/
theorem at10_arg23 : W10 m ρ c (Proc.devRef .tc main_arg23) = (m ((c : Thread nD τ).loc main_arg23)) := by
  refine (W10_of_ne m ρ c main_arg23 (by decide)).trans ?_
  show StableHlo.after hostOps4 (W8 m ρ c) (Proc.devRef .tc main_arg23) = _
  after_results_simp
  all_goals (try rw [at8_arg23])
  all_goals rfl

/-- At the fifth kernel's exit `main_v40`, which the kernel does not touch, is as the stretch before left it. -/
theorem at10_v40 : W10 m ρ c (Proc.devRef .tc main_v40) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_of_ne m ρ c main_v40 (by decide)).trans ?_
  show StableHlo.after hostOps4 (W8 m ρ c) (Proc.devRef .tc main_v40) = _
  after_results_simp
  all_goals (try rw [at8_v40])
  all_goals rfl

/-- At the fifth kernel's exit `main_arg9`, which the kernel does not touch, is as the stretch before left it. -/
theorem at10_arg9 : W10 m ρ c (Proc.devRef .tc main_arg9) = (m ((c : Thread nD τ).loc main_arg9)) := by
  refine (W10_of_ne m ρ c main_arg9 (by decide)).trans ?_
  show StableHlo.after hostOps4 (W8 m ρ c) (Proc.devRef .tc main_arg9) = _
  after_results_simp
  all_goals (try rw [at8_arg9])
  all_goals rfl

/-- At the fifth kernel's exit `main_arg10`, which the kernel does not touch, is as the stretch before left it. -/
theorem at10_arg10 : W10 m ρ c (Proc.devRef .tc main_arg10) = (m ((c : Thread nD τ).loc main_arg10)) := by
  refine (W10_of_ne m ρ c main_arg10 (by decide)).trans ?_
  show StableHlo.after hostOps4 (W8 m ρ c) (Proc.devRef .tc main_arg10) = _
  after_results_simp
  all_goals (try rw [at8_arg10])
  all_goals rfl

/-- At the fifth kernel's exit `main_arg11`, which the kernel does not touch, is as the stretch before left it. -/
theorem at10_arg11 : W10 m ρ c (Proc.devRef .tc main_arg11) = (m ((c : Thread nD τ).loc main_arg11)) := by
  refine (W10_of_ne m ρ c main_arg11 (by decide)).trans ?_
  show StableHlo.after hostOps4 (W8 m ρ c) (Proc.devRef .tc main_arg11) = _
  after_results_simp
  all_goals (try rw [at8_arg11])
  all_goals rfl

/-! ## The sixth kernel: what it is entered with, and what is held at its exit -/

/-- Entering the sixth kernel, `main_v93` (the gathered rows). -/
theorem in5_v93 : W11 m ρ c (Proc.devRef .tc main_v93) = Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps5 (W10 m ρ c) (Proc.devRef .tc main_v93) = _
  after_results_simp
  all_goals (try rw [at10_v3, at10_v79, at10_arg20, at10_v39, at10_v1])
  all_goals rfl

/-- Entering the sixth kernel, `main_arg2` (the edge attributes). -/
theorem in5_arg2 : W11 m ρ c (Proc.devRef .tc main_arg2) = (m ((c : Thread nD τ).loc main_arg2)) := by
  show StableHlo.after hostOps5 (W10 m ρ c) (Proc.devRef .tc main_arg2) = _
  after_results_simp
  all_goals (try rw [at10_arg2])
  all_goals rfl

/-- Entering the sixth kernel, `main_arg21` (a weight array). -/
theorem in5_arg21 : W11 m ρ c (Proc.devRef .tc main_arg21) = (m ((c : Thread nD τ).loc main_arg21)) := by
  show StableHlo.after hostOps5 (W10 m ρ c) (Proc.devRef .tc main_arg21) = _
  after_results_simp
  all_goals (try rw [at10_arg21])
  all_goals rfl

/-- Entering the sixth kernel, `main_arg22` (a weight array). -/
theorem in5_arg22 : W11 m ρ c (Proc.devRef .tc main_arg22) = (m ((c : Thread nD τ).loc main_arg22)) := by
  show StableHlo.after hostOps5 (W10 m ρ c) (Proc.devRef .tc main_arg22) = _
  after_results_simp
  all_goals (try rw [at10_arg22])
  all_goals rfl

/-- At the sixth kernel's exit `main_v3`, which the kernel does not touch, is as the stretch before left it. -/
theorem at12_v3 : W12 m ρ c (Proc.devRef .tc main_v3) = Cert.ReferenceIdeal.Read.val_main_v3 (F := Ideal) (m ((c : Thread nD τ).loc main_arg1)) := by
  refine (W12_of_ne m ρ c main_v3 (by decide)).trans ?_
  show StableHlo.after hostOps5 (W10 m ρ c) (Proc.devRef .tc main_v3) = _
  after_results_simp
  all_goals (try rw [at10_v3])
  all_goals rfl

/-- At the sixth kernel's exit its result is the message of what it was entered with: the reference's clipped sum. -/
theorem at12_v94 : W12 m ρ c (Proc.devRef .tc main_v94) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W12_arr m ρ c 4).trans ?_
  refine (Region5.final (V11 m ρ) c).trans ?_
  show edgeMsg (n := 320000) (k := 128) (e := 10) (c := 256) (W11 m ρ c (Proc.devRef .tc main_v93)) (W11 m ρ c (Proc.devRef .tc main_arg2))
    (W11 m ρ c (Proc.devRef .tc main_arg21)) (W11 m ρ c (Proc.devRef .tc main_arg22)) = _
  rw [in5_v93, in5_arg2, in5_arg21, in5_arg22]
  exact (Cert.ReferenceIdeal.Msg.msg5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).symm

/-- At the sixth kernel's exit `main_arg23`, which the kernel does not touch, is as the stretch before left it. -/
theorem at12_arg23 : W12 m ρ c (Proc.devRef .tc main_arg23) = (m ((c : Thread nD τ).loc main_arg23)) := by
  refine (W12_of_ne m ρ c main_arg23 (by decide)).trans ?_
  show StableHlo.after hostOps5 (W10 m ρ c) (Proc.devRef .tc main_arg23) = _
  after_results_simp
  all_goals (try rw [at10_arg23])
  all_goals rfl

/-- At the sixth kernel's exit `main_v40`, which the kernel does not touch, is as the stretch before left it. -/
theorem at12_v40 : W12 m ρ c (Proc.devRef .tc main_v40) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_of_ne m ρ c main_v40 (by decide)).trans ?_
  show StableHlo.after hostOps5 (W10 m ρ c) (Proc.devRef .tc main_v40) = _
  after_results_simp
  all_goals (try rw [at10_v40])
  all_goals rfl

/-- At the sixth kernel's exit `main_v1`, which the kernel does not touch, is as the stretch before left it. -/
theorem at12_v1 : W12 m ρ c (Proc.devRef .tc main_v1) = Cert.ReferenceIdeal.Read.val_main_v1 (F := Ideal) (m ((c : Thread nD τ).loc main_arg1)) := by
  refine (W12_of_ne m ρ c main_v1 (by decide)).trans ?_
  show StableHlo.after hostOps5 (W10 m ρ c) (Proc.devRef .tc main_v1) = _
  after_results_simp
  all_goals (try rw [at10_v1])
  all_goals rfl

/-- At the sixth kernel's exit `main_arg2`, which the kernel only reads through an input window, is as the stretch before left it. -/
theorem at12_arg2 : W12 m ρ c (Proc.devRef .tc main_arg2) = (m ((c : Thread nD τ).loc main_arg2)) := by
  refine ((W12_arr m ρ c 1).trans (((dat5 (V11 m ρ) c).arrAt_in 1 rfl _).trans (A_eq5 (V11 m ρ) c 1))).trans ?_
  show StableHlo.after hostOps5 (W10 m ρ c) (Proc.devRef .tc main_arg2) = _
  after_results_simp
  all_goals (try rw [at10_arg2])
  all_goals rfl

/-- At the sixth kernel's exit `main_arg9`, which the kernel does not touch, is as the stretch before left it. -/
theorem at12_arg9 : W12 m ρ c (Proc.devRef .tc main_arg9) = (m ((c : Thread nD τ).loc main_arg9)) := by
  refine (W12_of_ne m ρ c main_arg9 (by decide)).trans ?_
  show StableHlo.after hostOps5 (W10 m ρ c) (Proc.devRef .tc main_arg9) = _
  after_results_simp
  all_goals (try rw [at10_arg9])
  all_goals rfl

/-- At the sixth kernel's exit `main_arg10`, which the kernel does not touch, is as the stretch before left it. -/
theorem at12_arg10 : W12 m ρ c (Proc.devRef .tc main_arg10) = (m ((c : Thread nD τ).loc main_arg10)) := by
  refine (W12_of_ne m ρ c main_arg10 (by decide)).trans ?_
  show StableHlo.after hostOps5 (W10 m ρ c) (Proc.devRef .tc main_arg10) = _
  after_results_simp
  all_goals (try rw [at10_arg10])
  all_goals rfl

/-- At the sixth kernel's exit `main_arg11`, which the kernel does not touch, is as the stretch before left it. -/
theorem at12_arg11 : W12 m ρ c (Proc.devRef .tc main_arg11) = (m ((c : Thread nD τ).loc main_arg11)) := by
  refine (W12_of_ne m ρ c main_arg11 (by decide)).trans ?_
  show StableHlo.after hostOps5 (W10 m ρ c) (Proc.devRef .tc main_arg11) = _
  after_results_simp
  all_goals (try rw [at10_arg11])
  all_goals rfl

/-! ## The seventh kernel: what it is entered with, and what is held at its exit -/

/-- Entering the seventh kernel, `main_v108` (the gathered rows). -/
theorem in6_v108 : W13 m ρ c (Proc.devRef .tc main_v108) = Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  show StableHlo.after hostOps6 (W12 m ρ c) (Proc.devRef .tc main_v108) = _
  after_results_simp
  all_goals (try rw [at12_v3, at12_v94, at12_arg23, at12_v40, at12_v1])
  all_goals rfl

/-- Entering the seventh kernel, `main_arg2` (the edge attributes). -/
theorem in6_arg2 : W13 m ρ c (Proc.devRef .tc main_arg2) = (m ((c : Thread nD τ).loc main_arg2)) := by
  show StableHlo.after hostOps6 (W12 m ρ c) (Proc.devRef .tc main_arg2) = _
  after_results_simp
  all_goals (try rw [at12_arg2])
  all_goals rfl

/-- Entering the seventh kernel, `main_arg9` (a weight array). -/
theorem in6_arg9 : W13 m ρ c (Proc.devRef .tc main_arg9) = (m ((c : Thread nD τ).loc main_arg9)) := by
  show StableHlo.after hostOps6 (W12 m ρ c) (Proc.devRef .tc main_arg9) = _
  after_results_simp
  all_goals (try rw [at12_arg9])
  all_goals rfl

/-- Entering the seventh kernel, `main_arg10` (a weight array). -/
theorem in6_arg10 : W13 m ρ c (Proc.devRef .tc main_arg10) = (m ((c : Thread nD τ).loc main_arg10)) := by
  show StableHlo.after hostOps6 (W12 m ρ c) (Proc.devRef .tc main_arg10) = _
  after_results_simp
  all_goals (try rw [at12_arg10])
  all_goals rfl

/-- At the seventh kernel's exit `main_v3`, which the kernel does not touch, is as the stretch before left it. -/
theorem at14_v3 : W14 m ρ c (Proc.devRef .tc main_v3) = Cert.ReferenceIdeal.Read.val_main_v3 (F := Ideal) (m ((c : Thread nD τ).loc main_arg1)) := by
  refine (W14_of_ne m ρ c main_v3 (by decide)).trans ?_
  show StableHlo.after hostOps6 (W12 m ρ c) (Proc.devRef .tc main_v3) = _
  after_results_simp
  all_goals (try rw [at12_v3])
  all_goals rfl

/-- At the seventh kernel's exit its result is the message of what it was entered with: the reference's clipped sum. -/
theorem at14_v109 : W14 m ρ c (Proc.devRef .tc main_v109) = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  refine (W14_arr m ρ c 4).trans ?_
  refine (Region6.final (V13 m ρ) c).trans ?_
  show edgeMsg (n := 320000) (k := 256) (e := 10) (c := 256) (W13 m ρ c (Proc.devRef .tc main_v108)) (W13 m ρ c (Proc.devRef .tc main_arg2))
    (W13 m ρ c (Proc.devRef .tc main_arg9)) (W13 m ρ c (Proc.devRef .tc main_arg10)) = _
  rw [in6_v108, in6_arg2, in6_arg9, in6_arg10]
  exact (Cert.ReferenceIdeal.Msg.msg6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))).symm

/-- At the seventh kernel's exit `main_arg11`, which the kernel does not touch, is as the stretch before left it. -/
theorem at14_arg11 : W14 m ρ c (Proc.devRef .tc main_arg11) = (m ((c : Thread nD τ).loc main_arg11)) := by
  refine (W14_of_ne m ρ c main_arg11 (by decide)).trans ?_
  show StableHlo.after hostOps6 (W12 m ρ c) (Proc.devRef .tc main_arg11) = _
  after_results_simp
  all_goals (try rw [at12_arg11])
  all_goals rfl

/-! ## The result -/

/-- After the last stretch the result buffer holds the reference's result stage of the arguments. -/
theorem result_value : W15 m ρ c (Proc.devRef .tc main_v115) = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) := by
  show StableHlo.after hostOps7 (W14 m ρ c) (Proc.devRef .tc main_v115) = _
  after_results_simp
  all_goals (try rw [at14_v3, at14_v109, at14_arg11])
  all_goals rfl

end Cert.KernelIdeal.Net

end
-- ==== Proof.KernelResult.lean ====
/-
  The kernel program's run, with its result as a function of the arguments.

  Every weakly fair execution of the idealized kernel program terminates without a fault; the result buffer ends
  holding the reference's result stage of the argument arrays as launched, and every argument array ends as
  launched.  It is the run read at every buffer, with the result buffer's contents at the last boundary named
  by the boundary-by-boundary reading, and each argument walked back to the launch memory.
-/
import proofs.«114688_j53257594471014_1_alg».proof.Proof.KernelValue

set_option maxRecDepth 16384

noncomputable section

namespace Cert.KernelIdeal.Net

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The run with the result named: the reference's result stage of the launched arguments. -/
theorem run : θ_run defs (onTc (τ := τ) (main (F := Ideal))) ⟨m, fun _ => 0, ρ⟩ (fun r => ∀ c : Dev nD,
      r.2.mem ((c.tc : Thread nD τ).loc main_v115) = Cert.ReferenceIdeal.Read.val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    ⟨(h c _ (mem_uc main_v115 (by decide))).trans (result_value m ρ c),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c),
     (h c _ (mem_uc main_arg22 (by decide))).trans (W15_main_arg22 m ρ c),
     (h c _ (mem_uc main_arg23 (by decide))).trans (W15_main_arg23 m ρ c)⟩)
    (run_all m ρ)

end Cert.KernelIdeal.Net

end
-- ==== Proof.lean ====
/-
  An edge-conditioned graph convolution network, a Pallas kernel program against its jnp reference.

  Both programs apply seven times the convolution
      gf(x, Wn, We, b) = segment_sum( max( x[src]·Wn + edge_attr·We, 0 ), dst ) + b
  (projection in, a wide convolution whose five column slices gate the rest multiplicatively, four pointwise
  convolutions, projection out).  The gathers, scatter-adds, biases, slices and gates are the same host
  operations in both programs.  They differ in the message max(x[src]·Wn + edge_attr·We, 0) only: the reference
  computes it by two host products, a sum and a clip; the kernel program by a Pallas kernel over 160 blocks of
  2000 edges, whose body narrows its operands to bf16 (the identity on extended reals), forms the two products into
  zero accumulators, adds and clips.  A row of the message depends on the same row of the gathered rows and of the
  edge attributes only, so each block the kernel writes is that block of the whole message, and the blocks tile
  the array: on extended reals both programs compute the message `edgeMsg`, entry by entry the same expression
  of the operands' entries, and the inputs' finiteness is not used.

  The frames of the two kernel programs are the generated ones; the reference's is its generated run with the
  result dropped; the idealization rewrote nothing; and the two idealized programs end with the same result
  because the kernel program's run, read boundary by boundary, ends at the reference's own result stage.
-/
import proofs.«114688_j53257594471014_1_alg».proof.Defs
import proofs.«114688_j53257594471014_1_alg».proof.Proof.Gen.Kernel
import proofs.«114688_j53257594471014_1_alg».proof.Proof.Gen.Kernel.Skeleton
import proofs.«114688_j53257594471014_1_alg».proof.Proof.Gen.Kernel.Launch
import proofs.«114688_j53257594471014_1_alg».proof.Proof.Gen.Kernel.Points
import proofs.«114688_j53257594471014_1_alg».proof.Proof.Gen.Kernel.Frame
import proofs.«114688_j53257594471014_1_alg».proof.Proof.Gen.KernelIdeal
import proofs.«114688_j53257594471014_1_alg».proof.Proof.Gen.KernelIdeal.Skeleton
import proofs.«114688_j53257594471014_1_alg».proof.Proof.Gen.KernelIdeal.Launch
import proofs.«114688_j53257594471014_1_alg».proof.Proof.Gen.KernelIdeal.Points
import proofs.«114688_j53257594471014_1_alg».proof.Proof.Gen.KernelIdeal.Frame
import proofs.«114688_j53257594471014_1_alg».proof.Proof.Gen.ReferenceIdeal
import proofs.«114688_j53257594471014_1_alg».proof.Proof.Gen.ReferenceIdeal.Run
import proofs.«114688_j53257594471014_1_alg».proof.Proof.Gen.ReferenceIdeal.Read
import proofs.«114688_j53257594471014_1_alg».proof.Proof.Gen.Pre_finite_inputs
import proofs.«114688_j53257594471014_1_alg».proof.Proof.KernelResult
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end at the reference's result stage of
    those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)),
    Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  rw [Cert.ReferenceIdeal.Read.val_main_v136_eq, h0, h1, h2, h3, h4, h5, h6, h7, h8, h9, h10, h11, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
